-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : FVec F S256x512 .f32) (main_arg1 : FVec F S256x512 .f32) (main_arg2 : FVec F S256x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S256x512 : Shape := ⟨2, ![256, 512]⟩
abbrev S1x256x512 : Shape := ⟨3, ![1, 256, 512]⟩
abbrev S3x256x512 : Shape := ⟨3, ![3, 256, 512]⟩
abbrev S3x256x1 : Shape := ⟨3, ![3, 256, 1]⟩
abbrev S1x128x512 : Shape := ⟨3, ![1, 128, 512]⟩
abbrev S1x128x1 : Shape := ⟨3, ![1, 128, 1]⟩
abbrev S128x512 : Shape := ⟨2, ![128, 512]⟩
abbrev S128 : Shape := ⟨1, ![128]⟩
abbrev S128x1 : Shape := ⟨2, ![128, 1]⟩
abbrev S1024x512 : Shape := ⟨2, ![1024, 512]⟩
abbrev S128x1024 : Shape := ⟨2, ![128, 1024]⟩
abbrev S_ : Shape := ⟨0, ![]⟩

abbrev nBuf : Space → Nat
  | .hbm => 20
  | .vmem => 12
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S3x256x512, .f32⟩
  | .hbm, ⟨7, _⟩ => ⟨S1x256x512, .f32⟩
  | .hbm, ⟨8, _⟩ => ⟨S1x256x512, .f32⟩
  | .hbm, ⟨9, _⟩ => ⟨S1x256x512, .f32⟩
  | .hbm, ⟨10, _⟩ => ⟨S3x256x512, .f32⟩
  | .hbm, ⟨11, _⟩ => ⟨S1x256x512, .f32⟩
  | .hbm, ⟨12, _⟩ => ⟨S1x256x512, .f32⟩
  | .hbm, ⟨13, _⟩ => ⟨S1x256x512, .f32⟩
  | .hbm, ⟨14, _⟩ => ⟨S3x256x512, .f32⟩
  | .hbm, ⟨15, _⟩ => ⟨S3x256x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x128x512, .f32⟩
  | .local _ .vmem, ⟨1, _⟩ => ⟨S1x128x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x1, .f32⟩
  | .local _ .vmem, ⟨11, _⟩ => ⟨S1x128x1, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 2], ![false, false]⟩

@[reducible] def k0_t1_loop : Scf.Loop 32 :=
  let c0_i32 : BitVec 32 := 0#32
  let c64_i32 : BitVec 32 := 64#32
  let v20 : BitVec 32 := Scalar.addi c0_i32 c64_i32
  let c1_i32 : BitVec 32 := 1#32
  ⟨c0_i32, v20, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S256x512_S1x256x512_1_2 : S256x512.BroadcastsInDim S1x256x512 (![1, 2] : Fin 2 → Fin S1x256x512.rank)
  concatenates_S1x256x512_S1x256x512_S1x256x512_S3x256x512_d0 : Shape.Concatenates [S1x256x512, S1x256x512, S1x256x512] S3x256x512 0
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S128x512_S128 : S128x512.Reduces [1] S128
  shapeCasts_S128_S128x1 : S128.ShapeCasts S128x1
  bitsLt_bf16_f32 : FTy.bits .bf16 < FTy.bits .f32
  rotates_S256x512_d0 : S256x512.Rotates 0 none
  concatenates_S256x512_S256x512_S256x512_S256x512_S1024x512_d0 : Shape.Concatenates [S256x512, S256x512, S256x512, S256x512] S1024x512 0
  reduces_S128x1024_S128 : S128x1024.Reduces [1] S128
  broadcasts_S128x1_S128x1024 : S128x1.Broadcasts S128x1024
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S3x256x1_S_d0_1_2 : S3x256x1.ReducesTo [0, 1, 2] S_
  h_S_ : 0 < S_.numel
  dot_S128x512_S1024x512_S128x1024_1_1_0_0_n_n_wf : DotDims.WF S128x512 S1024x512 S128x1024 [1] [1] [0] [0] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S3x256x512.size a
  hwx0_0 : ∀ i : grid0.Coords, EltTy.bits .f32 = 32 ∨ (Rect.block (s := S3x256x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S3x256x512.size a
  hwx0_1 : ∀ i : grid0.Coords, EltTy.bits .f32 = 32 ∨ (Rect.block (s := S3x256x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S3x256x512.size a
  hwx0_2 : ∀ i : grid0.Coords, EltTy.bits .f32 = 32 ∨ (Rect.block (s := S3x256x512) S1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S3x256x512.size a
  hwx0_3 : ∀ i : grid0.Coords, EltTy.bits .f32 = 32 ∨ (Rect.block (s := S3x256x512) S1x128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x512.size a ≤ S3x256x512.size a
  hwx0_4 : ∀ i : grid0.Coords, EltTy.bits .f32 = 32 ∨ (Rect.block (s := S3x256x512) S1x128x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S3x256x1.size a
  hwx0_5 : ∀ i : grid0.Coords, EltTy.bits .f32 = 32 ∨ (Rect.block (s := S3x256x1) S1x128x1.size (cc0_transform_5 i) (hinb0_5 i)).WholeWords (EltTy.packing .f32)

variable [Facts₀]

def dot_S128x512_S1024x512_S128x1024_1_1_0_0_n_n : DotDims S128x512 S1024x512 S128x1024 where
  lhsContracting := [1]
  rhsContracting := [1]
  lhsNonContracting := [0]
  rhsNonContracting := [0]
  lhsBatch := []
  rhsBatch := []
  wf := dot_S128x512_S1024x512_S128x1024_1_1_0_0_n_n_wf

abbrev win0_0 : Pipeline.Window sig grid0 :=
  Pipeline.Window.ofSpec (Memref.whole main_v3) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x512 : Shape := ⟨2, ![256, 512]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S1x256x512 : Shape := ⟨3, ![1, 256, 512]⟩
abbrev S256x256x1 : Shape := ⟨3, ![256, 256, 1]⟩
abbrev S256x256x512 : Shape := ⟨3, ![256, 256, 512]⟩
abbrev S256x256x256 : Shape := ⟨3, ![256, 256, 256]⟩
abbrev S256x65536 : Shape := ⟨2, ![256, 65536]⟩
abbrev S256x2 : Shape := ⟨2, ![256, 2]⟩

abbrev nBuf : Space → Nat
  | .hbm => 205
  | .vmem => 0
  | .smem => 0
  | _ => 0

abbrev hbmTy0_0 (i : Nat) : BufTy := match i % 128 with
  | 0 => ⟨S256x512, .f32⟩
  | 1 => ⟨S256x512, .f32⟩
  | 2 => ⟨S256x512, .f32⟩
  | 3 => ⟨S256, .i32⟩
  | 4 => ⟨S1x256, .i32⟩
  | 5 => ⟨S256x1, .i32⟩
  | 6 => ⟨S256x256, .i32⟩
  | 7 => ⟨S256x256, .i32⟩
  | 8 => ⟨S256x256, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i1⟩
  | 20 => ⟨S_, .i32⟩
  | 21 => ⟨S256x256, .i32⟩
  | 22 => ⟨S256x256, .i1⟩
  | 23 => ⟨S_, .i32⟩
  | 24 => ⟨S_, .i1⟩
  | 25 => ⟨S256x256, .i1⟩
  | 26 => ⟨S256x256, .i1⟩
  | 27 => ⟨S256x256, .i1⟩
  | 28 => ⟨S256x256, .i32⟩
  | 29 => ⟨S256x256, .i32⟩
  | 30 => ⟨S256x256, .i32⟩
  | 31 => ⟨S1x256x512, .f32⟩
  | 32 => ⟨S_, .i32⟩
  | 33 => ⟨S256x256, .i32⟩
  | 34 => ⟨S256x256, .i1⟩
  | 35 => ⟨S_, .i32⟩
  | 36 => ⟨S256x256, .i32⟩
  | 37 => ⟨S256x256, .i32⟩
  | 38 => ⟨S256x256, .i32⟩
  | 39 => ⟨S256x256x1, .i32⟩
  | 40 => ⟨S256x256x512, .f32⟩
  | 41 => ⟨S256x256x512, .f32⟩
  | 42 => ⟨S256x256x512, .f32⟩
  | 43 => ⟨S256x256x256, .f32⟩
  | 44 => ⟨S256x65536, .f32⟩
  | 45 => ⟨S_, .f32⟩
  | 46 => ⟨S256x65536, .f32⟩
  | 47 => ⟨S256x65536, .f32⟩
  | 48 => ⟨S_, .f32⟩
  | 49 => ⟨S256, .f32⟩
  | 50 => ⟨S_, .f32⟩
  | 51 => ⟨S256, .f32⟩
  | 52 => ⟨S256, .f32⟩
  | 53 => ⟨S256x1, .f32⟩
  | 54 => ⟨S256x65536, .f32⟩
  | 55 => ⟨S256x65536, .f32⟩
  | 56 => ⟨S256x65536, .f32⟩
  | 57 => ⟨S_, .f32⟩
  | 58 => ⟨S256, .f32⟩
  | 59 => ⟨S256x1, .f32⟩
  | 60 => ⟨S256x1, .f32⟩
  | 61 => ⟨S256x65536, .f32⟩
  | 62 => ⟨S256x65536, .f32⟩
  | 63 => ⟨S256, .i32⟩
  | 64 => ⟨S_, .i32⟩
  | 65 => ⟨S256, .i32⟩
  | 66 => ⟨S256, .i1⟩
  | 67 => ⟨S_, .i32⟩
  | 68 => ⟨S256, .i32⟩
  | 69 => ⟨S256, .i32⟩
  | 70 => ⟨S256, .i32⟩
  | 71 => ⟨S_, .i32⟩
  | 72 => ⟨S256, .i32⟩
  | 73 => ⟨S256, .i1⟩
  | 74 => ⟨S_, .i32⟩
  | 75 => ⟨S256, .i32⟩
  | 76 => ⟨S256, .i32⟩
  | 77 => ⟨S256, .i32⟩
  | 78 => ⟨S256x1, .i32⟩
  | 79 => ⟨S256x1, .i32⟩
  | 80 => ⟨S256x2, .i32⟩
  | 81 => ⟨S256, .f32⟩
  | 82 => ⟨S_, .f32⟩
  | 83 => ⟨S_, .f32⟩
  | 84 => ⟨S_, .f32⟩
  | 85 => ⟨S_, .f32⟩
  | 86 => ⟨S_, .f32⟩
  | 87 => ⟨S1x256x512, .f32⟩
  | 88 => ⟨S_, .i32⟩
  | 89 => ⟨S256x256, .i32⟩
  | 90 => ⟨S256x256, .i1⟩
  | 91 => ⟨S_, .i32⟩
  | 92 => ⟨S256x256, .i32⟩
  | 93 => ⟨S256x256, .i32⟩
  | 94 => ⟨S256x256, .i32⟩
  | 95 => ⟨S256x256x1, .i32⟩
  | 96 => ⟨S256x256x512, .f32⟩
  | 97 => ⟨S256x256x512, .f32⟩
  | 98 => ⟨S256x256x512, .f32⟩
  | 99 => ⟨S256x256x256, .f32⟩
  | 100 => ⟨S256x65536, .f32⟩
  | 101 => ⟨S_, .f32⟩
  | 102 => ⟨S256x65536, .f32⟩
  | 103 => ⟨S256x65536, .f32⟩
  | 104 => ⟨S_, .f32⟩
  | 105 => ⟨S256, .f32⟩
  | 106 => ⟨S_, .f32⟩
  | 107 => ⟨S256, .f32⟩
  | 108 => ⟨S256, .f32⟩
  | 109 => ⟨S256x1, .f32⟩
  | 110 => ⟨S256x65536, .f32⟩
  | 111 => ⟨S256x65536, .f32⟩
  | 112 => ⟨S256x65536, .f32⟩
  | 113 => ⟨S_, .f32⟩
  | 114 => ⟨S256, .f32⟩
  | 115 => ⟨S256x1, .f32⟩
  | 116 => ⟨S256x1, .f32⟩
  | 117 => ⟨S256x65536, .f32⟩
  | 118 => ⟨S256x65536, .f32⟩
  | 119 => ⟨S256, .i32⟩
  | 120 => ⟨S_, .i32⟩
  | 121 => ⟨S256, .i32⟩
  | 122 => ⟨S256, .i1⟩
  | 123 => ⟨S_, .i32⟩
  | 124 => ⟨S256, .i32⟩
  | 125 => ⟨S256, .i32⟩
  | 126 => ⟨S256, .i32⟩
  | 127 => ⟨S_, .i32⟩
  | _ => ⟨S256x512, .f32⟩

abbrev hbmTy0_1 (i : Nat) : BufTy := match i % 128 with
  | 0 => ⟨S256, .i32⟩
  | 1 => ⟨S256, .i1⟩
  | 2 => ⟨S_, .i32⟩
  | 3 => ⟨S256, .i32⟩
  | 4 => ⟨S256, .i32⟩
  | 5 => ⟨S256, .i32⟩
  | 6 => ⟨S256x1, .i32⟩
  | 7 => ⟨S256x1, .i32⟩
  | 8 => ⟨S256x2, .i32⟩
  | 9 => ⟨S256, .f32⟩
  | 10 => ⟨S_, .f32⟩
  | 11 => ⟨S_, .f32⟩
  | 12 => ⟨S_, .f32⟩
  | 13 => ⟨S_, .f32⟩
  | 14 => ⟨S_, .f32⟩
  | 15 => ⟨S1x256x512, .f32⟩
  | 16 => ⟨S_, .i32⟩
  | 17 => ⟨S256x256, .i32⟩
  | 18 => ⟨S256x256, .i1⟩
  | 19 => ⟨S_, .i32⟩
  | 20 => ⟨S256x256, .i32⟩
  | 21 => ⟨S256x256, .i32⟩
  | 22 => ⟨S256x256, .i32⟩
  | 23 => ⟨S256x256x1, .i32⟩
  | 24 => ⟨S256x256x512, .f32⟩
  | 25 => ⟨S256x256x512, .f32⟩
  | 26 => ⟨S256x256x512, .f32⟩
  | 27 => ⟨S256x256x256, .f32⟩
  | 28 => ⟨S256x65536, .f32⟩
  | 29 => ⟨S_, .f32⟩
  | 30 => ⟨S256x65536, .f32⟩
  | 31 => ⟨S256x65536, .f32⟩
  | 32 => ⟨S_, .f32⟩
  | 33 => ⟨S256, .f32⟩
  | 34 => ⟨S_, .f32⟩
  | 35 => ⟨S256, .f32⟩
  | 36 => ⟨S256, .f32⟩
  | 37 => ⟨S256x1, .f32⟩
  | 38 => ⟨S256x65536, .f32⟩
  | 39 => ⟨S256x65536, .f32⟩
  | 40 => ⟨S256x65536, .f32⟩
  | 41 => ⟨S_, .f32⟩
  | 42 => ⟨S256, .f32⟩
  | 43 => ⟨S256x1, .f32⟩
  | 44 => ⟨S256x1, .f32⟩
  | 45 => ⟨S256x65536, .f32⟩
  | 46 => ⟨S256x65536, .f32⟩
  | 47 => ⟨S256, .i32⟩
  | 48 => ⟨S_, .i32⟩
  | 49 => ⟨S256, .i32⟩
  | 50 => ⟨S256, .i1⟩
  | 51 => ⟨S_, .i32⟩
  | 52 => ⟨S256, .i32⟩
  | 53 => ⟨S256, .i32⟩
  | 54 => ⟨S256, .i32⟩
  | 55 => ⟨S_, .i32⟩
  | 56 => ⟨S256, .i32⟩
  | 57 => ⟨S256, .i1⟩
  | 58 => ⟨S_, .i32⟩
  | 59 => ⟨S256, .i32⟩
  | 60 => ⟨S256, .i32⟩
  | 61 => ⟨S256, .i32⟩
  | 62 => ⟨S256x1, .i32⟩
  | 63 => ⟨S256x1, .i32⟩
  | 64 => ⟨S256x2, .i32⟩
  | 65 => ⟨S256, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | _ => ⟨S256x512, .f32⟩

abbrev hbmTy (i : Nat) : BufTy := match i / 128 with
  | 0 => hbmTy0_0 i
  | 1 => hbmTy0_1 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_c_0 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_v20 : Ref sig .tc := ⟨.hbm, 47, rfl⟩
abbrev main_call1_cst : Ref sig .tc := ⟨.hbm, 48, rfl⟩
abbrev main_call1_v0 : Ref sig .tc := ⟨.hbm, 49, rfl⟩
abbrev main_call1_cst_0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_cst_1 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_v21 : Ref sig .tc := ⟨.hbm, 62, rfl⟩
abbrev main_v22 : Ref sig .tc := ⟨.hbm, 63, rfl⟩
abbrev main_c_2 : Ref sig .tc := ⟨.hbm, 64, rfl⟩
abbrev main_v23 : Ref sig .tc := ⟨.hbm, 65, rfl⟩
abbrev main_v24 : Ref sig .tc := ⟨.hbm, 66, rfl⟩
abbrev main_c_3 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_c_4 : Ref sig .tc := ⟨.hbm, 71, rfl⟩
abbrev main_v28 : Ref sig .tc := ⟨.hbm, 72, rfl⟩
abbrev main_v29 : Ref sig .tc := ⟨.hbm, 73, rfl⟩
abbrev main_c_5 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_6 : Ref sig .tc := ⟨.hbm, 82, rfl⟩
abbrev main_v37 : Ref sig .tc := ⟨.hbm, 83, rfl⟩
abbrev main_cst_7 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_c_8 : Ref sig .tc := ⟨.hbm, 88, rfl⟩
abbrev main_v41 : Ref sig .tc := ⟨.hbm, 89, rfl⟩
abbrev main_v42 : Ref sig .tc := ⟨.hbm, 90, rfl⟩
abbrev main_c_9 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_10 : Ref sig .tc := ⟨.hbm, 101, rfl⟩
abbrev main_v52 : Ref sig .tc := ⟨.hbm, 102, rfl⟩
abbrev main_v53 : Ref sig .tc := ⟨.hbm, 103, rfl⟩
abbrev main_call2_cst : Ref sig .tc := ⟨.hbm, 104, rfl⟩
abbrev main_call2_v0 : Ref sig .tc := ⟨.hbm, 105, rfl⟩
abbrev main_call2_cst_0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_cst_1 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_v54 : Ref sig .tc := ⟨.hbm, 118, rfl⟩
abbrev main_v55 : Ref sig .tc := ⟨.hbm, 119, rfl⟩
abbrev main_c_11 : Ref sig .tc := ⟨.hbm, 120, rfl⟩
abbrev main_v56 : Ref sig .tc := ⟨.hbm, 121, rfl⟩
abbrev main_v57 : Ref sig .tc := ⟨.hbm, 122, rfl⟩
abbrev main_c_12 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_c_13 : Ref sig .tc := ⟨.hbm, 127, rfl⟩
abbrev main_v61 : Ref sig .tc := ⟨.hbm, 128, rfl⟩
abbrev main_v62 : Ref sig .tc := ⟨.hbm, 129, rfl⟩
abbrev main_c_14 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_cst_15 : Ref sig .tc := ⟨.hbm, 138, rfl⟩
abbrev main_v70 : Ref sig .tc := ⟨.hbm, 139, rfl⟩
abbrev main_cst_16 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_c_17 : Ref sig .tc := ⟨.hbm, 144, rfl⟩
abbrev main_v74 : Ref sig .tc := ⟨.hbm, 145, rfl⟩
abbrev main_v75 : Ref sig .tc := ⟨.hbm, 146, rfl⟩
abbrev main_c_18 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_cst_19 : Ref sig .tc := ⟨.hbm, 157, rfl⟩
abbrev main_v85 : Ref sig .tc := ⟨.hbm, 158, rfl⟩
abbrev main_v86 : Ref sig .tc := ⟨.hbm, 159, rfl⟩
abbrev main_call3_cst : Ref sig .tc := ⟨.hbm, 160, rfl⟩
abbrev main_call3_v0 : Ref sig .tc := ⟨.hbm, 161, rfl⟩
abbrev main_call3_cst_0 : Ref sig .tc := ⟨.hbm, 162, rfl⟩
abbrev main_call3_v1 : Ref sig .tc := ⟨.hbm, 163, rfl⟩
abbrev main_call3_v2 : Ref sig .tc := ⟨.hbm, 164, rfl⟩
abbrev main_call3_v3 : Ref sig .tc := ⟨.hbm, 165, rfl⟩
abbrev main_call3_v4 : Ref sig .tc := ⟨.hbm, 166, rfl⟩
abbrev main_call3_v5 : Ref sig .tc := ⟨.hbm, 167, rfl⟩
abbrev main_call3_v6 : Ref sig .tc := ⟨.hbm, 168, rfl⟩
abbrev main_call3_cst_1 : Ref sig .tc := ⟨.hbm, 169, rfl⟩
abbrev main_call3_v7 : Ref sig .tc := ⟨.hbm, 170, rfl⟩
abbrev main_call3_v8 : Ref sig .tc := ⟨.hbm, 171, rfl⟩
abbrev main_call3_v9 : Ref sig .tc := ⟨.hbm, 172, rfl⟩
abbrev main_call3_v10 : Ref sig .tc := ⟨.hbm, 173, rfl⟩
abbrev main_v87 : Ref sig .tc := ⟨.hbm, 174, rfl⟩
abbrev main_v88 : Ref sig .tc := ⟨.hbm, 175, rfl⟩
abbrev main_c_20 : Ref sig .tc := ⟨.hbm, 176, rfl⟩
abbrev main_v89 : Ref sig .tc := ⟨.hbm, 177, rfl⟩
abbrev main_v90 : Ref sig .tc := ⟨.hbm, 178, rfl⟩
abbrev main_c_21 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_c_22 : Ref sig .tc := ⟨.hbm, 183, rfl⟩
abbrev main_v94 : Ref sig .tc := ⟨.hbm, 184, rfl⟩
abbrev main_v95 : Ref sig .tc := ⟨.hbm, 185, rfl⟩
abbrev main_c_23 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_cst_24 : Ref sig .tc := ⟨.hbm, 194, rfl⟩
abbrev main_v103 : Ref sig .tc := ⟨.hbm, 195, rfl⟩
abbrev main_cst_25 : Ref sig .tc := ⟨.hbm, 196, rfl⟩
abbrev main_v104 : Ref sig .tc := ⟨.hbm, 197, rfl⟩
abbrev main_v105 : Ref sig .tc := ⟨.hbm, 198, rfl⟩
abbrev main_cst_26 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_cst_27 : Ref sig .tc := ⟨.hbm, 203, rfl⟩
abbrev main_v109 : Ref sig .tc := ⟨.hbm, 204, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S256_S256x1_0 : S256.BroadcastsInDim S256x1 (![0] : Fin 1 → Fin S256x1.rank)
  bcast_S1x256_S256x256_0_1 : S1x256.BroadcastsInDim S256x256 (![0, 1] : Fin 2 → Fin S256x256.rank)
  bcast_S256x1_S256x256_0_1 : S256x1.BroadcastsInDim S256x256 (![0, 1] : Fin 2 → Fin S256x256.rank)
  bcast_S_S256x256 : S_.BroadcastsInDim S256x256 (![] : Fin 0 → Fin S256x256.rank)
  bcast_S256x512_S1x256x512_1_2 : S256x512.BroadcastsInDim S1x256x512 (![1, 2] : Fin 2 → Fin S1x256x512.rank)
  bcast_S256x256_S256x256x1_0_1 : S256x256.BroadcastsInDim S256x256x1 (![0, 1] : Fin 2 → Fin S256x256x1.rank)
  bcast_S1x256x512_S256x256x512_0_1_2 : S1x256x512.BroadcastsInDim S256x256x512 (![0, 1, 2] : Fin 3 → Fin S256x256x512.rank)
  shapeCasts_S256x256x256_S256x65536 : S256x256x256.ShapeCasts S256x65536
  bcast_S_S256x65536 : S_.BroadcastsInDim S256x65536 (![] : Fin 0 → Fin S256x65536.rank)
  reducesTo_S256x65536_S256_d1 : S256x65536.ReducesTo [1] S256
  h_S_ : 0 < S_.numel
  bcast_S_S256 : S_.BroadcastsInDim S256 (![] : Fin 0 → Fin S256.rank)
  bcast_S256x1_S256x65536_0_1 : S256x1.BroadcastsInDim S256x65536 (![0, 1] : Fin 2 → Fin S256x65536.rank)
  concatenates_S256x1_S256x1_S256x2_d1 : Shape.Concatenates [S256x1, S256x1] S256x2 1
  reducesTo_S256_S_d0 : S256.ReducesTo [0] S_
  gather_S256x512_S256x256x1_S256x256x512_2_0_n_n_0_2_1512_wf : GatherDims.WF S256x512 S256x256x1 S256x256x512 [2] [0] [] [0] [] 2 ![1, 512]
  dot_S256x512_S256x256x512_S256x256x256_1_2_0_01_n_n_wf : DotDims.WF S256x512 S256x256x512 S256x256x256 [1] [2] [0] [0, 1] [] []
  gather_S256x65536_S256x2_S256_n_01_n_n_01_1_11_wf : GatherDims.WF S256x65536 S256x2 S256 [] [0, 1] [] [0, 1] [] 1 ![1, 1]

variable [Facts₀]

def gather_S256x512_S256x256x1_S256x256x512_2_0_n_n_0_2_1512 : GatherDims S256x512 S256x256x1 S256x256x512 where
  offsetDims := [2]
  collapsedSliceDims := [0]
  operandBatchingDims := []
  startIndicesBatchingDims := []
  startIndexMap := [0]
  indexVectorDim := 2
  sliceSizes := ![1, 512]
  wf := gather_S256x512_S256x256x1_S256x256x512_2_0_n_n_0_2_1512_wf
def dot_S256x512_S256x256x512_S256x256x256_1_2_0_01_n_n : DotDims S256x512 S256x256x512 S256x256x256 where
  lhsContracting := [1]
  rhsContracting := [2]
  lhsNonContracting := [0]
  rhsNonContracting := [0, 1]
  lhsBatch := []
  rhsBatch := []
  wf := dot_S256x512_S256x256x512_S256x256x256_1_2_0_01_n_n_wf
def gather_S256x65536_S256x2_S256_n_01_n_n_01_1_11 : GatherDims S256x65536 S256x2 S256 where
  offsetDims := []
  collapsedSliceDims := [0, 1]
  operandBatchingDims := []
  startIndicesBatchingDims := []
  startIndexMap := [0, 1]
  indexVectorDim := 1
  sliceSizes := ![1, 1]
  wf := gather_S256x65536_S256x2_S256_n_01_n_n_01_1_11_wf

class Facts : Prop extends Facts₀ where

variable [Facts]
-- ==== Proof.KRunBody.lean ====
/-
  The kernel body of the program as printed, read at any float values, run once on whole staging buffers.

  The body reads its five input blocks through whole-block rectangles, folds the 64 trips of its
  online-softmax loop (a pure loop: it carries a running maximum and a running sum and touches no
  memory), reads the output block it is about to overwrite, and stores one whole block: the
  logarithm of the accumulated sum plus the running maximum, minus the diagonal logit.  So the
  output buffer ends at that one payload, a closed function of the five input blocks; every input
  buffer is left as found.
-/
import proofs.«157399_j21638045237260_2_alg».proof.Proof.Gen.Kernel.Launch
import proofs.«157399_j21638045237260_2_alg».proof.Proof.Gen.Kernel.Skeleton
import proofs.«157399_j21638045237260_2_alg».proof.Proof.Gen.Kernel.Points
import proofs.«157399_j21638045237260_2_alg».proof.Proof.Gen.Kernel.Loops
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the loop as a function of the carried pair: the new running maximum and the
    rescaled running sum, from the anchor block `v0` and the two whole-configuration blocks. -/
def tripFn (v0 : Vec F S1x128x512 .f32) (v2 : Vec F S1x256x512 .f32) (v4 : Vec F S1x256x512 .f32) :
    Fin k0_t1_loop.trips → FVec F S128x1 .f32 × FVec F S128x1 .f32 → FVec F S128x1 .f32 × FVec F S128x1 .f32 :=
  fun k acc => (k0_pay5 v0 v2 v4 k acc.1, k0_pay6 v0 v2 v4 k acc.1 acc.2)

/-- The carried pair after all the trips: the fold of `tripFn` from (−∞, 0). -/
def loopOut (v0 : Vec F S1x128x512 .f32) (v2 : Vec F S1x256x512 .f32) (v4 : Vec F S1x256x512 .f32) :
    FVec F S128x1 .f32 × FVec F S128x1 .f32 :=
  Scf.fold (tripFn v0 v2 v4) (k0_pay2 (F := F), k0_pay3 (F := F))

/-- What the body stores: the payload of its one store, from the five input blocks. -/
def outBlk (v0 : Vec F S1x128x512 .f32) (v2 : Vec F S1x256x512 .f32) (v4 : Vec F S1x256x512 .f32)
    (v6 : Vec F S1x128x512 .f32) (v8 : Vec F S1x128x512 .f32) : Vec F S1x128x1 .f32 :=
  k0_pay7 v0 v6 v8 (loopOut v0 v2 v4).1 (loopOut v0 v2 v4).2

set_option maxHeartbeats 1000000 in
/-- The body on whole staging buffers: the inputs' at read contents `x0 … x4`, the output's at
    anything; it runs to the continuation holding the inputs' as they were and the output's at
    `outBlk` of the inputs. -/
theorem sound_kernel (c : Dev nD) (E : Set ℕ) (i : grid0.Coords)
    (arg2 : Memref sig .tc .vmem S1x128x512 .f32) (harg2 : arg2.IsWhole)
    (arg3 : Memref sig .tc .vmem S1x256x512 .f32) (harg3 : arg3.IsWhole)
    (arg4 : Memref sig .tc .vmem S1x256x512 .f32) (harg4 : arg4.IsWhole)
    (arg5 : Memref sig .tc .vmem S1x128x512 .f32) (harg5 : arg5.IsWhole)
    (arg6 : Memref sig .tc .vmem S1x128x512 .f32) (harg6 : arg6.IsWhole)
    (arg7 : Memref sig .tc .vmem S1x128x1 .f32) (harg7 : arg7.IsWhole)
    (x0 : Vec F S1x128x512 .f32) (x1 : Vec F S1x256x512 .f32) (x2 : Vec F S1x256x512 .f32)
    (x3 : Vec F S1x128x512 .f32) (x4 : Vec F S1x128x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (outBlk x0 x1 x2 x3 x4)) -∗ K ⟨⟩))
      ⊢ wp frame (wpE (defs₀ (F := F)) Variants.none c none) E
          (cc0__symile_kernel i arg2 harg2 arg3 harg3 arg4 harg4 arg5 harg5 arg6 harg6 arg7 harg7) K := by
  simp only [cc0__symile_kernel_eq_skeleton]; unfold cc0__symile_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0, 0] : Fin 3 → Nat) = fun _ => 0 := by funext a; fin_cases a <;> rfl
  refine (View.read_writes_eq_canon _ _ _ (fun y => ⟨_, List.mem_singleton_self _,
    View.mem_set_unit_zero hz inb_S1x128x1_S1x128x1_0_0_0 y⟩)).trans ?_
  rw [View.canon_unit_zero hz]
  unfold sound_kernel.sl.r
  simp only [View.readAt_eq_ld, View.ld_unit_zero (S := S1x128x512) hz, View.ld_unit_zero (S := S1x256x512) hz]
  rfl

end Cert.Kernel.Hand

end
-- ==== Proof.KRunDat.lean ====
/-
  The proof data of the one pipeline of the program as printed, and its body obligation.

  The region finds three stacked arrays, written by the host operations before it: the anchor stack
  (window 0 reads a 128-row block of it), and two stacks each read through TWO windows — once whole
  configuration by configuration (windows 1 and 2: all 256 rows, fetched when the configuration
  changes) and once in the same 128-row blocks as the anchor (windows 3 and 4).  An array read by two
  windows is held half and half by them.  The output window holds, after the body at a point, the
  block the body stores there; every input window holds its block of its array, fetched there or
  not.
-/
import proofs.«157399_j21638045237260_2_alg».proof.Proof.KRunBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as the host operations' valuation; -/
abbrev V₀ (c : Dev nD) : Valuation τ sig (Elt F) := fun b => m ((c : Dev nD), b)
/-- and when the region is entered: the twelve operations building the three stacks have run. -/
abbrev V (c : Dev nD) (b : Ref sig .tc) : Buf (Elt F) ((c : Thread nD τ).loc b) :=
  StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`: the arrays as the region finds them; after the body at point `t` each
    input's buffer at its block and the output's at the stored block; the scoped rest as the
    invariant; nothing owed; an array two windows read split between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by
  dsimp only [dats]

/-- Each input window's current buffer holds its block at every point, fetched there or not: an
    input not fetched at a point has the block index of the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The run of the program as printed, read at any float values: the host operations building the three
  stacks, the region, the host operations reducing the region's result to the mean. What is kept of it
  here is the frame: the run ends, nothing faults, and the three argument arrays are as launched.
-/
import proofs.«157399_j21638045237260_2_alg».proof.Proof.KRunDat
import Idealize.ShloMosaic.Lib.Pipeline.Regions
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The region's result array after the run of the region. -/
abbrev OUT (c : Dev nD) : Buf (Elt F) ((cfg0.win 5).arr.view.loc (c : Thread nD τ)) := (dats m 0 c).arrAt 5 cfg0.N

/-- The buffers after the region: the result array at what the region wrote, the others as the
    region found them. -/
def V1 (c : Dev nD) : Valuation τ sig (Elt F) :=
  Function.update (StableHlo.after hostOps0 (V₀ m c)) (Proc.devRef .tc main_v12) (OUT m c)

theorem V1_v12 (c : Dev nD) : V1 m c (Proc.devRef .tc main_v12) = OUT m c := by
  unfold V1; exact Function.update_self ..

theorem V1_of_ne (c : Dev nD) (b : Ref sig .tc) (h : b ≠ main_v12) :
    V1 m c (Proc.devRef .tc b) = V m c b := by
  unfold V1; exact Function.update_of_ne (StableHlo.devRef_ne_of_ne h) ..

/-- The buffers the host operations after the region touch. -/
def S1 : Finset (DevRef τ sig) :=
  ([main_v12, main_cst, main_v13, main_cst_0, main_v14].map (Proc.devRef (τ := τ) .tc)).toFinset

theorem mem_S1 {b : Ref sig .tc} (h : b ∈ [main_v12, main_cst, main_v13, main_cst_0, main_v14]) :
    Proc.devRef (τ := τ) .tc b ∈ S1 :=
  List.mem_toFinset.mpr (List.mem_map_of_mem h)

/-- The three argument arrays, held whole as the region found them. -/
abbrev Args (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2))

theorem hostOps1_S1 : ∀ op ∈ (hostOps1 (F := F)), op.bufs ⊆ S1 := by
  intro op hop
  simp only [List.mem_cons, List.mem_nil_iff, or_false] at hop
  rcases hop with rfl | rfl | rfl | rfl
  · rw [StableHlo.nullary_bufs]; intro b hb; rw [Finset.mem_singleton] at hb; subst hb; exact mem_S1 (by decide)
  · rw [StableHlo.binary_bufs]; intro b hb; simp only [Finset.mem_insert, Finset.mem_singleton] at hb
    rcases hb with rfl | rfl | rfl <;> exact mem_S1 (by decide)
  · rw [StableHlo.nullary_bufs]; intro b hb; rw [Finset.mem_singleton] at hb; subst hb; exact mem_S1 (by decide)
  · rw [StableHlo.binary_bufs]; intro b hb; simp only [Finset.mem_insert, Finset.mem_singleton] at hb
    rcases hb with rfl | rfl | rfl <;> exact mem_S1 (by decide)

/-- The host operations after the region, over the buffers they touch. -/
def seg1 : Pipeline.HostSeg (Name := ℕ) (U := UR sig nD τ) (pcfgs (F := F)) defs₀ 𝒱₀ L lv :=
  Pipeline.HostSeg.ofOps _ _ _ _ _ S1 hostOps1 hostOps1_S1
    (by intro _ h; (repeat (cases h with | head => rfl | tail _ h => ?_)); exact nomatch h) (V1 m) (fun c => iprop(Args m c ∗ R c))

/-! ## The windows' arrays, at entry and at exit -/

/-- The buffers behind the windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v3) ↦{fullShare} W main_v3) ∗ (((c : Thread nD τ).loc main_v7) ↦{fullShare} W main_v7)
        ∗ (((c : Thread nD τ).loc main_v11) ↦{fullShare} W main_v11) ∗ (((c : Thread nD τ).loc main_v12) ↦{fullShare} W main_v12)) := by
  unfold Pipeline.arrBufs
  exact bigSep_eq_bigSepL_of_eq [main_v3, main_v7, main_v11, main_v12] (by decide) (by decide) _

/-- The windows' arrays as the proof data holds them, one by one: an array two windows read is held
    half by each. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v3) ↦{fullShare} G 0) ∗ (((c : Thread nD τ).loc main_v7) ↦{fullShare.left} G 1)
        ∗ (((c : Thread nD τ).loc main_v11) ↦{fullShare.left} G 2) ∗ (((c : Thread nD τ).loc main_v7) ↦{fullShare.right} G 3)
        ∗ (((c : Thread nD τ).loc main_v11) ↦{fullShare.right} G 4) ∗ (((c : Thread nD τ).loc main_v12) ↦{fullShare} G 5)) := by
  unfold Dat.arrays
  rw [bigSep_W0]
  try rw [(arr_whole0 0).set_eq_univ]
  try rw [(arr_whole0 1).set_eq_univ]
  try rw [(arr_whole0 2).set_eq_univ]
  try rw [(arr_whole0 3).set_eq_univ]
  try rw [(arr_whole0 4).set_eq_univ]
  try rw [(arr_whole0 5).set_eq_univ]
  rfl

/-- ENTRY: the four buffers behind the windows' arrays, whole, make the proof data's arrays — the two
    stacks read twice split in halves. -/
theorem entry_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H3, H7, H11, H12⟩
  ihave H7 := (pointsTo_share (PosShare.mem_left_op_right fullShare)).1 $$ H7
  icases H7 with ⟨H7l, H7r⟩
  ihave H11 := (pointsTo_share (PosShare.mem_left_op_right fullShare)).1 $$ H11
  icases H11 with ⟨H11l, H11r⟩
  isplitl [H3]; · iexact H3
  isplitl [H7l]; · iexact H7l
  isplitl [H11l]; · iexact H11l
  isplitl [H7r]; · iexact H7r
  isplitl [H11r]; · iexact H11r
  iexact H12

/-- The buffers the host operations after the region touch, one by one. -/
theorem held_S1 (c : Dev nD) (W : Valuation τ sig (Elt F)) :
    (StableHlo.held (c : Thread nD τ) S1 W : sProp 𝕄)
      = iprop((((c : Thread nD τ).loc main_v12) ↦{fullShare} W (Proc.devRef .tc main_v12))
        ∗ (((c : Thread nD τ).loc main_cst) ↦{fullShare} W (Proc.devRef .tc main_cst))
        ∗ (((c : Thread nD τ).loc main_v13) ↦{fullShare} W (Proc.devRef .tc main_v13))
        ∗ (((c : Thread nD τ).loc main_cst_0) ↦{fullShare} W (Proc.devRef .tc main_cst_0))
        ∗ (((c : Thread nD τ).loc main_v14) ↦{fullShare} W (Proc.devRef .tc main_v14))) := by
  unfold StableHlo.held S1
  rw [bigSep_eq_bigSepL _ (List.Nodup.map (Proc.devRef_injective _) (by decide))]
  rfl

/-! ## The region -/

set_option backward.isDefEq.respectTransparency.types false in
/-- The region: entered from what the first host stretch left — the four buffers behind the windows'
    arrays into the pipeline, every other unscoped buffer bypassing —, left with the result array at
    what the region wrote, the buffers the last host stretch touches sorted out, the arguments beside
    them. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (V1 m c) ∗ Args m c ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ (Pipeline.pin (pcfgs (F := F)) adm) 0 winFacts₀0.arr_unscoped c (V m c)]
    iintro ⟨⟨⟨Ha, Hrest⟩, HO⟩, -, -⟩
    ihave Ha := (entry_arrays m c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays0_eq, unscopedRest0_eq, held_S1, V1_v12, V1_of_ne m c main_cst (by decide), V1_of_ne m c main_v13 (by decide),
      V1_of_ne m c main_cst_0 (by decide), V1_of_ne m c main_v14 (by decide)]
    iintro ⟨⟨-, -, -, -, -, H12⟩, HO, -, ⟨Ha0, Ha1, Ha2, -, -, -, -, -, -, -, -, -, Hcst, H13, Hcst0, H14⟩⟩
    imodintro
    isplitl [H12 Hcst H13 Hcst0 H14]
    · isplitl [H12]; · iexact H12
      isplitl [Hcst]; · iexact Hcst
      isplitl [H13]; · iexact H13
      isplitl [Hcst0]; · iexact Hcst0
      iexact H14
    isplitl [Ha0 Ha1 Ha2]
    · isplitl [Ha0]; · iexact Ha0
      isplitl [Ha1]; · iexact Ha1
      iexact Ha2
    unfold Pipeline.Dat.owesAt Pipeline.owesWithin
    icases HO with ⟨%W, -, HO⟩; iexists W; iexact HO

/-! ## The run -/

/-- @main as the list of its three segments. -/
abbrev segs : List (Pipeline.Seg (pcfgs (F := F)) adm (dats m) () defs₀ 𝒱₀ L lv) :=
  [.host (seg0 m), .region (reg0 m), .host (seg1 m)]

/-- What the last host stretch leaves: the buffers it touches after its four operations, the
    arguments beside them. -/
def Tₙ (c : Dev nD) : sProp 𝕄 :=
  iprop(StableHlo.held (c : Thread nD τ) S1 (StableHlo.after hostOps1 (V1 m c)) ∗ Args m c)

/-- What the run ends with: the result buffer at the last host stretch's value of what the region
    wrote, the three arguments as the region found them. -/
def QC : PUnit × MemSt nD τ sig (Elt F) → Prop := fun r => ∀ c : Dev nD,
  r.2.mem ((c : Thread nD τ).loc main_v14) = StableHlo.after hostOps1 (V1 m c) (Proc.devRef .tc main_v14)
    ∧ r.2.mem ((c : Thread nD τ).loc main_arg0) = V m c main_arg0
    ∧ r.2.mem ((c : Thread nD τ).loc main_arg1) = V m c main_arg1
    ∧ r.2.mem ((c : Thread nD τ).loc main_arg2) = V m c main_arg2

set_option backward.isDefEq.respectTransparency.types false in
/-- At the compiled mesh, for any float values, from any memory with zero counters: every weakly fair
    execution of @main on the TensorCores terminates, nothing faulting, in a state satisfying `QC`. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (V1 m c)) ∗ Args m c ∗ R c) ⊢ _
      unfold Tₙ
      iintro ⟨Hh, Ha, HR⟩
      isplitr [HR]
      · isplitl [Hh]; · iexact Hh
        iexact Ha
      iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v14) = StableHlo.after hostOps1 (V1 m c) (Proc.devRef .tc main_v14)
      ∧ s.mem ((c : Thread nD τ).loc main_arg0) = V m c main_arg0
      ∧ s.mem ((c : Thread nD τ).loc main_arg1) = V m c main_arg1
      ∧ s.mem ((c : Thread nD τ).loc main_arg2) = V m c main_arg2)
    (hfin := fun c s' => by
      unfold Tₙ; rw [held_S1]
      iintro ⟨⟨⟨-, -, -, -, H14⟩, Ha0, Ha1, Ha2⟩, HSI⟩
      icombine HSI H14 gives %h14
      icombine HSI Ha0 gives %h0
      icombine HSI Ha1 gives %h1
      icombine HSI Ha2 gives %h2
      imodintro
      isplitr
      · ipureintro
        exact ⟨Buf.eq_of_forall_mem_univ h14, Buf.eq_of_forall_mem_univ h0, Buf.eq_of_forall_mem_univ h1, Buf.eq_of_forall_mem_univ h2⟩
      iexact HSI)
    (hQ := fun _ h => h)

/-- No host operation before the region writes an argument. -/
theorem V_main_arg0 (c : Dev nD) : V m c main_arg0 = m ((c : Thread nD τ).loc main_arg0) := by
  show StableHlo.after hostOps0 (V₀ m c) (Proc.devRef .tc main_arg0) = _
  after_results
theorem V_main_arg1 (c : Dev nD) : V m c main_arg1 = m ((c : Thread nD τ).loc main_arg1) := by
  show StableHlo.after hostOps0 (V₀ m c) (Proc.devRef .tc main_arg1) = _
  after_results
theorem V_main_arg2 (c : Dev nD) : V m c main_arg2 = m ((c : Thread nD τ).loc main_arg2) := by
  show StableHlo.after hostOps0 (V₀ m c) (Proc.devRef .tc main_arg2) = _
  after_results

/-- THE FRAME: every weakly fair execution terminates, nothing faulting, the three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.1.trans (V_main_arg0 m c), (h c).2.2.1.trans (V_main_arg1 m c),
    (h c).2.2.2.trans (V_main_arg2 m c)⟩) (run_main m ρ)

end Cert.Kernel.Hand

end
-- ==== Proof.KIdealRunBody.lean ====
/-
  The kernel body of the idealized program, run once on whole staging buffers.

  The body reads its five input blocks through whole-block rectangles, folds the 64 trips of its
  online-softmax loop (a pure loop: it carries a running maximum and a running sum and touches no
  memory), reads the output block it is about to overwrite, and stores one whole block: the
  logarithm of the accumulated sum plus the running maximum, minus the diagonal logit.  So the
  output buffer ends at that one payload, a closed function of the five input blocks; every input
  buffer is left as found.
-/
import proofs.«157399_j21638045237260_2_alg».proof.Proof.Gen.KernelIdeal.Launch
import proofs.«157399_j21638045237260_2_alg».proof.Proof.Gen.KernelIdeal.Skeleton
import proofs.«157399_j21638045237260_2_alg».proof.Proof.Gen.KernelIdeal.Points
import proofs.«157399_j21638045237260_2_alg».proof.Proof.Gen.KernelIdeal.Loops
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the loop as a function of the carried pair: the new running maximum and the
    rescaled running sum, from the anchor block `v0` and the two whole-configuration blocks. -/
def tripFn (v0 : Vec F S1x128x512 .f32) (v2 : Vec F S1x256x512 .f32) (v4 : Vec F S1x256x512 .f32) :
    Fin k0_t1_loop.trips → FVec F S128x1 .f32 × FVec F S128x1 .f32 → FVec F S128x1 .f32 × FVec F S128x1 .f32 :=
  fun k acc => (k0_pay5 v0 v2 v4 k acc.1, k0_pay6 v0 v2 v4 k acc.1 acc.2)

/-- The carried pair after all the trips: the fold of `tripFn` from (−∞, 0). -/
def loopOut (v0 : Vec F S1x128x512 .f32) (v2 : Vec F S1x256x512 .f32) (v4 : Vec F S1x256x512 .f32) :
    FVec F S128x1 .f32 × FVec F S128x1 .f32 :=
  Scf.fold (tripFn v0 v2 v4) (k0_pay2 (F := F), k0_pay3 (F := F))

/-- What the body stores: the payload of its one store, from the five input blocks. -/
def outBlk (v0 : Vec F S1x128x512 .f32) (v2 : Vec F S1x256x512 .f32) (v4 : Vec F S1x256x512 .f32)
    (v6 : Vec F S1x128x512 .f32) (v8 : Vec F S1x128x512 .f32) : Vec F S1x128x1 .f32 :=
  k0_pay7 v0 v6 v8 (loopOut v0 v2 v4).1 (loopOut v0 v2 v4).2

set_option maxHeartbeats 1000000 in
/-- The body on whole staging buffers: the inputs' at read contents `x0 … x4`, the output's at
    anything; it runs to the continuation holding the inputs' as they were and the output's at
    `outBlk` of the inputs. -/
theorem sound_kernel (c : Dev nD) (E : Set ℕ) (i : grid0.Coords)
    (arg2 : Memref sig .tc .vmem S1x128x512 .f32) (harg2 : arg2.IsWhole)
    (arg3 : Memref sig .tc .vmem S1x256x512 .f32) (harg3 : arg3.IsWhole)
    (arg4 : Memref sig .tc .vmem S1x256x512 .f32) (harg4 : arg4.IsWhole)
    (arg5 : Memref sig .tc .vmem S1x128x512 .f32) (harg5 : arg5.IsWhole)
    (arg6 : Memref sig .tc .vmem S1x128x512 .f32) (harg6 : arg6.IsWhole)
    (arg7 : Memref sig .tc .vmem S1x128x1 .f32) (harg7 : arg7.IsWhole)
    (x0 : Vec F S1x128x512 .f32) (x1 : Vec F S1x256x512 .f32) (x2 : Vec F S1x256x512 .f32)
    (x3 : Vec F S1x128x512 .f32) (x4 : Vec F S1x128x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (outBlk x0 x1 x2 x3 x4)) -∗ K ⟨⟩))
      ⊢ wp frame (wpE (defs₀ (F := F)) Variants.none c none) E
          (cc0__symile_kernel i arg2 harg2 arg3 harg3 arg4 harg4 arg5 harg5 arg6 harg6 arg7 harg7) K := by
  simp only [cc0__symile_kernel_eq_skeleton]; unfold cc0__symile_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0, 0] : Fin 3 → Nat) = fun _ => 0 := by funext a; fin_cases a <;> rfl
  refine (View.read_writes_eq_canon _ _ _ (fun y => ⟨_, List.mem_singleton_self _,
    View.mem_set_unit_zero hz inb_S1x128x1_S1x128x1_0_0_0 y⟩)).trans ?_
  rw [View.canon_unit_zero hz]
  unfold sound_kernel.sl.r
  simp only [View.readAt_eq_ld, View.ld_unit_zero (S := S1x128x512) hz, View.ld_unit_zero (S := S1x256x512) hz]
  rfl

end Cert.KernelIdeal.Hand

end
-- ==== Proof.KIdealRunDat.lean ====
/-
  The proof data of the one pipeline of the idealized program, and its body obligation.

  The region finds three stacked arrays, written by the host operations before it: the anchor stack
  (window 0 reads a 128-row block of it), and two stacks each read through TWO windows — once whole
  configuration by configuration (windows 1 and 2: all 256 rows, fetched when the configuration
  changes) and once in the same 128-row blocks as the anchor (windows 3 and 4).  An array read by two
  windows is held half and half by them.  The output window holds, after the body at a point, the
  block the body stores there; every input window holds its block of its array, fetched there or
  not.
-/
import proofs.«157399_j21638045237260_2_alg».proof.Proof.KIdealRunBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as the host operations' valuation; -/
abbrev V₀ (c : Dev nD) : Valuation τ sig (Elt F) := fun b => m ((c : Dev nD), b)
/-- and when the region is entered: the twelve operations building the three stacks have run. -/
abbrev V (c : Dev nD) (b : Ref sig .tc) : Buf (Elt F) ((c : Thread nD τ).loc b) :=
  StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`: the arrays as the region finds them; after the body at point `t` each
    input's buffer at its block and the output's at the stored block; the scoped rest as the
    invariant; nothing owed; an array two windows read split between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by
  dsimp only [dats]

/-- Each input window's current buffer holds its block at every point, fetched there or not: an
    input not fetched at a point has the block index of the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIdealRun.lean ====
/-
  The run of the idealized program: the host operations building the three stacks, the region, the
  host operations reducing the region's result to the mean.
-/
import proofs.«157399_j21638045237260_2_alg».proof.Proof.KIdealRunDat
import Idealize.ShloMosaic.Lib.Pipeline.Regions
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The region's result array after the run of the region. -/
abbrev OUT (c : Dev nD) : Buf (Elt F) ((cfg0.win 5).arr.view.loc (c : Thread nD τ)) := (dats m 0 c).arrAt 5 cfg0.N

/-- The buffers after the region: the result array at what the region wrote, the others as the
    region found them. -/
def V1 (c : Dev nD) : Valuation τ sig (Elt F) :=
  Function.update (StableHlo.after hostOps0 (V₀ m c)) (Proc.devRef .tc main_v12) (OUT m c)

theorem V1_v12 (c : Dev nD) : V1 m c (Proc.devRef .tc main_v12) = OUT m c := by
  unfold V1; exact Function.update_self ..

theorem V1_of_ne (c : Dev nD) (b : Ref sig .tc) (h : b ≠ main_v12) :
    V1 m c (Proc.devRef .tc b) = V m c b := by
  unfold V1; exact Function.update_of_ne (StableHlo.devRef_ne_of_ne h) ..

/-- The buffers the host operations after the region touch. -/
def S1 : Finset (DevRef τ sig) :=
  ([main_v12, main_cst, main_v13, main_cst_0, main_v14].map (Proc.devRef (τ := τ) .tc)).toFinset

theorem mem_S1 {b : Ref sig .tc} (h : b ∈ [main_v12, main_cst, main_v13, main_cst_0, main_v14]) :
    Proc.devRef (τ := τ) .tc b ∈ S1 :=
  List.mem_toFinset.mpr (List.mem_map_of_mem h)

/-- The three argument arrays, held whole as the region found them. -/
abbrev Args (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2))

theorem hostOps1_S1 : ∀ op ∈ (hostOps1 (F := F)), op.bufs ⊆ S1 := by
  intro op hop
  simp only [List.mem_cons, List.mem_nil_iff, or_false] at hop
  rcases hop with rfl | rfl | rfl | rfl
  · rw [StableHlo.nullary_bufs]; intro b hb; rw [Finset.mem_singleton] at hb; subst hb; exact mem_S1 (by decide)
  · rw [StableHlo.binary_bufs]; intro b hb; simp only [Finset.mem_insert, Finset.mem_singleton] at hb
    rcases hb with rfl | rfl | rfl <;> exact mem_S1 (by decide)
  · rw [StableHlo.nullary_bufs]; intro b hb; rw [Finset.mem_singleton] at hb; subst hb; exact mem_S1 (by decide)
  · rw [StableHlo.binary_bufs]; intro b hb; simp only [Finset.mem_insert, Finset.mem_singleton] at hb
    rcases hb with rfl | rfl | rfl <;> exact mem_S1 (by decide)

/-- The host operations after the region, over the buffers they touch. -/
def seg1 : Pipeline.HostSeg (Name := ℕ) (U := UR sig nD τ) (pcfgs (F := F)) defs₀ 𝒱₀ L lv :=
  Pipeline.HostSeg.ofOps _ _ _ _ _ S1 hostOps1 hostOps1_S1
    (by intro _ h; (repeat (cases h with | head => rfl | tail _ h => ?_)); exact nomatch h) (V1 m) (fun c => iprop(Args m c ∗ R c))

/-! ## The windows' arrays, at entry and at exit -/

/-- The buffers behind the windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v3) ↦{fullShare} W main_v3) ∗ (((c : Thread nD τ).loc main_v7) ↦{fullShare} W main_v7)
        ∗ (((c : Thread nD τ).loc main_v11) ↦{fullShare} W main_v11) ∗ (((c : Thread nD τ).loc main_v12) ↦{fullShare} W main_v12)) := by
  unfold Pipeline.arrBufs
  exact bigSep_eq_bigSepL_of_eq [main_v3, main_v7, main_v11, main_v12] (by decide) (by decide) _

/-- The windows' arrays as the proof data holds them, one by one: an array two windows read is held
    half by each. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v3) ↦{fullShare} G 0) ∗ (((c : Thread nD τ).loc main_v7) ↦{fullShare.left} G 1)
        ∗ (((c : Thread nD τ).loc main_v11) ↦{fullShare.left} G 2) ∗ (((c : Thread nD τ).loc main_v7) ↦{fullShare.right} G 3)
        ∗ (((c : Thread nD τ).loc main_v11) ↦{fullShare.right} G 4) ∗ (((c : Thread nD τ).loc main_v12) ↦{fullShare} G 5)) := by
  unfold Dat.arrays
  rw [bigSep_W0]
  try rw [(arr_whole0 0).set_eq_univ]
  try rw [(arr_whole0 1).set_eq_univ]
  try rw [(arr_whole0 2).set_eq_univ]
  try rw [(arr_whole0 3).set_eq_univ]
  try rw [(arr_whole0 4).set_eq_univ]
  try rw [(arr_whole0 5).set_eq_univ]
  rfl

/-- ENTRY: the four buffers behind the windows' arrays, whole, make the proof data's arrays — the two
    stacks read twice split in halves. -/
theorem entry_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H3, H7, H11, H12⟩
  ihave H7 := (pointsTo_share (PosShare.mem_left_op_right fullShare)).1 $$ H7
  icases H7 with ⟨H7l, H7r⟩
  ihave H11 := (pointsTo_share (PosShare.mem_left_op_right fullShare)).1 $$ H11
  icases H11 with ⟨H11l, H11r⟩
  isplitl [H3]; · iexact H3
  isplitl [H7l]; · iexact H7l
  isplitl [H11l]; · iexact H11l
  isplitl [H7r]; · iexact H7r
  isplitl [H11r]; · iexact H11r
  iexact H12

/-- The buffers the host operations after the region touch, one by one. -/
theorem held_S1 (c : Dev nD) (W : Valuation τ sig (Elt F)) :
    (StableHlo.held (c : Thread nD τ) S1 W : sProp 𝕄)
      = iprop((((c : Thread nD τ).loc main_v12) ↦{fullShare} W (Proc.devRef .tc main_v12))
        ∗ (((c : Thread nD τ).loc main_cst) ↦{fullShare} W (Proc.devRef .tc main_cst))
        ∗ (((c : Thread nD τ).loc main_v13) ↦{fullShare} W (Proc.devRef .tc main_v13))
        ∗ (((c : Thread nD τ).loc main_cst_0) ↦{fullShare} W (Proc.devRef .tc main_cst_0))
        ∗ (((c : Thread nD τ).loc main_v14) ↦{fullShare} W (Proc.devRef .tc main_v14))) := by
  unfold StableHlo.held S1
  rw [bigSep_eq_bigSepL _ (List.Nodup.map (Proc.devRef_injective _) (by decide))]
  rfl

/-! ## The region -/

set_option backward.isDefEq.respectTransparency.types false in
/-- The region: entered from what the first host stretch left — the four buffers behind the windows'
    arrays into the pipeline, every other unscoped buffer bypassing —, left with the result array at
    what the region wrote, the buffers the last host stretch touches sorted out, the arguments beside
    them. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (V1 m c) ∗ Args m c ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ (Pipeline.pin (pcfgs (F := F)) adm) 0 winFacts₀0.arr_unscoped c (V m c)]
    iintro ⟨⟨⟨Ha, Hrest⟩, HO⟩, -, -⟩
    ihave Ha := (entry_arrays m c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays0_eq, unscopedRest0_eq, held_S1, V1_v12, V1_of_ne m c main_cst (by decide), V1_of_ne m c main_v13 (by decide),
      V1_of_ne m c main_cst_0 (by decide), V1_of_ne m c main_v14 (by decide)]
    iintro ⟨⟨-, -, -, -, -, H12⟩, HO, -, ⟨Ha0, Ha1, Ha2, -, -, -, -, -, -, -, -, -, Hcst, H13, Hcst0, H14⟩⟩
    imodintro
    isplitl [H12 Hcst H13 Hcst0 H14]
    · isplitl [H12]; · iexact H12
      isplitl [Hcst]; · iexact Hcst
      isplitl [H13]; · iexact H13
      isplitl [Hcst0]; · iexact Hcst0
      iexact H14
    isplitl [Ha0 Ha1 Ha2]
    · isplitl [Ha0]; · iexact Ha0
      isplitl [Ha1]; · iexact Ha1
      iexact Ha2
    unfold Pipeline.Dat.owesAt Pipeline.owesWithin
    icases HO with ⟨%W, -, HO⟩; iexists W; iexact HO

/-! ## The run -/

/-- @main as the list of its three segments. -/
abbrev segs : List (Pipeline.Seg (pcfgs (F := F)) adm (dats m) () defs₀ 𝒱₀ L lv) :=
  [.host (seg0 m), .region (reg0 m), .host (seg1 m)]

/-- What the last host stretch leaves: the buffers it touches after its four operations, the
    arguments beside them. -/
def Tₙ (c : Dev nD) : sProp 𝕄 :=
  iprop(StableHlo.held (c : Thread nD τ) S1 (StableHlo.after hostOps1 (V1 m c)) ∗ Args m c)

/-- What the run ends with: the result buffer at the last host stretch's value of what the region
    wrote, the three arguments as the region found them. -/
def QC : PUnit × MemSt nD τ sig (Elt F) → Prop := fun r => ∀ c : Dev nD,
  r.2.mem ((c : Thread nD τ).loc main_v14) = StableHlo.after hostOps1 (V1 m c) (Proc.devRef .tc main_v14)
    ∧ r.2.mem ((c : Thread nD τ).loc main_arg0) = V m c main_arg0
    ∧ r.2.mem ((c : Thread nD τ).loc main_arg1) = V m c main_arg1
    ∧ r.2.mem ((c : Thread nD τ).loc main_arg2) = V m c main_arg2

set_option backward.isDefEq.respectTransparency.types false in
/-- At the compiled mesh, for any float values, from any memory with zero counters: every weakly fair
    execution of @main on the TensorCores terminates, nothing faulting, in a state satisfying `QC`. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (V1 m c)) ∗ Args m c ∗ R c) ⊢ _
      unfold Tₙ
      iintro ⟨Hh, Ha, HR⟩
      isplitr [HR]
      · isplitl [Hh]; · iexact Hh
        iexact Ha
      iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v14) = StableHlo.after hostOps1 (V1 m c) (Proc.devRef .tc main_v14)
      ∧ s.mem ((c : Thread nD τ).loc main_arg0) = V m c main_arg0
      ∧ s.mem ((c : Thread nD τ).loc main_arg1) = V m c main_arg1
      ∧ s.mem ((c : Thread nD τ).loc main_arg2) = V m c main_arg2)
    (hfin := fun c s' => by
      unfold Tₙ; rw [held_S1]
      iintro ⟨⟨⟨-, -, -, -, H14⟩, Ha0, Ha1, Ha2⟩, HSI⟩
      icombine HSI H14 gives %h14
      icombine HSI Ha0 gives %h0
      icombine HSI Ha1 gives %h1
      icombine HSI Ha2 gives %h2
      imodintro
      isplitr
      · ipureintro
        exact ⟨Buf.eq_of_forall_mem_univ h14, Buf.eq_of_forall_mem_univ h0, Buf.eq_of_forall_mem_univ h1, Buf.eq_of_forall_mem_univ h2⟩
      iexact HSI)
    (hQ := fun _ h => h)

/-- No host operation before the region writes an argument. -/
theorem V_main_arg0 (c : Dev nD) : V m c main_arg0 = m ((c : Thread nD τ).loc main_arg0) := by
  show StableHlo.after hostOps0 (V₀ m c) (Proc.devRef .tc main_arg0) = _
  after_results
theorem V_main_arg1 (c : Dev nD) : V m c main_arg1 = m ((c : Thread nD τ).loc main_arg1) := by
  show StableHlo.after hostOps0 (V₀ m c) (Proc.devRef .tc main_arg1) = _
  after_results
theorem V_main_arg2 (c : Dev nD) : V m c main_arg2 = m ((c : Thread nD τ).loc main_arg2) := by
  show StableHlo.after hostOps0 (V₀ m c) (Proc.devRef .tc main_arg2) = _
  after_results

/-- The last host stretch's value: the sum of the region's result over all of it, divided by 768. -/
theorem tail_value (c : Dev nD) :
    StableHlo.after hostOps1 (V1 m c) (Proc.devRef .tc main_v14)
      = Host.divf (Host.reduceAdd (OUT m c) (constant S_ .f32 0x00000000#32) reducesTo_S3x256x1_S_d0_1_2 h_S_)
          (constant S_ .f32 0x44400000#32) := by
  after_results
  rw [V1_v12]

/-- THE FRAME: every weakly fair execution terminates, nothing faulting, the three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.1.trans (V_main_arg0 m c), (h c).2.2.1.trans (V_main_arg1 m c),
    (h c).2.2.2.trans (V_main_arg2 m c)⟩) (run_main m ρ)

/-- THE VALUE RUN: the result is the mean over the region's result array; the arguments unchanged. -/
theorem run_value : θ_run defs (onTc (τ := τ) (main (F := F))) ⟨m, fun _ => 0, ρ⟩ (fun r => ∀ c : Dev nD,
      r.2.mem ((c.tc : Thread nD τ).loc main_v14)
        = Host.divf (Host.reduceAdd (OUT m c) (constant S_ .f32 0x00000000#32) reducesTo_S3x256x1_S_d0_1_2 h_S_)
            (constant S_ .f32 0x44400000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (tail_value m c), (h c).2.1.trans (V_main_arg0 m c),
    (h c).2.2.1.trans (V_main_arg1 m c), (h c).2.2.2.trans (V_main_arg2 m c)⟩) (run_main m ρ)

end Cert.KernelIdeal.Hand

end
-- ==== Proof.RefOps.lean ====
/-
  The reference program's @main as a list of its host operations, in order, the bodies of the functions it
  calls (the remainder with its select, and the log-softmax three times) written out at their call sites
  over the buffers each call names. The list is cut into stretches that follow the computation: the table
  of shifts, then for each of the three configurations the logits, their log-softmax and the mean of the
  diagonal, then the total.
-/
import proofs.«157399_j21638045237260_2_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 0 … 27: the shift table: the two iotas broadcast and subtracted, then the remainder modulo 256 (the sign fix of the floored remainder included). -/
abbrev opsA : List (HloOp τ sig (Elt F)) :=
  [ StableHlo.nullary main_v0 (iotaInDim S256 32 0),
    StableHlo.unary main_v0 main_v1 (broadcastInDim S1x256 ![1] bcast_S256_S1x256_1 : (⟨S256, .i32⟩ : BufTy).Contents (Elt F) → (⟨S1x256, .i32⟩ : BufTy).Contents (Elt F)),
    StableHlo.unary main_v0 main_v2 (broadcastInDim S256x1 ![0] bcast_S256_S256x1_0 : (⟨S256, .i32⟩ : BufTy).Contents (Elt F) → (⟨S256x1, .i32⟩ : BufTy).Contents (Elt F)),
    StableHlo.unary main_v1 main_v3 (broadcastInDim S256x256 ![0, 1] bcast_S1x256_S256x256_0_1 : (⟨S1x256, .i32⟩ : BufTy).Contents (Elt F) → (⟨S256x256, .i32⟩ : BufTy).Contents (Elt F)),
    StableHlo.unary main_v2 main_v4 (broadcastInDim S256x256 ![0, 1] bcast_S256x1_S256x256_0_1 : (⟨S256x1, .i32⟩ : BufTy).Contents (Elt F) → (⟨S256x256, .i32⟩ : BufTy).Contents (Elt F)),
    StableHlo.binary main_v3 main_v4 main_v5 (subi : (⟨S256x256, .i32⟩ : BufTy).Contents (Elt F) → (⟨S256x256, .i32⟩ : BufTy).Contents (Elt F) → (⟨S256x256, .i32⟩ : BufTy).Contents (Elt F)),
    StableHlo.nullary main_c (constantI S_ 32 256#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S256x256 ![] bcast_S_S256x256),
    StableHlo.TRef.binary (.of main_v5 : StableHlo.TRef sig ⟨S256x256, .i32⟩) main_call0.v3 main_call0.v4 Host.remsi,
    StableHlo.TRef.nullary main_call0.c_1 (constantI S_ 32 0#32),
    StableHlo.TRef.unary main_call0.c_1 main_call0.v5 (broadcastInDim S256x256 ![] bcast_S_S256x256),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S256x256 ![] bcast_S_S256x256),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S256x256 ![] bcast_S_S256x256),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S256x256 ![] bcast_S_S256x256),
    StableHlo.TRef.binary main_call0.v4 main_call0.v13 main_call0.v14 addi,
    StableHlo.TRef.ternary main_call0.v12 main_call0.v14 main_call0.v4 main_call0.v15 select ]

/-- Operations 28 … 44: configuration 0: the rolled rows gathered, multiplied, contracted with the anchor rows, flattened. -/
abbrev opsB0 : List (HloOp τ sig (Elt F)) :=
  [ StableHlo.unary main_arg1 main_v7 (broadcastInDim S1x256x512 ![1, 2] bcast_S256x512_S1x256x512_1_2 : (⟨S256x512, .f32⟩ : BufTy).Contents (Elt F) → (⟨S1x256x512, .f32⟩ : BufTy).Contents (Elt F)),
    StableHlo.nullary main_c_0 (constantI S_ 32 0#32),
    StableHlo.unary main_c_0 main_v8 (broadcastInDim S256x256 ![] bcast_S_S256x256 : (⟨S_, .i32⟩ : BufTy).Contents (Elt F) → (⟨S256x256, .i32⟩ : BufTy).Contents (Elt F)),
    StableHlo.binary main_v6 main_v8 main_v9 (cmpi .slt : (⟨S256x256, .i32⟩ : BufTy).Contents (Elt F) → (⟨S256x256, .i32⟩ : BufTy).Contents (Elt F) → (⟨S256x256, .i1⟩ : BufTy).Contents (Elt F)),
    StableHlo.nullary main_c_1 (constantI S_ 32 256#32),
    StableHlo.unary main_c_1 main_v10 (broadcastInDim S256x256 ![] bcast_S_S256x256 : (⟨S_, .i32⟩ : BufTy).Contents (Elt F) → (⟨S256x256, .i32⟩ : BufTy).Contents (Elt F)),
    StableHlo.binary main_v6 main_v10 main_v11 (addi : (⟨S256x256, .i32⟩ : BufTy).Contents (Elt F) → (⟨S256x256, .i32⟩ : BufTy).Contents (Elt F) → (⟨S256x256, .i32⟩ : BufTy).Contents (Elt F)),
    StableHlo.ternary main_v9 main_v11 main_v6 main_v12 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    StableHlo.unary main_v12 main_v13 (broadcastInDim S256x256x1 ![0, 1] bcast_S256x256_S256x256x1_0_1 : (⟨S256x256, .i32⟩ : BufTy).Contents (Elt F) → (⟨S256x256x1, .i32⟩ : BufTy).Contents (Elt F)),
    StableHlo.binary main_arg2 main_v13 main_v14 ((fun x i => Host.gather gather_S256x512_S256x256x1_S256x256x512_2_0_n_n_0_2_1512 x i) : (⟨S256x512, .f32⟩ : BufTy).Contents (Elt F) → (⟨S256x256x1, .i32⟩ : BufTy).Contents (Elt F) → (⟨S256x256x512, .f32⟩ : BufTy).Contents (Elt F)),
    StableHlo.unary main_v7 main_v15 (broadcastInDim S256x256x512 ![0, 1, 2] bcast_S1x256x512_S256x256x512_0_1_2 : (⟨S1x256x512, .f32⟩ : BufTy).Contents (Elt F) → (⟨S256x256x512, .f32⟩ : BufTy).Contents (Elt F)),
    StableHlo.binary main_v15 main_v14 main_v16 (mulf : (⟨S256x256x512, .f32⟩ : BufTy).Contents (Elt F) → (⟨S256x256x512, .f32⟩ : BufTy).Contents (Elt F) → (⟨S256x256x512, .f32⟩ : BufTy).Contents (Elt F)),
    StableHlo.binary main_arg0 main_v16 main_v17 ((fun l r => Host.dotGeneral dot_S256x512_S256x256x512_S256x256x256_1_2_0_01_n_n none l r) : (⟨S256x512, .f32⟩ : BufTy).Contents (Elt F) → (⟨S256x256x512, .f32⟩ : BufTy).Contents (Elt F) → (⟨S256x256x256, .f32⟩ : BufTy).Contents (Elt F)),
    StableHlo.reshape main_v17 main_v18 rfl shapeCasts_S256x256x256_S256x65536,
    StableHlo.nullary main_cst (constant S_ .f32 0x3F800000#32),
    StableHlo.unary main_cst main_v19 (broadcastInDim S256x65536 ![] bcast_S_S256x65536 : (⟨S_, .f32⟩ : BufTy).Contents (Elt F) → (⟨S256x65536, .f32⟩ : BufTy).Contents (Elt F)),
    StableHlo.binary main_v19 main_v18 main_v20 (mulf : (⟨S256x65536, .f32⟩ : BufTy).Contents (Elt F) → (⟨S256x65536, .f32⟩ : BufTy).Contents (Elt F) → (⟨S256x65536, .f32⟩ : BufTy).Contents (Elt F)) ]

/-- Operations 45 … 59: configuration 0: the log-softmax along the flattened axis. -/
abbrev opsC0 : List (HloOp τ sig (Elt F)) :=
  [ StableHlo.TRef.nullary main_call1.cst (constant S_ .f32 0xFF800000#32),
    StableHlo.TRef.binary (.of main_v20 : StableHlo.TRef sig ⟨S256x65536, .f32⟩) main_call1.cst main_call1.v0 (fun x v => Host.reduce FloatOps.maximumf x v reducesTo_S256x65536_S256_d1 h_S_),
    StableHlo.TRef.nullary main_call1.cst_0 (constant S_ .f32 0xFF800000#32),
    StableHlo.TRef.unary main_call1.cst_0 main_call1.v1 (broadcastInDim S256 ![] bcast_S_S256),
    StableHlo.TRef.binary main_call1.v1 main_call1.v0 main_call1.v2 maximumf,
    StableHlo.TRef.unary main_call1.v2 main_call1.v3 (broadcastInDim S256x1 ![0] bcast_S256_S256x1_0),
    StableHlo.TRef.unary main_call1.v3 main_call1.v4 (broadcastInDim S256x65536 ![0, 1] bcast_S256x1_S256x65536_0_1),
    StableHlo.TRef.binary (.of main_v20 : StableHlo.TRef sig ⟨S256x65536, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S256x65536_S256_d1 h_S_),
    StableHlo.TRef.unary main_call1.v7 main_call1.v8 (broadcastInDim S256x1 ![0] bcast_S256_S256x1_0),
    StableHlo.TRef.unary main_call1.v8 main_call1.v9 Host.log,
    StableHlo.TRef.unary main_call1.v9 main_call1.v10 (broadcastInDim S256x65536 ![0, 1] bcast_S256x1_S256x65536_0_1),
    StableHlo.TRef.binary main_call1.v5 main_call1.v10 main_call1.v11 subf ]

/-- Operations 60 … 83: configuration 0: the diagonal entries gathered, averaged, negated. -/
abbrev opsD0 : List (HloOp τ sig (Elt F)) :=
  [ StableHlo.nullary main_v22 (iotaInDim S256 32 0),
    StableHlo.nullary main_c_2 (constantI S_ 32 0#32),
    StableHlo.unary main_c_2 main_v23 (broadcastInDim S256 ![] bcast_S_S256 : (⟨S_, .i32⟩ : BufTy).Contents (Elt F) → (⟨S256, .i32⟩ : BufTy).Contents (Elt F)),
    StableHlo.binary main_v22 main_v23 main_v24 (cmpi .slt : (⟨S256, .i32⟩ : BufTy).Contents (Elt F) → (⟨S256, .i32⟩ : BufTy).Contents (Elt F) → (⟨S256, .i1⟩ : BufTy).Contents (Elt F)),
    StableHlo.nullary main_c_3 (constantI S_ 32 256#32),
    StableHlo.unary main_c_3 main_v25 (broadcastInDim S256 ![] bcast_S_S256 : (⟨S_, .i32⟩ : BufTy).Contents (Elt F) → (⟨S256, .i32⟩ : BufTy).Contents (Elt F)),
    StableHlo.binary main_v22 main_v25 main_v26 (addi : (⟨S256, .i32⟩ : BufTy).Contents (Elt F) → (⟨S256, .i32⟩ : BufTy).Contents (Elt F) → (⟨S256, .i32⟩ : BufTy).Contents (Elt F)),
    StableHlo.ternary main_v24 main_v26 main_v22 main_v27 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.nullary main_c_4 (constantI S_ 32 0#32),
    StableHlo.unary main_c_4 main_v28 (broadcastInDim S256 ![] bcast_S_S256 : (⟨S_, .i32⟩ : BufTy).Contents (Elt F) → (⟨S256, .i32⟩ : BufTy).Contents (Elt F)),
    StableHlo.binary main_v22 main_v28 main_v29 (cmpi .slt : (⟨S256, .i32⟩ : BufTy).Contents (Elt F) → (⟨S256, .i32⟩ : BufTy).Contents (Elt F) → (⟨S256, .i1⟩ : BufTy).Contents (Elt F)),
    StableHlo.nullary main_c_5 (constantI S_ 32 65536#32),
    StableHlo.unary main_c_5 main_v30 (broadcastInDim S256 ![] bcast_S_S256 : (⟨S_, .i32⟩ : BufTy).Contents (Elt F) → (⟨S256, .i32⟩ : BufTy).Contents (Elt F)),
    StableHlo.binary main_v22 main_v30 main_v31 (addi : (⟨S256, .i32⟩ : BufTy).Contents (Elt F) → (⟨S256, .i32⟩ : BufTy).Contents (Elt F) → (⟨S256, .i32⟩ : BufTy).Contents (Elt F)),
    StableHlo.ternary main_v29 main_v31 main_v22 main_v32 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v27 main_v33 (broadcastInDim S256x1 ![0] bcast_S256_S256x1_0 : (⟨S256, .i32⟩ : BufTy).Contents (Elt F) → (⟨S256x1, .i32⟩ : BufTy).Contents (Elt F)),
    StableHlo.unary main_v32 main_v34 (broadcastInDim S256x1 ![0] bcast_S256_S256x1_0 : (⟨S256, .i32⟩ : BufTy).Contents (Elt F) → (⟨S256x1, .i32⟩ : BufTy).Contents (Elt F)),
    StableHlo.binary main_v33 main_v34 main_v35 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    StableHlo.binary main_v21 main_v35 main_v36 ((fun x i => Host.gather gather_S256x65536_S256x2_S256_n_01_n_n_01_1_11 x i) : (⟨S256x65536, .f32⟩ : BufTy).Contents (Elt F) → (⟨S256x2, .i32⟩ : BufTy).Contents (Elt F) → (⟨S256, .f32⟩ : BufTy).Contents (Elt F)),
    StableHlo.nullary main_cst_6 (constant S_ .f32 0x00000000#32),
    StableHlo.binary main_v36 main_cst_6 main_v37 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.nullary main_cst_7 (constant S_ .f32 0x43800000#32),
    StableHlo.binary main_v37 main_cst_7 main_v38 (Host.divf : (⟨S_, .f32⟩ : BufTy).Contents (Elt F) → (⟨S_, .f32⟩ : BufTy).Contents (Elt F) → (⟨S_, .f32⟩ : BufTy).Contents (Elt F)),
    StableHlo.unary main_v38 main_v39 (Host.negf : (⟨S_, .f32⟩ : BufTy).Contents (Elt F) → (⟨S_, .f32⟩ : BufTy).Contents (Elt F)) ]

/-- Operations 84 … 93: configuration 1: the rolled rows gathered. -/
abbrev opsB1a : List (HloOp τ sig (Elt F)) :=
  [ StableHlo.unary main_arg0 main_v40 (broadcastInDim S1x256x512 ![1, 2] bcast_S256x512_S1x256x512_1_2 : (⟨S256x512, .f32⟩ : BufTy).Contents (Elt F) → (⟨S1x256x512, .f32⟩ : BufTy).Contents (Elt F)),
    StableHlo.nullary main_c_8 (constantI S_ 32 0#32),
    StableHlo.unary main_c_8 main_v41 (broadcastInDim S256x256 ![] bcast_S_S256x256 : (⟨S_, .i32⟩ : BufTy).Contents (Elt F) → (⟨S256x256, .i32⟩ : BufTy).Contents (Elt F)),
    StableHlo.binary main_v6 main_v41 main_v42 (cmpi .slt : (⟨S256x256, .i32⟩ : BufTy).Contents (Elt F) → (⟨S256x256, .i32⟩ : BufTy).Contents (Elt F) → (⟨S256x256, .i1⟩ : BufTy).Contents (Elt F)),
    StableHlo.nullary main_c_9 (constantI S_ 32 256#32),
    StableHlo.unary main_c_9 main_v43 (broadcastInDim S256x256 ![] bcast_S_S256x256 : (⟨S_, .i32⟩ : BufTy).Contents (Elt F) → (⟨S256x256, .i32⟩ : BufTy).Contents (Elt F)),
    StableHlo.binary main_v6 main_v43 main_v44 (addi : (⟨S256x256, .i32⟩ : BufTy).Contents (Elt F) → (⟨S256x256, .i32⟩ : BufTy).Contents (Elt F) → (⟨S256x256, .i32⟩ : BufTy).Contents (Elt F)),
    StableHlo.ternary main_v42 main_v44 main_v6 main_v45 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    StableHlo.unary main_v45 main_v46 (broadcastInDim S256x256x1 ![0, 1] bcast_S256x256_S256x256x1_0_1 : (⟨S256x256, .i32⟩ : BufTy).Contents (Elt F) → (⟨S256x256x1, .i32⟩ : BufTy).Contents (Elt F)),
    StableHlo.binary main_arg2 main_v46 main_v47 ((fun x i => Host.gather gather_S256x512_S256x256x1_S256x256x512_2_0_n_n_0_2_1512 x i) : (⟨S256x512, .f32⟩ : BufTy).Contents (Elt F) → (⟨S256x256x1, .i32⟩ : BufTy).Contents (Elt F) → (⟨S256x256x512, .f32⟩ : BufTy).Contents (Elt F)) ]

/-- Operations 94 … 100: configuration 1: multiplied, contracted with the anchor rows, flattened. -/
abbrev opsB1b : List (HloOp τ sig (Elt F)) :=
  [ StableHlo.unary main_v40 main_v48 (broadcastInDim S256x256x512 ![0, 1, 2] bcast_S1x256x512_S256x256x512_0_1_2 : (⟨S1x256x512, .f32⟩ : BufTy).Contents (Elt F) → (⟨S256x256x512, .f32⟩ : BufTy).Contents (Elt F)),
    StableHlo.binary main_v48 main_v47 main_v49 (mulf : (⟨S256x256x512, .f32⟩ : BufTy).Contents (Elt F) → (⟨S256x256x512, .f32⟩ : BufTy).Contents (Elt F) → (⟨S256x256x512, .f32⟩ : BufTy).Contents (Elt F)),
    StableHlo.binary main_arg1 main_v49 main_v50 ((fun l r => Host.dotGeneral dot_S256x512_S256x256x512_S256x256x256_1_2_0_01_n_n none l r) : (⟨S256x512, .f32⟩ : BufTy).Contents (Elt F) → (⟨S256x256x512, .f32⟩ : BufTy).Contents (Elt F) → (⟨S256x256x256, .f32⟩ : BufTy).Contents (Elt F)),
    StableHlo.reshape main_v50 main_v51 rfl shapeCasts_S256x256x256_S256x65536,
    StableHlo.nullary main_cst_10 (constant S_ .f32 0x3F800000#32),
    StableHlo.unary main_cst_10 main_v52 (broadcastInDim S256x65536 ![] bcast_S_S256x65536 : (⟨S_, .f32⟩ : BufTy).Contents (Elt F) → (⟨S256x65536, .f32⟩ : BufTy).Contents (Elt F)),
    StableHlo.binary main_v52 main_v51 main_v53 (mulf : (⟨S256x65536, .f32⟩ : BufTy).Contents (Elt F) → (⟨S256x65536, .f32⟩ : BufTy).Contents (Elt F) → (⟨S256x65536, .f32⟩ : BufTy).Contents (Elt F)) ]

/-- Operations 101 … 115: configuration 1: the log-softmax along the flattened axis. -/
abbrev opsC1 : List (HloOp τ sig (Elt F)) :=
  [ StableHlo.TRef.nullary main_call2.cst (constant S_ .f32 0xFF800000#32),
    StableHlo.TRef.binary (.of main_v53 : StableHlo.TRef sig ⟨S256x65536, .f32⟩) main_call2.cst main_call2.v0 (fun x v => Host.reduce FloatOps.maximumf x v reducesTo_S256x65536_S256_d1 h_S_),
    StableHlo.TRef.nullary main_call2.cst_0 (constant S_ .f32 0xFF800000#32),
    StableHlo.TRef.unary main_call2.cst_0 main_call2.v1 (broadcastInDim S256 ![] bcast_S_S256),
    StableHlo.TRef.binary main_call2.v1 main_call2.v0 main_call2.v2 maximumf,
    StableHlo.TRef.unary main_call2.v2 main_call2.v3 (broadcastInDim S256x1 ![0] bcast_S256_S256x1_0),
    StableHlo.TRef.unary main_call2.v3 main_call2.v4 (broadcastInDim S256x65536 ![0, 1] bcast_S256x1_S256x65536_0_1),
    StableHlo.TRef.binary (.of main_v53 : StableHlo.TRef sig ⟨S256x65536, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S256x65536_S256_d1 h_S_),
    StableHlo.TRef.unary main_call2.v7 main_call2.v8 (broadcastInDim S256x1 ![0] bcast_S256_S256x1_0),
    StableHlo.TRef.unary main_call2.v8 main_call2.v9 Host.log,
    StableHlo.TRef.unary main_call2.v9 main_call2.v10 (broadcastInDim S256x65536 ![0, 1] bcast_S256x1_S256x65536_0_1),
    StableHlo.TRef.binary main_call2.v5 main_call2.v10 main_call2.v11 subf ]

/-- Operations 116 … 139: configuration 1: the diagonal entries gathered, averaged, negated. -/
abbrev opsD1 : List (HloOp τ sig (Elt F)) :=
  [ StableHlo.nullary main_v55 (iotaInDim S256 32 0),
    StableHlo.nullary main_c_11 (constantI S_ 32 0#32),
    StableHlo.unary main_c_11 main_v56 (broadcastInDim S256 ![] bcast_S_S256 : (⟨S_, .i32⟩ : BufTy).Contents (Elt F) → (⟨S256, .i32⟩ : BufTy).Contents (Elt F)),
    StableHlo.binary main_v55 main_v56 main_v57 (cmpi .slt : (⟨S256, .i32⟩ : BufTy).Contents (Elt F) → (⟨S256, .i32⟩ : BufTy).Contents (Elt F) → (⟨S256, .i1⟩ : BufTy).Contents (Elt F)),
    StableHlo.nullary main_c_12 (constantI S_ 32 256#32),
    StableHlo.unary main_c_12 main_v58 (broadcastInDim S256 ![] bcast_S_S256 : (⟨S_, .i32⟩ : BufTy).Contents (Elt F) → (⟨S256, .i32⟩ : BufTy).Contents (Elt F)),
    StableHlo.binary main_v55 main_v58 main_v59 (addi : (⟨S256, .i32⟩ : BufTy).Contents (Elt F) → (⟨S256, .i32⟩ : BufTy).Contents (Elt F) → (⟨S256, .i32⟩ : BufTy).Contents (Elt F)),
    StableHlo.ternary main_v57 main_v59 main_v55 main_v60 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.nullary main_c_13 (constantI S_ 32 0#32),
    StableHlo.unary main_c_13 main_v61 (broadcastInDim S256 ![] bcast_S_S256 : (⟨S_, .i32⟩ : BufTy).Contents (Elt F) → (⟨S256, .i32⟩ : BufTy).Contents (Elt F)),
    StableHlo.binary main_v55 main_v61 main_v62 (cmpi .slt : (⟨S256, .i32⟩ : BufTy).Contents (Elt F) → (⟨S256, .i32⟩ : BufTy).Contents (Elt F) → (⟨S256, .i1⟩ : BufTy).Contents (Elt F)),
    StableHlo.nullary main_c_14 (constantI S_ 32 65536#32),
    StableHlo.unary main_c_14 main_v63 (broadcastInDim S256 ![] bcast_S_S256 : (⟨S_, .i32⟩ : BufTy).Contents (Elt F) → (⟨S256, .i32⟩ : BufTy).Contents (Elt F)),
    StableHlo.binary main_v55 main_v63 main_v64 (addi : (⟨S256, .i32⟩ : BufTy).Contents (Elt F) → (⟨S256, .i32⟩ : BufTy).Contents (Elt F) → (⟨S256, .i32⟩ : BufTy).Contents (Elt F)),
    StableHlo.ternary main_v62 main_v64 main_v55 main_v65 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v60 main_v66 (broadcastInDim S256x1 ![0] bcast_S256_S256x1_0 : (⟨S256, .i32⟩ : BufTy).Contents (Elt F) → (⟨S256x1, .i32⟩ : BufTy).Contents (Elt F)),
    StableHlo.unary main_v65 main_v67 (broadcastInDim S256x1 ![0] bcast_S256_S256x1_0 : (⟨S256, .i32⟩ : BufTy).Contents (Elt F) → (⟨S256x1, .i32⟩ : BufTy).Contents (Elt F)),
    StableHlo.binary main_v66 main_v67 main_v68 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    StableHlo.binary main_v54 main_v68 main_v69 ((fun x i => Host.gather gather_S256x65536_S256x2_S256_n_01_n_n_01_1_11 x i) : (⟨S256x65536, .f32⟩ : BufTy).Contents (Elt F) → (⟨S256x2, .i32⟩ : BufTy).Contents (Elt F) → (⟨S256, .f32⟩ : BufTy).Contents (Elt F)),
    StableHlo.nullary main_cst_15 (constant S_ .f32 0x00000000#32),
    StableHlo.binary main_v69 main_cst_15 main_v70 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.nullary main_cst_16 (constant S_ .f32 0x43800000#32),
    StableHlo.binary main_v70 main_cst_16 main_v71 (Host.divf : (⟨S_, .f32⟩ : BufTy).Contents (Elt F) → (⟨S_, .f32⟩ : BufTy).Contents (Elt F) → (⟨S_, .f32⟩ : BufTy).Contents (Elt F)),
    StableHlo.unary main_v71 main_v72 (Host.negf : (⟨S_, .f32⟩ : BufTy).Contents (Elt F) → (⟨S_, .f32⟩ : BufTy).Contents (Elt F)) ]

/-- Operations 140 … 156: configuration 2: the rolled rows gathered, multiplied, contracted with the anchor rows, flattened. -/
abbrev opsB2 : List (HloOp τ sig (Elt F)) :=
  [ StableHlo.unary main_arg0 main_v73 (broadcastInDim S1x256x512 ![1, 2] bcast_S256x512_S1x256x512_1_2 : (⟨S256x512, .f32⟩ : BufTy).Contents (Elt F) → (⟨S1x256x512, .f32⟩ : BufTy).Contents (Elt F)),
    StableHlo.nullary main_c_17 (constantI S_ 32 0#32),
    StableHlo.unary main_c_17 main_v74 (broadcastInDim S256x256 ![] bcast_S_S256x256 : (⟨S_, .i32⟩ : BufTy).Contents (Elt F) → (⟨S256x256, .i32⟩ : BufTy).Contents (Elt F)),
    StableHlo.binary main_v6 main_v74 main_v75 (cmpi .slt : (⟨S256x256, .i32⟩ : BufTy).Contents (Elt F) → (⟨S256x256, .i32⟩ : BufTy).Contents (Elt F) → (⟨S256x256, .i1⟩ : BufTy).Contents (Elt F)),
    StableHlo.nullary main_c_18 (constantI S_ 32 256#32),
    StableHlo.unary main_c_18 main_v76 (broadcastInDim S256x256 ![] bcast_S_S256x256 : (⟨S_, .i32⟩ : BufTy).Contents (Elt F) → (⟨S256x256, .i32⟩ : BufTy).Contents (Elt F)),
    StableHlo.binary main_v6 main_v76 main_v77 (addi : (⟨S256x256, .i32⟩ : BufTy).Contents (Elt F) → (⟨S256x256, .i32⟩ : BufTy).Contents (Elt F) → (⟨S256x256, .i32⟩ : BufTy).Contents (Elt F)),
    StableHlo.ternary main_v75 main_v77 main_v6 main_v78 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    StableHlo.unary main_v78 main_v79 (broadcastInDim S256x256x1 ![0, 1] bcast_S256x256_S256x256x1_0_1 : (⟨S256x256, .i32⟩ : BufTy).Contents (Elt F) → (⟨S256x256x1, .i32⟩ : BufTy).Contents (Elt F)),
    StableHlo.binary main_arg1 main_v79 main_v80 ((fun x i => Host.gather gather_S256x512_S256x256x1_S256x256x512_2_0_n_n_0_2_1512 x i) : (⟨S256x512, .f32⟩ : BufTy).Contents (Elt F) → (⟨S256x256x1, .i32⟩ : BufTy).Contents (Elt F) → (⟨S256x256x512, .f32⟩ : BufTy).Contents (Elt F)),
    StableHlo.unary main_v73 main_v81 (broadcastInDim S256x256x512 ![0, 1, 2] bcast_S1x256x512_S256x256x512_0_1_2 : (⟨S1x256x512, .f32⟩ : BufTy).Contents (Elt F) → (⟨S256x256x512, .f32⟩ : BufTy).Contents (Elt F)),
    StableHlo.binary main_v81 main_v80 main_v82 (mulf : (⟨S256x256x512, .f32⟩ : BufTy).Contents (Elt F) → (⟨S256x256x512, .f32⟩ : BufTy).Contents (Elt F) → (⟨S256x256x512, .f32⟩ : BufTy).Contents (Elt F)),
    StableHlo.binary main_arg2 main_v82 main_v83 ((fun l r => Host.dotGeneral dot_S256x512_S256x256x512_S256x256x256_1_2_0_01_n_n none l r) : (⟨S256x512, .f32⟩ : BufTy).Contents (Elt F) → (⟨S256x256x512, .f32⟩ : BufTy).Contents (Elt F) → (⟨S256x256x256, .f32⟩ : BufTy).Contents (Elt F)),
    StableHlo.reshape main_v83 main_v84 rfl shapeCasts_S256x256x256_S256x65536,
    StableHlo.nullary main_cst_19 (constant S_ .f32 0x3F800000#32),
    StableHlo.unary main_cst_19 main_v85 (broadcastInDim S256x65536 ![] bcast_S_S256x65536 : (⟨S_, .f32⟩ : BufTy).Contents (Elt F) → (⟨S256x65536, .f32⟩ : BufTy).Contents (Elt F)),
    StableHlo.binary main_v85 main_v84 main_v86 (mulf : (⟨S256x65536, .f32⟩ : BufTy).Contents (Elt F) → (⟨S256x65536, .f32⟩ : BufTy).Contents (Elt F) → (⟨S256x65536, .f32⟩ : BufTy).Contents (Elt F)) ]

/-- Operations 157 … 171: configuration 2: the log-softmax along the flattened axis. -/
abbrev opsC2 : List (HloOp τ sig (Elt F)) :=
  [ StableHlo.TRef.nullary main_call3.cst (constant S_ .f32 0xFF800000#32),
    StableHlo.TRef.binary (.of main_v86 : StableHlo.TRef sig ⟨S256x65536, .f32⟩) main_call3.cst main_call3.v0 (fun x v => Host.reduce FloatOps.maximumf x v reducesTo_S256x65536_S256_d1 h_S_),
    StableHlo.TRef.nullary main_call3.cst_0 (constant S_ .f32 0xFF800000#32),
    StableHlo.TRef.unary main_call3.cst_0 main_call3.v1 (broadcastInDim S256 ![] bcast_S_S256),
    StableHlo.TRef.binary main_call3.v1 main_call3.v0 main_call3.v2 maximumf,
    StableHlo.TRef.unary main_call3.v2 main_call3.v3 (broadcastInDim S256x1 ![0] bcast_S256_S256x1_0),
    StableHlo.TRef.unary main_call3.v3 main_call3.v4 (broadcastInDim S256x65536 ![0, 1] bcast_S256x1_S256x65536_0_1),
    StableHlo.TRef.binary (.of main_v86 : StableHlo.TRef sig ⟨S256x65536, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S256x65536_S256_d1 h_S_),
    StableHlo.TRef.unary main_call3.v7 main_call3.v8 (broadcastInDim S256x1 ![0] bcast_S256_S256x1_0),
    StableHlo.TRef.unary main_call3.v8 main_call3.v9 Host.log,
    StableHlo.TRef.unary main_call3.v9 main_call3.v10 (broadcastInDim S256x65536 ![0, 1] bcast_S256x1_S256x65536_0_1),
    StableHlo.TRef.binary main_call3.v5 main_call3.v10 main_call3.v11 subf ]

/-- Operations 172 … 181: configuration 2: the diagonal's index pairs, first half. -/
abbrev opsD2a : List (HloOp τ sig (Elt F)) :=
  [ StableHlo.nullary main_v88 (iotaInDim S256 32 0),
    StableHlo.nullary main_c_20 (constantI S_ 32 0#32),
    StableHlo.unary main_c_20 main_v89 (broadcastInDim S256 ![] bcast_S_S256 : (⟨S_, .i32⟩ : BufTy).Contents (Elt F) → (⟨S256, .i32⟩ : BufTy).Contents (Elt F)),
    StableHlo.binary main_v88 main_v89 main_v90 (cmpi .slt : (⟨S256, .i32⟩ : BufTy).Contents (Elt F) → (⟨S256, .i32⟩ : BufTy).Contents (Elt F) → (⟨S256, .i1⟩ : BufTy).Contents (Elt F)),
    StableHlo.nullary main_c_21 (constantI S_ 32 256#32),
    StableHlo.unary main_c_21 main_v91 (broadcastInDim S256 ![] bcast_S_S256 : (⟨S_, .i32⟩ : BufTy).Contents (Elt F) → (⟨S256, .i32⟩ : BufTy).Contents (Elt F)),
    StableHlo.binary main_v88 main_v91 main_v92 (addi : (⟨S256, .i32⟩ : BufTy).Contents (Elt F) → (⟨S256, .i32⟩ : BufTy).Contents (Elt F) → (⟨S256, .i32⟩ : BufTy).Contents (Elt F)),
    StableHlo.ternary main_v90 main_v92 main_v88 main_v93 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.nullary main_c_22 (constantI S_ 32 0#32),
    StableHlo.unary main_c_22 main_v94 (broadcastInDim S256 ![] bcast_S_S256 : (⟨S_, .i32⟩ : BufTy).Contents (Elt F) → (⟨S256, .i32⟩ : BufTy).Contents (Elt F)) ]

/-- Operations 182 … 195: configuration 2: the diagonal entries gathered, averaged, negated. -/
abbrev opsD2b : List (HloOp τ sig (Elt F)) :=
  [ StableHlo.binary main_v88 main_v94 main_v95 (cmpi .slt : (⟨S256, .i32⟩ : BufTy).Contents (Elt F) → (⟨S256, .i32⟩ : BufTy).Contents (Elt F) → (⟨S256, .i1⟩ : BufTy).Contents (Elt F)),
    StableHlo.nullary main_c_23 (constantI S_ 32 65536#32),
    StableHlo.unary main_c_23 main_v96 (broadcastInDim S256 ![] bcast_S_S256 : (⟨S_, .i32⟩ : BufTy).Contents (Elt F) → (⟨S256, .i32⟩ : BufTy).Contents (Elt F)),
    StableHlo.binary main_v88 main_v96 main_v97 (addi : (⟨S256, .i32⟩ : BufTy).Contents (Elt F) → (⟨S256, .i32⟩ : BufTy).Contents (Elt F) → (⟨S256, .i32⟩ : BufTy).Contents (Elt F)),
    StableHlo.ternary main_v95 main_v97 main_v88 main_v98 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v93 main_v99 (broadcastInDim S256x1 ![0] bcast_S256_S256x1_0 : (⟨S256, .i32⟩ : BufTy).Contents (Elt F) → (⟨S256x1, .i32⟩ : BufTy).Contents (Elt F)),
    StableHlo.unary main_v98 main_v100 (broadcastInDim S256x1 ![0] bcast_S256_S256x1_0 : (⟨S256, .i32⟩ : BufTy).Contents (Elt F) → (⟨S256x1, .i32⟩ : BufTy).Contents (Elt F)),
    StableHlo.binary main_v99 main_v100 main_v101 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    StableHlo.binary main_v87 main_v101 main_v102 ((fun x i => Host.gather gather_S256x65536_S256x2_S256_n_01_n_n_01_1_11 x i) : (⟨S256x65536, .f32⟩ : BufTy).Contents (Elt F) → (⟨S256x2, .i32⟩ : BufTy).Contents (Elt F) → (⟨S256, .f32⟩ : BufTy).Contents (Elt F)),
    StableHlo.nullary main_cst_24 (constant S_ .f32 0x00000000#32),
    StableHlo.binary main_v102 main_cst_24 main_v103 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.nullary main_cst_25 (constant S_ .f32 0x43800000#32),
    StableHlo.binary main_v103 main_cst_25 main_v104 (Host.divf : (⟨S_, .f32⟩ : BufTy).Contents (Elt F) → (⟨S_, .f32⟩ : BufTy).Contents (Elt F) → (⟨S_, .f32⟩ : BufTy).Contents (Elt F)),
    StableHlo.unary main_v104 main_v105 (Host.negf : (⟨S_, .f32⟩ : BufTy).Contents (Elt F) → (⟨S_, .f32⟩ : BufTy).Contents (Elt F)) ]

/-- Operations 196 … 201: the three losses added to zero and divided by three. -/
abbrev opsE : List (HloOp τ sig (Elt F)) :=
  [ StableHlo.nullary main_cst_26 (constant S_ .f32 0x00000000#32),
    StableHlo.binary main_cst_26 main_v39 main_v106 (addf : (⟨S_, .f32⟩ : BufTy).Contents (Elt F) → (⟨S_, .f32⟩ : BufTy).Contents (Elt F) → (⟨S_, .f32⟩ : BufTy).Contents (Elt F)),
    StableHlo.binary main_v106 main_v72 main_v107 (addf : (⟨S_, .f32⟩ : BufTy).Contents (Elt F) → (⟨S_, .f32⟩ : BufTy).Contents (Elt F) → (⟨S_, .f32⟩ : BufTy).Contents (Elt F)),
    StableHlo.binary main_v107 main_v105 main_v108 (addf : (⟨S_, .f32⟩ : BufTy).Contents (Elt F) → (⟨S_, .f32⟩ : BufTy).Contents (Elt F) → (⟨S_, .f32⟩ : BufTy).Contents (Elt F)),
    StableHlo.nullary main_cst_27 (constant S_ .f32 0x40400000#32),
    StableHlo.binary main_v108 main_cst_27 main_v109 (Host.divf : (⟨S_, .f32⟩ : BufTy).Contents (Elt F) → (⟨S_, .f32⟩ : BufTy).Contents (Elt F) → (⟨S_, .f32⟩ : BufTy).Contents (Elt F)) ]

/-- @main's 202 operations, in order. -/
abbrev ops : List (HloOp τ sig (Elt F)) :=
  opsA ++ (opsB0 ++ (opsC0 ++ (opsD0 ++ (opsB1a ++ (opsB1b ++ (opsC1 ++ (opsD1 ++ (opsB2 ++ (opsC2 ++ (opsD2a ++ (opsD2b ++ (opsE))))))))))))

/-! ## Every operation touches TensorCore buffers only, and determines its results -/

theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

theorem opsA_sub : (opsA : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsA_fresh : (opsA : List (HloOp τ sig (Elt F))).Forall fun op => op.fresh = ∅ := by
  simp only [List.Forall]; repeat' constructor

theorem opsB0_sub : (opsB0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., reshape_bufs_sub .., nullary_bufs_sub .., unary_bufs_sub .., binary_bufs_sub ..⟩
theorem opsB0_fresh : (opsB0 : List (HloOp τ sig (Elt F))).Forall fun op => op.fresh = ∅ := by
  simp only [List.Forall]; repeat' constructor

theorem opsC0_sub : (opsC0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsC0_fresh : (opsC0 : List (HloOp τ sig (Elt F))).Forall fun op => op.fresh = ∅ := by
  simp only [List.Forall]; repeat' constructor

theorem opsD0_sub : (opsD0 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub ..⟩
theorem opsD0_fresh : (opsD0 : List (HloOp τ sig (Elt F))).Forall fun op => op.fresh = ∅ := by
  simp only [List.Forall]; repeat' constructor

theorem opsB1a_sub : (opsB1a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub ..⟩
theorem opsB1a_fresh : (opsB1a : List (HloOp τ sig (Elt F))).Forall fun op => op.fresh = ∅ := by
  simp only [List.Forall]; repeat' constructor

theorem opsB1b_sub : (opsB1b : List (HloOp τ sig (Elt F))).Forall fun op => op.bufs ⊆ tcRefs τ sig :=
  ⟨unary_bufs_sub .., binary_bufs_sub .., binary_bufs_sub .., reshape_bufs_sub .., nullary_bufs_sub .., unary_bufs_sub .., binary_bufs_sub ..⟩
theorem opsB1b_fresh : (opsB1b : List (HloOp τ sig (Elt F))).Forall fun op => op.fresh = ∅ := by
  simp only [List.Forall]; repeat' constructor

theorem opsC1_sub : (opsC1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsC1_fresh : (opsC1 : List (HloOp τ sig (Elt F))).Forall fun op => op.fresh = ∅ := by
  simp only [List.Forall]; repeat' constructor

theorem opsD1_sub : (opsD1 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub ..⟩
theorem opsD1_fresh : (opsD1 : List (HloOp τ sig (Elt F))).Forall fun op => op.fresh = ∅ := by
  simp only [List.Forall]; repeat' constructor

theorem opsB2_sub : (opsB2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., reshape_bufs_sub .., nullary_bufs_sub .., unary_bufs_sub .., binary_bufs_sub ..⟩
theorem opsB2_fresh : (opsB2 : List (HloOp τ sig (Elt F))).Forall fun op => op.fresh = ∅ := by
  simp only [List.Forall]; repeat' constructor

theorem opsC2_sub : (opsC2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsC2_fresh : (opsC2 : List (HloOp τ sig (Elt F))).Forall fun op => op.fresh = ∅ := by
  simp only [List.Forall]; repeat' constructor

theorem opsD2a_sub : (opsD2a : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub ..⟩
theorem opsD2a_fresh : (opsD2a : List (HloOp τ sig (Elt F))).Forall fun op => op.fresh = ∅ := by
  simp only [List.Forall]; repeat' constructor

theorem opsD2b_sub : (opsD2b : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub ..⟩
theorem opsD2b_fresh : (opsD2b : List (HloOp τ sig (Elt F))).Forall fun op => op.fresh = ∅ := by
  simp only [List.Forall]; repeat' constructor

theorem opsE_sub : (opsE : List (HloOp τ sig (Elt F))).Forall fun op => op.bufs ⊆ tcRefs τ sig :=
  ⟨nullary_bufs_sub .., binary_bufs_sub .., binary_bufs_sub .., binary_bufs_sub .., nullary_bufs_sub .., binary_bufs_sub ..⟩
theorem opsE_fresh : (opsE : List (HloOp τ sig (Elt F))).Forall fun op => op.fresh = ∅ := by
  simp only [List.Forall]; repeat' constructor

theorem ops_sub : (ops : List (HloOp τ sig (Elt F))).Forall fun op => op.bufs ⊆ tcRefs τ sig :=
  forall_append opsA_sub (forall_append opsB0_sub (forall_append opsC0_sub (forall_append opsD0_sub (forall_append opsB1a_sub (forall_append opsB1b_sub (forall_append opsC1_sub (forall_append opsD1_sub (forall_append opsB2_sub (forall_append opsC2_sub (forall_append opsD2a_sub (forall_append opsD2b_sub (opsE_sub))))))))))))

theorem ops_fresh : ∀ op ∈ (ops : List (HloOp τ sig (Elt F))), op.fresh = ∅ :=
  List.forall_iff_forall_mem.mp (forall_append opsA_fresh (forall_append opsB0_fresh (forall_append opsC0_fresh (forall_append opsD0_fresh (forall_append opsB1a_fresh (forall_append opsB1b_fresh (forall_append opsC1_fresh (forall_append opsD1_fresh (forall_append opsB2_fresh (forall_append opsC2_fresh (forall_append opsD2a_fresh (forall_append opsD2b_fresh (opsE_fresh)))))))))))))

/-! ## The signature scopes nothing on the TensorCore -/

theorem scopedRefs_eq : (Finset.univ.filter fun b : Ref sig .tc => b.isScoped) = ∅ := by decide
theorem scopedSems_eq : (Finset.univ.filter fun sm : SemLoc sig => sm.isScoped .tc) = ∅ := by decide

/-! ## @main is that line of operations -/

/-- @main, its three windows run in order with the called functions' bodies in place of the calls, is the
    straight line of the operations: the two sides differ only in how the sequencing is associated. -/
theorem main_eq (c : Dev nD) : main (F := F) c = seq ops := by
  chain_rfl

/-- From any memory with zero counters every weakly fair execution of @main terminates, each TensorCore buffer
    ending at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefRunCast.lean ====
/-
  A called function's operations are stated over typed references, whose contents pass through a change
  of type along the equation between the buffer's type and the value's. At the literal buffers of this
  program that equation holds by computation, so each passage is the identity: the lemmas below say so,
  once in general for a passage there and back, and once per buffer where a called function meets @main's
  own values (an argument passed in, a result handed back).
-/
import proofs.«157399_j21638045237260_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer and back are themselves. -/
theorem ofBuf_toBuf {T : BufTy} (x : TRef sig T) (v : T.Contents (Elt F)) : x.ofBuf (x.toBuf v) = v := by
  obtain ⟨r, h, h1, h2⟩ := x
  subst h
  rfl

/-! The results the calls hand back: the remainder's table, and each log-softmax. -/

theorem toBuf_main_v6 (v : IVec S256x256 32) (h1 h2 h3) :
    (TRef.of main_v6 h1 h2 h3 : TRef sig ⟨S256x256, .i32⟩).toBuf (Val := Elt F) v = v := rfl
theorem toBuf_main_v21 (v : FVec F S256x65536 .f32) (h1 h2 h3) :
    (TRef.of main_v21 h1 h2 h3 : TRef sig ⟨S256x65536, .f32⟩).toBuf (Val := Elt F) v = v := rfl
theorem toBuf_main_v54 (v : FVec F S256x65536 .f32) (h1 h2 h3) :
    (TRef.of main_v54 h1 h2 h3 : TRef sig ⟨S256x65536, .f32⟩).toBuf (Val := Elt F) v = v := rfl
theorem toBuf_main_v87 (v : FVec F S256x65536 .f32) (h1 h2 h3) :
    (TRef.of main_v87 h1 h2 h3 : TRef sig ⟨S256x65536, .f32⟩).toBuf (Val := Elt F) v = v := rfl

/-! The arguments the calls are passed: the difference table and the divisor, and each array of logits. -/

theorem ofBuf_main_c (v : (Proc.devRef (τ := τ) .tc main_c).ty.Contents (Elt F)) (h1 h2 h3) :
    (TRef.of main_c h1 h2 h3 : TRef sig ⟨S_, .i32⟩).ofBuf (Val := Elt F) v = v := rfl
theorem ofBuf_main_v5 (v : (Proc.devRef (τ := τ) .tc main_v5).ty.Contents (Elt F)) (h1 h2 h3) :
    (TRef.of main_v5 h1 h2 h3 : TRef sig ⟨S256x256, .i32⟩).ofBuf (Val := Elt F) v = v := rfl
theorem ofBuf_main_v20 (v : (Proc.devRef (τ := τ) .tc main_v20).ty.Contents (Elt F)) (h1 h2 h3) :
    (TRef.of main_v20 h1 h2 h3 : TRef sig ⟨S256x65536, .f32⟩).ofBuf (Val := Elt F) v = v := rfl
theorem ofBuf_main_v53 (v : (Proc.devRef (τ := τ) .tc main_v53).ty.Contents (Elt F)) (h1 h2 h3) :
    (TRef.of main_v53 h1 h2 h3 : TRef sig ⟨S256x65536, .f32⟩).ofBuf (Val := Elt F) v = v := rfl
theorem ofBuf_main_v86 (v : (Proc.devRef (τ := τ) .tc main_v86).ty.Contents (Elt F)) (h1 h2 h3) :
    (TRef.of main_v86 h1 h2 h3 : TRef sig ⟨S256x65536, .f32⟩).ofBuf (Val := Elt F) v = v := rfl

end Cert.ReferenceIdeal.Hand

end
-- ==== Proof.RefTerm.lean ====
/-
  The reference's result as ONE pure function of its three argument arrays.

  Every definition below is the composition of the printed operations of the reference's @main,
  one for one (the same functions, the same shape facts, the same literals, the operands in the
  printed order), so that the term a run of @main composes for a value is one of these by
  unfolding alone.  Nothing is proved here.

  The mathematics, in the order of the definitions:
  * `shiftTbl`  : the table  (i, r) ↦ (r - i) mod 256  of 32-bit words: the difference of the two
                    broadcasts of `iota 256`, then Python's remainder by 256 (the truncated
                    remainder, corrected by one divisor where its sign differs from the divisor's);
  * `idxTbl`    : the same table after the negative-index wrap (`t < 0 ? t + 256 : t`), as a
                    [256,256,1] array of gather start indices;
  * `logits`    : for an anchor A, a row operand P and a rolled operand Q:
                    (a, i·256 + r) ↦ 1 · ∑ d, A[a,d] · (P[r,d] · Q[(r - i) mod 256, d]);
  * `logSoftmax`: x ↦ (x - M) - log ∑ exp (x - M) along the second axis, M the row maximum;
  * `diagIdx`   : the [256,2] array of pairs (a, a) (both coordinates after their wraps);
  * `loss`      : minus the mean over a of lp[a, a];
  * `result`    : ((0 + l₀) + l₁) + l₂ over 3, for the three choices of anchor.
-/
import proofs.«157399_j21638045237260_2_alg».proof.ReferenceIdeal

noncomputable section

namespace Cert.ReferenceIdeal.RefTerm

open Idealize.ShloMosaic Cert.ReferenceIdeal Facts₀ Facts

variable {F : FTy → Type} [FloatOps F] [Facts]

/-! ## The shift table  (i, r) ↦ (r - i) mod 256 -/

/-- `iota 256` along the second axis minus `iota 256` along the first:  (i, r) ↦ r - i  as words. -/
def diffTbl : IVec S256x256 32 :=
  subi
    (broadcastInDim S256x256 ![0, 1] bcast_S1x256_S256x256_0_1
      (broadcastInDim S1x256 ![1] bcast_S256_S1x256_1 (iotaInDim S256 32 0)))
    (broadcastInDim S256x256 ![0, 1] bcast_S256x1_S256x256_0_1
      (broadcastInDim S256x1 ![0] bcast_S256_S256x1_0 (iotaInDim S256 32 0)))

/-- The divisor the remainder is taken by: the divisor 256, replaced by 1 were it 0. -/
def divisor : IVec S_ 32 :=
  select (cmpi .eq (id (constantI S_ 32 256#32)) (constantI S_ 32 0#32)) (constantI S_ 32 1#32)
    (id (constantI S_ 32 256#32))

/-- The truncated remainder of a table by the divisor. -/
def truncRem (t : IVec S256x256 32) : IVec S256x256 32 :=
  Host.remsi t (broadcastInDim S256x256 ![] bcast_S_S256x256 divisor)

/-- Python's remainder of a table by 256: the truncated remainder, plus the divisor where the
    remainder is not zero and its sign differs from the divisor's. -/
def pyRem (t : IVec S256x256 32) : IVec S256x256 32 :=
  select
    (andi
      (cmpi .ne
        (cmpi .slt (truncRem t) (broadcastInDim S256x256 ![] bcast_S_S256x256 (constantI S_ 32 0#32)))
        (broadcastInDim S256x256 ![] bcast_S_S256x256 (cmpi .slt divisor (constantI S_ 32 0#32))))
      (cmpi .ne (truncRem t) (broadcastInDim S256x256 ![] bcast_S_S256x256 (constantI S_ 32 0#32))))
    (addi (truncRem t) (broadcastInDim S256x256 ![] bcast_S_S256x256 divisor))
    (truncRem t)

/-- (i, r) ↦ (r - i) mod 256. -/
def shiftTbl : IVec S256x256 32 := pyRem diffTbl

/-- The shift table after the negative-index wrap, as gather start indices of shape [256,256,1]. -/
def idxTbl : IVec S256x256x1 32 :=
  broadcastInDim S256x256x1 ![0, 1] bcast_S256x256_S256x256x1_0_1
    (select
      (cmpi .slt shiftTbl (broadcastInDim S256x256 ![] bcast_S_S256x256 (constantI S_ 32 0#32)))
      (addi shiftTbl (broadcastInDim S256x256 ![] bcast_S_S256x256 (constantI S_ 32 256#32)))
      shiftTbl)

/-! ## The logits of one configuration -/

/-- (i, r, d) ↦ P[r, d] · Q[(r - i) mod 256, d]:  the row operand, broadcast along the shift axis,
    times the rolled operand gathered by the index table. -/
def prods (a b : FVec F S256x512 .f32) : FVec F S256x256x512 .f32 :=
  mulf
    (broadcastInDim S256x256x512 ![0, 1, 2] bcast_S1x256x512_S256x256x512_0_1_2
      (broadcastInDim S1x256x512 ![1, 2] bcast_S256x512_S1x256x512_1_2 a))
    (Host.gather gather_S256x512_S256x256x1_S256x256x512_2_0_n_n_0_2_1512 b idxTbl)

/-- (q, i, r) ↦ ∑ d, A[q, d] · (P[r, d] · Q[(r - i) mod 256, d]). -/
def dots (anchor a b : FVec F S256x512 .f32) : FVec F S256x256x256 .f32 :=
  Host.dotGeneral dot_S256x512_S256x256x512_S256x256x256_1_2_0_01_n_n none anchor (prods a b)

/-- The scores laid out as [256, 65536] (flat column i·256 + r), times the scale 1. -/
def logits (anchor a b : FVec F S256x512 .f32) : FVec F S256x65536 .f32 :=
  mulf
    (broadcastInDim S256x65536 ![] bcast_S_S256x65536 (constant S_ .f32 0x3F800000#32))
    (shapeCast S256x65536 (dots anchor a b) shapeCasts_S256x256x256_S256x65536)

/-! ## log-softmax along the second axis -/

/-- The row maximum, from -∞. -/
def rowMax (x : FVec F S256x65536 .f32) : FVec F S256 .f32 :=
  maximumf
    (broadcastInDim S256 ![] bcast_S_S256 (constant S_ .f32 0xFF800000#32))
    (Host.reduce FloatOps.maximumf x (constant S_ .f32 0xFF800000#32) reducesTo_S256x65536_S256_d1 h_S_)

/-- x minus its row maximum. -/
def shifted (x : FVec F S256x65536 .f32) : FVec F S256x65536 .f32 :=
  subf x
    (broadcastInDim S256x65536 ![0, 1] bcast_S256x1_S256x65536_0_1
      (broadcastInDim S256x1 ![0] bcast_S256_S256x1_0 (rowMax x)))

/-- The row sums of exp (x - max), from 0. -/
def sumExp (x : FVec F S256x65536 .f32) : FVec F S256 .f32 :=
  Host.reduceAdd (Host.exp (shifted x)) (constant S_ .f32 0x00000000#32) reducesTo_S256x65536_S256_d1 h_S_

/-- (x - max) - log ∑ exp (x - max). -/
def logSoftmax (x : FVec F S256x65536 .f32) : FVec F S256x65536 .f32 :=
  subf (shifted x)
    (broadcastInDim S256x65536 ![0, 1] bcast_S256x1_S256x65536_0_1
      (Host.log (broadcastInDim S256x1 ![0] bcast_S256_S256x1_0 (sumExp x))))

/-! ## The diagonal and the loss -/

/-- `iota 256` after the negative-index wrap by `n`. -/
def wrapIota (n : BitVec 32) : IVec S256 32 :=
  select
    (cmpi .slt (iotaInDim S256 32 0) (broadcastInDim S256 ![] bcast_S_S256 (constantI S_ 32 0#32)))
    (addi (iotaInDim S256 32 0) (broadcastInDim S256 ![] bcast_S_S256 (constantI S_ 32 n)))
    (iotaInDim S256 32 0)

/-- The [256,2] array of pairs (a, a): row and flat column of the diagonal entries. -/
def diagIdx : IVec S256x2 32 :=
  concatenate S256x2 1
    [⟨S256x1, broadcastInDim S256x1 ![0] bcast_S256_S256x1_0 (wrapIota 256#32)⟩,
     ⟨S256x1, broadcastInDim S256x1 ![0] bcast_S256_S256x1_0 (wrapIota 65536#32)⟩]
    concatenates_S256x1_S256x1_S256x2_d1

/-- The diagonal entries lp[a, a]. -/
def diag (lp : FVec F S256x65536 .f32) : FVec F S256 .f32 :=
  Host.gather gather_S256x65536_S256x2_S256_n_01_n_n_01_1_11 lp diagIdx

/-- Minus the mean of the diagonal entries. -/
def loss (lp : FVec F S256x65536 .f32) : FVec F S_ .f32 :=
  Host.negf
    (Host.divf
      (Host.reduceAdd (diag lp) (constant S_ .f32 0x00000000#32) reducesTo_S256_S_d0 h_S_)
      (constant S_ .f32 0x43800000#32))

/-- The loss of one configuration: anchor, row operand, rolled operand. -/
def cfgLoss (anchor a b : FVec F S256x512 .f32) : FVec F S_ .f32 :=
  loss (logSoftmax (logits anchor a b))

/-! ## The result -/

/-- The mean of the three losses: anchors x, y, z against (y, z), (x, z), (x, y). -/
def result (x y z : FVec F S256x512 .f32) : FVec F S_ .f32 :=
  Host.divf
    (addf
      (addf
        (addf (constant S_ .f32 0x00000000#32) (cfgLoss x y z))
        (cfgLoss y x z))
      (cfgLoss z x y))
    (constant S_ .f32 0x40400000#32)

end Cert.ReferenceIdeal.RefTerm

end
-- ==== Proof.RefRunA.lean ====
/-
  The first stretch of the reference's @main: it leaves the table of shifts (i, r) ↦ (r - i) mod 256 in the
  buffer the remainder hands back, whatever the buffers held before, and writes none of the arguments.
-/
import proofs.«157399_j21638045237260_2_alg».proof.Proof.RefRunCast
import proofs.«157399_j21638045237260_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers the stretch `opsA` writes. -/
abbrev opsA_W : List (Ref sig .tc) := [main_v0, main_v1, main_v2, main_v3, main_v4, main_v5, main_c, main_call0.v0.ref, main_call0.c.ref, main_call0.v1.ref, main_call0.c_0.ref, main_call0.call0.v0.ref, main_call0.v3.ref, main_call0.v4.ref, main_call0.c_1.ref, main_call0.v5.ref, main_call0.v6.ref, main_call0.c_2.ref, main_call0.v7.ref, main_call0.v8.ref, main_call0.c_3.ref, main_call0.v9.ref, main_call0.v10.ref, main_call0.v11.ref, main_call0.v12.ref, main_call0.v13.ref, main_call0.v14.ref, main_call0.v15.ref]
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsA_keep (W : Valuation τ sig (Elt F)) (r : Ref sig .tc) (h : r ∉ opsA_W) :
    after opsA W (Proc.devRef .tc r) = W (Proc.devRef .tc r) :=
  after_of_writes_sub opsA W opsA_writes h

set_option maxRecDepth 16384 in
/-- After the first stretch the remainder's result buffer holds the shift table. -/
theorem A_val (W : Valuation τ sig (Elt F)) :
    after opsA W (Proc.devRef .tc main_v6) = RefTerm.shiftTbl := by
  delta opsA
  after_results_simp
  simp only [ofBuf_toBuf, toBuf_main_v6, toBuf_main_v21, toBuf_main_v54, toBuf_main_v87, ofBuf_main_c, ofBuf_main_v5, ofBuf_main_v20, ofBuf_main_v53, ofBuf_main_v86]
  rfl

end Cert.ReferenceIdeal.Hand

end
-- ==== Proof.RefRunB.lean ====
/-
  The logits of a configuration, as the stretch of @main that computes them leaves them: from the raw shift
  table t (whatever the table's buffer holds), the anchor A, the row operand P and the rolled operand Q,
  (a, i·256 + r) ↦ 1 · ∑ d, A[a,d] · (P[r,d] · Q[t'(i,r), d]), t' the table after the negative-index wrap.
  At the shift table itself this is the reference term's `logits`.
-/
import proofs.«157399_j21638045237260_2_alg».proof.Proof.RefRunCast
import proofs.«157399_j21638045237260_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A raw table after the negative-index wrap (t < 0 ? t + 256 : t), as gather start indices [256,256,1]. -/
def idxOf (t : IVec S256x256 32) : IVec S256x256x1 32 :=
  broadcastInDim S256x256x1 ![0, 1] bcast_S256x256_S256x256x1_0_1
    (select (cmpi .slt t (broadcastInDim S256x256 ![] bcast_S_S256x256 (constantI S_ 32 0#32)))
      (addi t (broadcastInDim S256x256 ![] bcast_S_S256x256 (constantI S_ 32 256#32))) t)

/-- The logits over a raw table `t`: the row operand broadcast along the shift axis, times the rolled operand
    gathered by the wrapped table, contracted with the anchor over the feature axis, laid out [256, 65536],
    times the scale 1. -/
def logitsOf (t : IVec S256x256 32) (anchor a b : FVec F S256x512 .f32) : FVec F S256x65536 .f32 :=
  mulf (broadcastInDim S256x65536 ![] bcast_S_S256x65536 (constant S_ .f32 0x3F800000#32))
    (shapeCast S256x65536
      (Host.dotGeneral dot_S256x512_S256x256x512_S256x256x256_1_2_0_01_n_n none anchor
        (mulf
          (broadcastInDim S256x256x512 ![0, 1, 2] bcast_S1x256x512_S256x256x512_0_1_2
            (broadcastInDim S1x256x512 ![1, 2] bcast_S256x512_S1x256x512_1_2 a))
          (Host.gather gather_S256x512_S256x256x1_S256x256x512_2_0_n_n_0_2_1512 b (idxOf t))))
      shapeCasts_S256x256x256_S256x65536)

/-- Over the shift table these are the reference term's logits. -/
theorem logitsOf_shiftTbl (anchor a b : FVec F S256x512 .f32) :
    logitsOf RefTerm.shiftTbl anchor a b = RefTerm.logits anchor a b := rfl

/-- The buffers the stretch `opsB0` writes. -/
abbrev opsB0_W : List (Ref sig .tc) := [main_v7, main_c_0, main_v8, main_v9, main_c_1, main_v10, main_v11, main_v12, main_v13, main_v14, main_v15, main_v16, main_v17, main_v18, main_cst, main_v19, main_v20]
theorem opsB0_writes : (opsB0 : List (HloOp τ sig (Elt F))).Forall fun op => op.writes ⊆ (opsB0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsB0_keep (W : Valuation τ sig (Elt F)) (r : Ref sig .tc) (h : r ∉ opsB0_W) :
    after opsB0 W (Proc.devRef .tc r) = W (Proc.devRef .tc r) :=
  after_of_writes_sub opsB0 W opsB0_writes h

/-- The buffers the stretch `opsB1a` writes. -/
abbrev opsB1a_W : List (Ref sig .tc) := [main_v40, main_c_8, main_v41, main_v42, main_c_9, main_v43, main_v44, main_v45, main_v46, main_v47]
theorem opsB1a_writes : (opsB1a : List (HloOp τ sig (Elt F))).Forall fun op => op.writes ⊆ (opsB1a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsB1a_keep (W : Valuation τ sig (Elt F)) (r : Ref sig .tc) (h : r ∉ opsB1a_W) :
    after opsB1a W (Proc.devRef .tc r) = W (Proc.devRef .tc r) :=
  after_of_writes_sub opsB1a W opsB1a_writes h

/-- The buffers the stretch `opsB1b` writes. -/
abbrev opsB1b_W : List (Ref sig .tc) := [main_v48, main_v49, main_v50, main_v51, main_cst_10, main_v52, main_v53]
theorem opsB1b_writes : (opsB1b : List (HloOp τ sig (Elt F))).Forall fun op => op.writes ⊆ (opsB1b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsB1b_keep (W : Valuation τ sig (Elt F)) (r : Ref sig .tc) (h : r ∉ opsB1b_W) :
    after opsB1b W (Proc.devRef .tc r) = W (Proc.devRef .tc r) :=
  after_of_writes_sub opsB1b W opsB1b_writes h

/-- The buffers the stretch `opsB2` writes. -/
abbrev opsB2_W : List (Ref sig .tc) := [main_v73, main_c_17, main_v74, main_v75, main_c_18, main_v76, main_v77, main_v78, main_v79, main_v80, main_v81, main_v82, main_v83, main_v84, main_cst_19, main_v85, main_v86]
theorem opsB2_writes : (opsB2 : List (HloOp τ sig (Elt F))).Forall fun op => op.writes ⊆ (opsB2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsB2_keep (W : Valuation τ sig (Elt F)) (r : Ref sig .tc) (h : r ∉ opsB2_W) :
    after opsB2 W (Proc.devRef .tc r) = W (Proc.devRef .tc r) :=
  after_of_writes_sub opsB2 W opsB2_writes h

set_option maxRecDepth 16384 in
/-- Configuration 0 (anchor the first argument, rows of the second, the third rolled). -/
theorem B0_val (W : Valuation τ sig (Elt F)) :
    after opsB0 W (Proc.devRef .tc main_v20) = logitsOf (W (Proc.devRef .tc main_v6)) (W (Proc.devRef .tc main_arg0)) (W (Proc.devRef .tc main_arg1)) (W (Proc.devRef .tc main_arg2)) := by
  delta opsB0
  after_results_simp
  rfl

set_option maxRecDepth 16384 in
/-- Configuration 1 (anchor the second argument, rows of the first, the third rolled). -/
theorem B1_val (W : Valuation τ sig (Elt F)) :
    after opsB1b (after opsB1a W) (Proc.devRef .tc main_v53) = logitsOf (W (Proc.devRef .tc main_v6)) (W (Proc.devRef .tc main_arg1)) (W (Proc.devRef .tc main_arg0)) (W (Proc.devRef .tc main_arg2)) := by
  delta opsB1a opsB1b
  after_results_simp
  rfl

set_option maxRecDepth 16384 in
/-- Configuration 2 (anchor the third argument, rows of the first, the second rolled). -/
theorem B2_val (W : Valuation τ sig (Elt F)) :
    after opsB2 W (Proc.devRef .tc main_v86) = logitsOf (W (Proc.devRef .tc main_v6)) (W (Proc.devRef .tc main_arg2)) (W (Proc.devRef .tc main_arg0)) (W (Proc.devRef .tc main_arg1)) := by
  delta opsB2
  after_results_simp
  rfl

end Cert.ReferenceIdeal.Hand

end
-- ==== Proof.RefRunC.lean ====
/-
  The three calls of the log-softmax: each leaves, in the buffer it hands back, (x - M) - log ∑ exp (x - M)
  along the second axis (M the row maximum) of what its argument's buffer holds.
-/
import proofs.«157399_j21638045237260_2_alg».proof.Proof.RefRunCast
import proofs.«157399_j21638045237260_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers the stretch `opsC0` writes. -/
abbrev opsC0_W : List (Ref sig .tc) := [main_call1.cst.ref, main_call1.v0.ref, main_call1.cst_0.ref, main_call1.v1.ref, main_call1.v2.ref, main_call1.v3.ref, main_call1.v4.ref, main_call1.v5.ref, main_call1.v6.ref, main_call1.cst_1.ref, main_call1.v7.ref, main_call1.v8.ref, main_call1.v9.ref, main_call1.v10.ref, main_call1.v11.ref]
theorem opsC0_writes : (opsC0 : List (HloOp τ sig (Elt F))).Forall fun op => op.writes ⊆ (opsC0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsC0_keep (W : Valuation τ sig (Elt F)) (r : Ref sig .tc) (h : r ∉ opsC0_W) :
    after opsC0 W (Proc.devRef .tc r) = W (Proc.devRef .tc r) :=
  after_of_writes_sub opsC0 W opsC0_writes h

/-- The buffers the stretch `opsC1` writes. -/
abbrev opsC1_W : List (Ref sig .tc) := [main_call2.cst.ref, main_call2.v0.ref, main_call2.cst_0.ref, main_call2.v1.ref, main_call2.v2.ref, main_call2.v3.ref, main_call2.v4.ref, main_call2.v5.ref, main_call2.v6.ref, main_call2.cst_1.ref, main_call2.v7.ref, main_call2.v8.ref, main_call2.v9.ref, main_call2.v10.ref, main_call2.v11.ref]
theorem opsC1_writes : (opsC1 : List (HloOp τ sig (Elt F))).Forall fun op => op.writes ⊆ (opsC1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsC1_keep (W : Valuation τ sig (Elt F)) (r : Ref sig .tc) (h : r ∉ opsC1_W) :
    after opsC1 W (Proc.devRef .tc r) = W (Proc.devRef .tc r) :=
  after_of_writes_sub opsC1 W opsC1_writes h

/-- The buffers the stretch `opsC2` writes. -/
abbrev opsC2_W : List (Ref sig .tc) := [main_call3.cst.ref, main_call3.v0.ref, main_call3.cst_0.ref, main_call3.v1.ref, main_call3.v2.ref, main_call3.v3.ref, main_call3.v4.ref, main_call3.v5.ref, main_call3.v6.ref, main_call3.cst_1.ref, main_call3.v7.ref, main_call3.v8.ref, main_call3.v9.ref, main_call3.v10.ref, main_call3.v11.ref]
theorem opsC2_writes : (opsC2 : List (HloOp τ sig (Elt F))).Forall fun op => op.writes ⊆ (opsC2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsC2_keep (W : Valuation τ sig (Elt F)) (r : Ref sig .tc) (h : r ∉ opsC2_W) :
    after opsC2 W (Proc.devRef .tc r) = W (Proc.devRef .tc r) :=
  after_of_writes_sub opsC2 W opsC2_writes h

set_option maxRecDepth 16384 in
/-- The log-softmax of the logits' buffer. -/
theorem C0_val (W : Valuation τ sig (Elt F)) :
    after opsC0 W (Proc.devRef .tc main_v21) = RefTerm.logSoftmax (W (Proc.devRef .tc main_v20)) := by
  delta opsC0
  after_results_simp
  simp only [ofBuf_toBuf, toBuf_main_v6, toBuf_main_v21, toBuf_main_v54, toBuf_main_v87, ofBuf_main_c, ofBuf_main_v5, ofBuf_main_v20, ofBuf_main_v53, ofBuf_main_v86]
  rfl

set_option maxRecDepth 16384 in
/-- The log-softmax of the logits' buffer. -/
theorem C1_val (W : Valuation τ sig (Elt F)) :
    after opsC1 W (Proc.devRef .tc main_v54) = RefTerm.logSoftmax (W (Proc.devRef .tc main_v53)) := by
  delta opsC1
  after_results_simp
  simp only [ofBuf_toBuf, toBuf_main_v6, toBuf_main_v21, toBuf_main_v54, toBuf_main_v87, ofBuf_main_c, ofBuf_main_v5, ofBuf_main_v20, ofBuf_main_v53, ofBuf_main_v86]
  rfl

set_option maxRecDepth 16384 in
/-- The log-softmax of the logits' buffer. -/
theorem C2_val (W : Valuation τ sig (Elt F)) :
    after opsC2 W (Proc.devRef .tc main_v87) = RefTerm.logSoftmax (W (Proc.devRef .tc main_v86)) := by
  delta opsC2
  after_results_simp
  simp only [ofBuf_toBuf, toBuf_main_v6, toBuf_main_v21, toBuf_main_v54, toBuf_main_v87, ofBuf_main_c, ofBuf_main_v5, ofBuf_main_v20, ofBuf_main_v53, ofBuf_main_v86]
  rfl

end Cert.ReferenceIdeal.Hand

end
-- ==== Proof.RefRunD.lean ====
/-
  The three stretches that read the diagonal lp[a, a] of a log-softmax and leave minus its mean, and the
  last stretch, which adds the three losses to zero and divides by three.
-/
import proofs.«157399_j21638045237260_2_alg».proof.Proof.RefRunCast
import proofs.«157399_j21638045237260_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers the stretch `opsD0` writes. -/
abbrev opsD0_W : List (Ref sig .tc) := [main_v22, main_c_2, main_v23, main_v24, main_c_3, main_v25, main_v26, main_v27, main_c_4, main_v28, main_v29, main_c_5, main_v30, main_v31, main_v32, main_v33, main_v34, main_v35, main_v36, main_cst_6, main_v37, main_cst_7, main_v38, main_v39]
theorem opsD0_writes : (opsD0 : List (HloOp τ sig (Elt F))).Forall fun op => op.writes ⊆ (opsD0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsD0_keep (W : Valuation τ sig (Elt F)) (r : Ref sig .tc) (h : r ∉ opsD0_W) :
    after opsD0 W (Proc.devRef .tc r) = W (Proc.devRef .tc r) :=
  after_of_writes_sub opsD0 W opsD0_writes h

/-- The buffers the stretch `opsD1` writes. -/
abbrev opsD1_W : List (Ref sig .tc) := [main_v55, main_c_11, main_v56, main_v57, main_c_12, main_v58, main_v59, main_v60, main_c_13, main_v61, main_v62, main_c_14, main_v63, main_v64, main_v65, main_v66, main_v67, main_v68, main_v69, main_cst_15, main_v70, main_cst_16, main_v71, main_v72]
theorem opsD1_writes : (opsD1 : List (HloOp τ sig (Elt F))).Forall fun op => op.writes ⊆ (opsD1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsD1_keep (W : Valuation τ sig (Elt F)) (r : Ref sig .tc) (h : r ∉ opsD1_W) :
    after opsD1 W (Proc.devRef .tc r) = W (Proc.devRef .tc r) :=
  after_of_writes_sub opsD1 W opsD1_writes h

/-- The buffers the stretch `opsD2a` writes. -/
abbrev opsD2a_W : List (Ref sig .tc) := [main_v88, main_c_20, main_v89, main_v90, main_c_21, main_v91, main_v92, main_v93, main_c_22, main_v94]
theorem opsD2a_writes : (opsD2a : List (HloOp τ sig (Elt F))).Forall fun op => op.writes ⊆ (opsD2a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsD2a_keep (W : Valuation τ sig (Elt F)) (r : Ref sig .tc) (h : r ∉ opsD2a_W) :
    after opsD2a W (Proc.devRef .tc r) = W (Proc.devRef .tc r) :=
  after_of_writes_sub opsD2a W opsD2a_writes h

/-- The buffers the stretch `opsD2b` writes. -/
abbrev opsD2b_W : List (Ref sig .tc) := [main_v95, main_c_23, main_v96, main_v97, main_v98, main_v99, main_v100, main_v101, main_v102, main_cst_24, main_v103, main_cst_25, main_v104, main_v105]
theorem opsD2b_writes : (opsD2b : List (HloOp τ sig (Elt F))).Forall fun op => op.writes ⊆ (opsD2b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsD2b_keep (W : Valuation τ sig (Elt F)) (r : Ref sig .tc) (h : r ∉ opsD2b_W) :
    after opsD2b W (Proc.devRef .tc r) = W (Proc.devRef .tc r) :=
  after_of_writes_sub opsD2b W opsD2b_writes h

/-- The buffers the stretch `opsE` writes. -/
abbrev opsE_W : List (Ref sig .tc) := [main_cst_26, main_v106, main_v107, main_v108, main_cst_27, main_v109]
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsE_keep (W : Valuation τ sig (Elt F)) (r : Ref sig .tc) (h : r ∉ opsE_W) :
    after opsE W (Proc.devRef .tc r) = W (Proc.devRef .tc r) :=
  after_of_writes_sub opsE W opsE_writes h

set_option maxRecDepth 16384 in
/-- Minus the mean of the diagonal of the first log-softmax. -/
theorem D0_val (W : Valuation τ sig (Elt F)) :
    after opsD0 W (Proc.devRef .tc main_v39) = RefTerm.loss (W (Proc.devRef .tc main_v21)) := by
  delta opsD0
  after_results_simp
  rfl

set_option maxRecDepth 16384 in
/-- Minus the mean of the diagonal of the second log-softmax. -/
theorem D1_val (W : Valuation τ sig (Elt F)) :
    after opsD1 W (Proc.devRef .tc main_v72) = RefTerm.loss (W (Proc.devRef .tc main_v54)) := by
  delta opsD1
  after_results_simp
  rfl

set_option maxRecDepth 16384 in
/-- Minus the mean of the diagonal of the third log-softmax. -/
theorem D2_val (W : Valuation τ sig (Elt F)) :
    after opsD2b (after opsD2a W) (Proc.devRef .tc main_v105) = RefTerm.loss (W (Proc.devRef .tc main_v87)) := by
  delta opsD2a opsD2b
  after_results_simp
  rfl

set_option maxRecDepth 16384 in
/-- The three losses added to zero, over three. -/
theorem E_val (W : Valuation τ sig (Elt F)) :
    after opsE W (Proc.devRef .tc main_v109) = Host.divf (addf (addf (addf (constant S_ .f32 0x00000000#32) (W (Proc.devRef .tc main_v39))) (W (Proc.devRef .tc main_v72))) (W (Proc.devRef .tc main_v105))) (constant S_ .f32 0x40400000#32) := by
  delta opsE
  after_results_simp

end Cert.ReferenceIdeal.Hand

end
-- ==== Proof.RefRun.lean ====
/-
  The run of the reference program: every weakly fair execution of its @main terminates, leaves in the
  result buffer the reference term of the three argument arrays — ((0 + l₀) + l₁) + l₂ over 3, each lₖ minus
  the mean of the diagonal of the log-softmax of a configuration's logits — and leaves the arguments as they
  were. The operations' fold over the launch contents is read one stretch at a time: each stretch's result
  depends only on what a few buffers held before it, and those were left by earlier stretches or never
  written at all.
-/
import proofs.«157399_j21638045237260_2_alg».proof.Proof.RefRunA
import proofs.«157399_j21638045237260_2_alg».proof.Proof.RefRunB
import proofs.«157399_j21638045237260_2_alg».proof.Proof.RefRunC
import proofs.«157399_j21638045237260_2_alg».proof.Proof.RefRunD
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over the whole line is the stretches' folds, one after the other. -/
theorem after_ops (V : Valuation τ sig (Elt F)) :
    after ops V = after opsE (after opsD2b (after opsD2a (after opsC2 (after opsB2 (after opsD1 (after opsC1 (after opsB1b (after opsB1a (after opsD0 (after opsC0 (after opsB0 (after opsA (V))))))))))))) := by
  delta ops
  simp only [after_append]

/-- What the result buffer holds after the whole line: the reference term of the arguments' contents. -/
theorem result_eq (V : Valuation τ sig (Elt F)) :
    after ops V (Proc.devRef .tc main_v109) = RefTerm.result (V (Proc.devRef .tc main_arg0)) (V (Proc.devRef .tc main_arg1)) (V (Proc.devRef .tc main_arg2)) := by
  have hA_main_arg0 : after opsA (V) (Proc.devRef .tc main_arg0) = V (Proc.devRef .tc main_arg0) :=
    (opsA_keep V main_arg0 (by decide))
  have hA_main_arg1 : after opsA (V) (Proc.devRef .tc main_arg1) = V (Proc.devRef .tc main_arg1) :=
    (opsA_keep V main_arg1 (by decide))
  have hA_main_arg2 : after opsA (V) (Proc.devRef .tc main_arg2) = V (Proc.devRef .tc main_arg2) :=
    (opsA_keep V main_arg2 (by decide))
  have hD0_main_arg0 : after opsD0 (after opsC0 (after opsB0 (after opsA (V)))) (Proc.devRef .tc main_arg0) = V (Proc.devRef .tc main_arg0) :=
    ((opsD0_keep (after opsC0 (after opsB0 (after opsA (V)))) main_arg0 (by decide)).trans ((opsC0_keep (after opsB0 (after opsA (V))) main_arg0 (by decide)).trans ((opsB0_keep (after opsA (V)) main_arg0 (by decide)).trans (opsA_keep V main_arg0 (by decide)))))
  have hD0_main_arg1 : after opsD0 (after opsC0 (after opsB0 (after opsA (V)))) (Proc.devRef .tc main_arg1) = V (Proc.devRef .tc main_arg1) :=
    ((opsD0_keep (after opsC0 (after opsB0 (after opsA (V)))) main_arg1 (by decide)).trans ((opsC0_keep (after opsB0 (after opsA (V))) main_arg1 (by decide)).trans ((opsB0_keep (after opsA (V)) main_arg1 (by decide)).trans (opsA_keep V main_arg1 (by decide)))))
  have hD0_main_arg2 : after opsD0 (after opsC0 (after opsB0 (after opsA (V)))) (Proc.devRef .tc main_arg2) = V (Proc.devRef .tc main_arg2) :=
    ((opsD0_keep (after opsC0 (after opsB0 (after opsA (V)))) main_arg2 (by decide)).trans ((opsC0_keep (after opsB0 (after opsA (V))) main_arg2 (by decide)).trans ((opsB0_keep (after opsA (V)) main_arg2 (by decide)).trans (opsA_keep V main_arg2 (by decide)))))
  have hD1_main_arg0 : after opsD1 (after opsC1 (after opsB1b (after opsB1a (after opsD0 (after opsC0 (after opsB0 (after opsA (V)))))))) (Proc.devRef .tc main_arg0) = V (Proc.devRef .tc main_arg0) :=
    ((opsD1_keep (after opsC1 (after opsB1b (after opsB1a (after opsD0 (after opsC0 (after opsB0 (after opsA (V)))))))) main_arg0 (by decide)).trans ((opsC1_keep (after opsB1b (after opsB1a (after opsD0 (after opsC0 (after opsB0 (after opsA (V))))))) main_arg0 (by decide)).trans ((opsB1b_keep (after opsB1a (after opsD0 (after opsC0 (after opsB0 (after opsA (V)))))) main_arg0 (by decide)).trans ((opsB1a_keep (after opsD0 (after opsC0 (after opsB0 (after opsA (V))))) main_arg0 (by decide)).trans ((opsD0_keep (after opsC0 (after opsB0 (after opsA (V)))) main_arg0 (by decide)).trans ((opsC0_keep (after opsB0 (after opsA (V))) main_arg0 (by decide)).trans ((opsB0_keep (after opsA (V)) main_arg0 (by decide)).trans (opsA_keep V main_arg0 (by decide)))))))))
  have hD1_main_arg1 : after opsD1 (after opsC1 (after opsB1b (after opsB1a (after opsD0 (after opsC0 (after opsB0 (after opsA (V)))))))) (Proc.devRef .tc main_arg1) = V (Proc.devRef .tc main_arg1) :=
    ((opsD1_keep (after opsC1 (after opsB1b (after opsB1a (after opsD0 (after opsC0 (after opsB0 (after opsA (V)))))))) main_arg1 (by decide)).trans ((opsC1_keep (after opsB1b (after opsB1a (after opsD0 (after opsC0 (after opsB0 (after opsA (V))))))) main_arg1 (by decide)).trans ((opsB1b_keep (after opsB1a (after opsD0 (after opsC0 (after opsB0 (after opsA (V)))))) main_arg1 (by decide)).trans ((opsB1a_keep (after opsD0 (after opsC0 (after opsB0 (after opsA (V))))) main_arg1 (by decide)).trans ((opsD0_keep (after opsC0 (after opsB0 (after opsA (V)))) main_arg1 (by decide)).trans ((opsC0_keep (after opsB0 (after opsA (V))) main_arg1 (by decide)).trans ((opsB0_keep (after opsA (V)) main_arg1 (by decide)).trans (opsA_keep V main_arg1 (by decide)))))))))
  have hD1_main_arg2 : after opsD1 (after opsC1 (after opsB1b (after opsB1a (after opsD0 (after opsC0 (after opsB0 (after opsA (V)))))))) (Proc.devRef .tc main_arg2) = V (Proc.devRef .tc main_arg2) :=
    ((opsD1_keep (after opsC1 (after opsB1b (after opsB1a (after opsD0 (after opsC0 (after opsB0 (after opsA (V)))))))) main_arg2 (by decide)).trans ((opsC1_keep (after opsB1b (after opsB1a (after opsD0 (after opsC0 (after opsB0 (after opsA (V))))))) main_arg2 (by decide)).trans ((opsB1b_keep (after opsB1a (after opsD0 (after opsC0 (after opsB0 (after opsA (V)))))) main_arg2 (by decide)).trans ((opsB1a_keep (after opsD0 (after opsC0 (after opsB0 (after opsA (V))))) main_arg2 (by decide)).trans ((opsD0_keep (after opsC0 (after opsB0 (after opsA (V)))) main_arg2 (by decide)).trans ((opsC0_keep (after opsB0 (after opsA (V))) main_arg2 (by decide)).trans ((opsB0_keep (after opsA (V)) main_arg2 (by decide)).trans (opsA_keep V main_arg2 (by decide)))))))))
  have hA_v6 : after opsA (V) (Proc.devRef .tc main_v6) = RefTerm.shiftTbl :=
    A_val V
  have hD0_v6 : after opsD0 (after opsC0 (after opsB0 (after opsA (V)))) (Proc.devRef .tc main_v6) = RefTerm.shiftTbl :=
    ((opsD0_keep (after opsC0 (after opsB0 (after opsA (V)))) main_v6 (by decide)).trans ((opsC0_keep (after opsB0 (after opsA (V))) main_v6 (by decide)).trans (opsB0_keep (after opsA (V)) main_v6 (by decide)))).trans hA_v6
  have hD1_v6 : after opsD1 (after opsC1 (after opsB1b (after opsB1a (after opsD0 (after opsC0 (after opsB0 (after opsA (V)))))))) (Proc.devRef .tc main_v6) = RefTerm.shiftTbl :=
    ((opsD1_keep (after opsC1 (after opsB1b (after opsB1a (after opsD0 (after opsC0 (after opsB0 (after opsA (V)))))))) main_v6 (by decide)).trans ((opsC1_keep (after opsB1b (after opsB1a (after opsD0 (after opsC0 (after opsB0 (after opsA (V))))))) main_v6 (by decide)).trans ((opsB1b_keep (after opsB1a (after opsD0 (after opsC0 (after opsB0 (after opsA (V)))))) main_v6 (by decide)).trans (opsB1a_keep (after opsD0 (after opsC0 (after opsB0 (after opsA (V))))) main_v6 (by decide))))).trans hD0_v6
  have hL0 : after opsD0 (after opsC0 (after opsB0 (after opsA (V)))) (Proc.devRef .tc main_v39) = RefTerm.cfgLoss (V (Proc.devRef .tc main_arg0)) (V (Proc.devRef .tc main_arg1)) (V (Proc.devRef .tc main_arg2)) :=
    by rw [D0_val, C0_val, B0_val, hA_v6, hA_main_arg0, hA_main_arg1, hA_main_arg2]; rfl
  have hL1 : after opsD1 (after opsC1 (after opsB1b (after opsB1a (after opsD0 (after opsC0 (after opsB0 (after opsA (V)))))))) (Proc.devRef .tc main_v72) = RefTerm.cfgLoss (V (Proc.devRef .tc main_arg1)) (V (Proc.devRef .tc main_arg0)) (V (Proc.devRef .tc main_arg2)) :=
    by rw [D1_val, C1_val, B1_val, hD0_v6, hD0_main_arg1, hD0_main_arg0, hD0_main_arg2]; rfl
  have hL2 : after opsD2b (after opsD2a (after opsC2 (after opsB2 (after opsD1 (after opsC1 (after opsB1b (after opsB1a (after opsD0 (after opsC0 (after opsB0 (after opsA (V)))))))))))) (Proc.devRef .tc main_v105) = RefTerm.cfgLoss (V (Proc.devRef .tc main_arg2)) (V (Proc.devRef .tc main_arg0)) (V (Proc.devRef .tc main_arg1)) :=
    by rw [D2_val, C2_val, B2_val, hD1_v6, hD1_main_arg2, hD1_main_arg0, hD1_main_arg1]; rfl
  have hL0' : after opsD2b (after opsD2a (after opsC2 (after opsB2 (after opsD1 (after opsC1 (after opsB1b (after opsB1a (after opsD0 (after opsC0 (after opsB0 (after opsA (V)))))))))))) (Proc.devRef .tc main_v39) = RefTerm.cfgLoss (V (Proc.devRef .tc main_arg0)) (V (Proc.devRef .tc main_arg1)) (V (Proc.devRef .tc main_arg2)) :=
    ((opsD2b_keep (after opsD2a (after opsC2 (after opsB2 (after opsD1 (after opsC1 (after opsB1b (after opsB1a (after opsD0 (after opsC0 (after opsB0 (after opsA (V)))))))))))) main_v39 (by decide)).trans ((opsD2a_keep (after opsC2 (after opsB2 (after opsD1 (after opsC1 (after opsB1b (after opsB1a (after opsD0 (after opsC0 (after opsB0 (after opsA (V))))))))))) main_v39 (by decide)).trans ((opsC2_keep (after opsB2 (after opsD1 (after opsC1 (after opsB1b (after opsB1a (after opsD0 (after opsC0 (after opsB0 (after opsA (V)))))))))) main_v39 (by decide)).trans ((opsB2_keep (after opsD1 (after opsC1 (after opsB1b (after opsB1a (after opsD0 (after opsC0 (after opsB0 (after opsA (V))))))))) main_v39 (by decide)).trans ((opsD1_keep (after opsC1 (after opsB1b (after opsB1a (after opsD0 (after opsC0 (after opsB0 (after opsA (V)))))))) main_v39 (by decide)).trans ((opsC1_keep (after opsB1b (after opsB1a (after opsD0 (after opsC0 (after opsB0 (after opsA (V))))))) main_v39 (by decide)).trans ((opsB1b_keep (after opsB1a (after opsD0 (after opsC0 (after opsB0 (after opsA (V)))))) main_v39 (by decide)).trans (opsB1a_keep (after opsD0 (after opsC0 (after opsB0 (after opsA (V))))) main_v39 (by decide))))))))).trans hL0
  have hL1' : after opsD2b (after opsD2a (after opsC2 (after opsB2 (after opsD1 (after opsC1 (after opsB1b (after opsB1a (after opsD0 (after opsC0 (after opsB0 (after opsA (V)))))))))))) (Proc.devRef .tc main_v72) = RefTerm.cfgLoss (V (Proc.devRef .tc main_arg1)) (V (Proc.devRef .tc main_arg0)) (V (Proc.devRef .tc main_arg2)) :=
    ((opsD2b_keep (after opsD2a (after opsC2 (after opsB2 (after opsD1 (after opsC1 (after opsB1b (after opsB1a (after opsD0 (after opsC0 (after opsB0 (after opsA (V)))))))))))) main_v72 (by decide)).trans ((opsD2a_keep (after opsC2 (after opsB2 (after opsD1 (after opsC1 (after opsB1b (after opsB1a (after opsD0 (after opsC0 (after opsB0 (after opsA (V))))))))))) main_v72 (by decide)).trans ((opsC2_keep (after opsB2 (after opsD1 (after opsC1 (after opsB1b (after opsB1a (after opsD0 (after opsC0 (after opsB0 (after opsA (V)))))))))) main_v72 (by decide)).trans (opsB2_keep (after opsD1 (after opsC1 (after opsB1b (after opsB1a (after opsD0 (after opsC0 (after opsB0 (after opsA (V))))))))) main_v72 (by decide))))).trans hL1
  rw [after_ops, E_val, hL0', hL1', hL2]
  rfl

/-- No operation writes `main_arg0`. -/
theorem main_arg0_eq (V : Valuation τ sig (Elt F)) : after ops V (Proc.devRef .tc main_arg0) = V (Proc.devRef .tc main_arg0) := by
  rw [after_ops]
  exact ((opsE_keep (after opsD2b (after opsD2a (after opsC2 (after opsB2 (after opsD1 (after opsC1 (after opsB1b (after opsB1a (after opsD0 (after opsC0 (after opsB0 (after opsA (V))))))))))))) main_arg0 (by decide)).trans ((opsD2b_keep (after opsD2a (after opsC2 (after opsB2 (after opsD1 (after opsC1 (after opsB1b (after opsB1a (after opsD0 (after opsC0 (after opsB0 (after opsA (V)))))))))))) main_arg0 (by decide)).trans ((opsD2a_keep (after opsC2 (after opsB2 (after opsD1 (after opsC1 (after opsB1b (after opsB1a (after opsD0 (after opsC0 (after opsB0 (after opsA (V))))))))))) main_arg0 (by decide)).trans ((opsC2_keep (after opsB2 (after opsD1 (after opsC1 (after opsB1b (after opsB1a (after opsD0 (after opsC0 (after opsB0 (after opsA (V)))))))))) main_arg0 (by decide)).trans ((opsB2_keep (after opsD1 (after opsC1 (after opsB1b (after opsB1a (after opsD0 (after opsC0 (after opsB0 (after opsA (V))))))))) main_arg0 (by decide)).trans ((opsD1_keep (after opsC1 (after opsB1b (after opsB1a (after opsD0 (after opsC0 (after opsB0 (after opsA (V)))))))) main_arg0 (by decide)).trans ((opsC1_keep (after opsB1b (after opsB1a (after opsD0 (after opsC0 (after opsB0 (after opsA (V))))))) main_arg0 (by decide)).trans ((opsB1b_keep (after opsB1a (after opsD0 (after opsC0 (after opsB0 (after opsA (V)))))) main_arg0 (by decide)).trans ((opsB1a_keep (after opsD0 (after opsC0 (after opsB0 (after opsA (V))))) main_arg0 (by decide)).trans ((opsD0_keep (after opsC0 (after opsB0 (after opsA (V)))) main_arg0 (by decide)).trans ((opsC0_keep (after opsB0 (after opsA (V))) main_arg0 (by decide)).trans ((opsB0_keep (after opsA (V)) main_arg0 (by decide)).trans (opsA_keep V main_arg0 (by decide))))))))))))))

/-- No operation writes `main_arg1`. -/
theorem main_arg1_eq (V : Valuation τ sig (Elt F)) : after ops V (Proc.devRef .tc main_arg1) = V (Proc.devRef .tc main_arg1) := by
  rw [after_ops]
  exact ((opsE_keep (after opsD2b (after opsD2a (after opsC2 (after opsB2 (after opsD1 (after opsC1 (after opsB1b (after opsB1a (after opsD0 (after opsC0 (after opsB0 (after opsA (V))))))))))))) main_arg1 (by decide)).trans ((opsD2b_keep (after opsD2a (after opsC2 (after opsB2 (after opsD1 (after opsC1 (after opsB1b (after opsB1a (after opsD0 (after opsC0 (after opsB0 (after opsA (V)))))))))))) main_arg1 (by decide)).trans ((opsD2a_keep (after opsC2 (after opsB2 (after opsD1 (after opsC1 (after opsB1b (after opsB1a (after opsD0 (after opsC0 (after opsB0 (after opsA (V))))))))))) main_arg1 (by decide)).trans ((opsC2_keep (after opsB2 (after opsD1 (after opsC1 (after opsB1b (after opsB1a (after opsD0 (after opsC0 (after opsB0 (after opsA (V)))))))))) main_arg1 (by decide)).trans ((opsB2_keep (after opsD1 (after opsC1 (after opsB1b (after opsB1a (after opsD0 (after opsC0 (after opsB0 (after opsA (V))))))))) main_arg1 (by decide)).trans ((opsD1_keep (after opsC1 (after opsB1b (after opsB1a (after opsD0 (after opsC0 (after opsB0 (after opsA (V)))))))) main_arg1 (by decide)).trans ((opsC1_keep (after opsB1b (after opsB1a (after opsD0 (after opsC0 (after opsB0 (after opsA (V))))))) main_arg1 (by decide)).trans ((opsB1b_keep (after opsB1a (after opsD0 (after opsC0 (after opsB0 (after opsA (V)))))) main_arg1 (by decide)).trans ((opsB1a_keep (after opsD0 (after opsC0 (after opsB0 (after opsA (V))))) main_arg1 (by decide)).trans ((opsD0_keep (after opsC0 (after opsB0 (after opsA (V)))) main_arg1 (by decide)).trans ((opsC0_keep (after opsB0 (after opsA (V))) main_arg1 (by decide)).trans ((opsB0_keep (after opsA (V)) main_arg1 (by decide)).trans (opsA_keep V main_arg1 (by decide))))))))))))))

/-- No operation writes `main_arg2`. -/
theorem main_arg2_eq (V : Valuation τ sig (Elt F)) : after ops V (Proc.devRef .tc main_arg2) = V (Proc.devRef .tc main_arg2) := by
  rw [after_ops]
  exact ((opsE_keep (after opsD2b (after opsD2a (after opsC2 (after opsB2 (after opsD1 (after opsC1 (after opsB1b (after opsB1a (after opsD0 (after opsC0 (after opsB0 (after opsA (V))))))))))))) main_arg2 (by decide)).trans ((opsD2b_keep (after opsD2a (after opsC2 (after opsB2 (after opsD1 (after opsC1 (after opsB1b (after opsB1a (after opsD0 (after opsC0 (after opsB0 (after opsA (V)))))))))))) main_arg2 (by decide)).trans ((opsD2a_keep (after opsC2 (after opsB2 (after opsD1 (after opsC1 (after opsB1b (after opsB1a (after opsD0 (after opsC0 (after opsB0 (after opsA (V))))))))))) main_arg2 (by decide)).trans ((opsC2_keep (after opsB2 (after opsD1 (after opsC1 (after opsB1b (after opsB1a (after opsD0 (after opsC0 (after opsB0 (after opsA (V)))))))))) main_arg2 (by decide)).trans ((opsB2_keep (after opsD1 (after opsC1 (after opsB1b (after opsB1a (after opsD0 (after opsC0 (after opsB0 (after opsA (V))))))))) main_arg2 (by decide)).trans ((opsD1_keep (after opsC1 (after opsB1b (after opsB1a (after opsD0 (after opsC0 (after opsB0 (after opsA (V)))))))) main_arg2 (by decide)).trans ((opsC1_keep (after opsB1b (after opsB1a (after opsD0 (after opsC0 (after opsB0 (after opsA (V))))))) main_arg2 (by decide)).trans ((opsB1b_keep (after opsB1a (after opsD0 (after opsC0 (after opsB0 (after opsA (V)))))) main_arg2 (by decide)).trans ((opsB1a_keep (after opsD0 (after opsC0 (after opsB0 (after opsA (V))))) main_arg2 (by decide)).trans ((opsD0_keep (after opsC0 (after opsB0 (after opsA (V)))) main_arg2 (by decide)).trans ((opsC0_keep (after opsB0 (after opsA (V))) main_arg2 (by decide)).trans ((opsB0_keep (after opsA (V)) main_arg2 (by decide)).trans (opsA_keep V main_arg2 (by decide))))))))))))))

/-- Every weakly fair execution of the reference's @main, from any memory with zero counters, terminates with
    the result buffer at the reference term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = RefTerm.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v109).trans (result_eq (launchContents m c)),
      (h c main_arg0).trans (main_arg0_eq (launchContents m c)),
      (h c main_arg1).trans (main_arg1_eq (launchContents m c)),
      (h c main_arg2).trans (main_arg2_eq (launchContents m c))⟩)
    (run_all m ρ)

/-- The frame: the run, its result dropped. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => (h c).2) (run m ρ)

end Cert.ReferenceIdeal.Hand

end
-- ==== Proof.RefReadInt.lean ====
/-
  The reference's integer tables and its row gather, read at an index.

  The shift table is built from 32-bit words: the difference r - i of two indices below 256 (a word that is
  "negative" when r < i), its truncated remainder by 256 (the difference itself, as its magnitude is below
  256), and Python's correction (+256 exactly when the remainder is negative). So entry (i, r) is the word
  of (r - i) mod 256, which is the subtraction of `Fin 256`. The word function depends on the difference
  alone, 511 values, and is checked on each; the negative-index wraps that follow act on words of numbers
  below 256, which are not negative, and change nothing. The diagonal's index pairs are (a, a) likewise.
  A gather of rows then reads row (r - i) of its operand: the start index is read signed and clamped into
  [0, 255], and a number below 256 is its own clamp.
-/
import proofs.«157399_j21638045237260_2_alg».proof.Proof.RefTerm
import Idealize.ShloMosaic.Lib.IdealHost
import Idealize.ShloMosaic.Lib.Pipeline.Value

noncomputable section
namespace Cert.ReferenceIdeal.RefRead
open Idealize.ShloMosaic Idealize.ShloMosaic.ValueIdx Cert.ReferenceIdeal Cert.ReferenceIdeal.RefTerm Facts₀ Facts

/-- The divisor word. -/
def divW : BitVec 32 := Scalar.select (IntOp.cmpi .eq (id 256#32) 0#32) 1#32 (id 256#32)

/-- Python's remainder by 256 on one word. -/
def pyRemW (x : BitVec 32) : BitVec 32 :=
  Scalar.select
    (IntOp.andi
      (IntOp.cmpi .ne (IntOp.cmpi .slt (IntOp.remsi .host x divW) 0#32) (IntOp.cmpi .slt divW 0#32))
      (IntOp.cmpi .ne (IntOp.remsi .host x divW) 0#32))
    (IntOp.addi (IntOp.remsi .host x divW) divW)
    (IntOp.remsi .host x divW)

/-- The negative-index wrap on one word. -/
def wrapW (n x : BitVec 32) : BitVec 32 := Scalar.select (IntOp.cmpi .slt x 0#32) (IntOp.addi x n) x

set_option maxRecDepth 100000 in
theorem pyRemW_tbl : ∀ d : Fin 511, pyRemW (BitVec.ofNat 32 (4294967041 + d.val)) = BitVec.ofNat 32 ((d.val + 1) % 256) := by
  decide +kernel

set_option maxRecDepth 100000 in
theorem wrapW_tbl : ∀ v : Fin 256, wrapW 256#32 (BitVec.ofNat 32 v.val) = BitVec.ofNat 32 v.val
    ∧ wrapW 65536#32 (BitVec.ofNat 32 v.val) = BitVec.ofNat 32 v.val := by
  decide +kernel

theorem pyRemW_diff (i r : Fin 256) :
    pyRemW (BitVec.ofNat 32 r.val - BitVec.ofNat 32 i.val) = BitVec.ofNat 32 (r - i).val := by
  have hd : r.val + 255 - i.val < 511 := by omega
  have h := pyRemW_tbl ⟨r.val + 255 - i.val, hd⟩
  rw [BitVec.ofNat_sub_ofNat]
  have e1 : (2 ^ 32 - i.val % 2 ^ 32) + r.val = 4294967041 + (r.val + 255 - i.val) := by omega
  have e2 : (r - i : Fin 256).val = (r.val + 255 - i.val + 1) % 256 := by
    rw [Fin.sub_def]; simp only []; omega
  rw [e1, e2]; exact h

variable [Facts]

theorem pyRem_apply (t : IVec S256x256 32) (j : S256x256.Idx) : pyRem t j = pyRemW (t j) := rfl

theorem diffTbl_apply (i r : Fin 256) : diffTbl (ix2 i r) = BitVec.ofNat 32 r.val - BitVec.ofNat 32 i.val := rfl

theorem shiftTbl_apply (i r : Fin 256) : shiftTbl (ix2 i r) = BitVec.ofNat 32 (r - i).val := by
  unfold shiftTbl; rw [pyRem_apply, diffTbl_apply, pyRemW_diff]

theorem idxTbl_apply' (i r : Fin 256) : idxTbl (ix3 i r (0 : Fin 1)) = wrapW 256#32 (shiftTbl (ix2 i r)) := rfl

theorem idxTbl_apply (i r : Fin 256) : idxTbl (ix3 i r (0 : Fin 1)) = BitVec.ofNat 32 (r - i).val := by
  rw [idxTbl_apply', shiftTbl_apply]; exact (wrapW_tbl (r - i)).1

theorem wrapIota_apply (n : BitVec 32) (a : Fin 256) : wrapIota n (ix1 a) = wrapW n (BitVec.ofNat 32 a.val) := rfl

theorem diagIdx_apply0' (a : Fin 256) : diagIdx (ix2 a (0 : Fin 2)) = wrapIota 256#32 (ix1 a) := by
  unfold diagIdx
  refine (concatenate_pair_apply_left (t := S256x2) (s₁ := S256x1) (s₂ := S256x1) 1 _ _ _ _ rfl (ix2 a (0 : Fin 1)) ?_).trans
    (broadcastInDim_apply _ _ _ _ (ix1 a) ?_)
  · intro b; match b with
    | ⟨0, _⟩ => rfl
    | ⟨1, _⟩ => rfl
  · intro b; match b with
    | ⟨0, _⟩ => rfl

theorem diagIdx_apply1' (a : Fin 256) : diagIdx (ix2 a (1 : Fin 2)) = wrapIota 65536#32 (ix1 a) := by
  unfold diagIdx
  refine (concatenate_pair_apply_right (t := S256x2) (s₁ := S256x1) (s₂ := S256x1) 1 _ _ _ _ rfl rfl (ix2 a (0 : Fin 1)) ?_ ?_).trans
    (broadcastInDim_apply _ _ _ _ (ix1 a) ?_)
  · intro b hb; match b with
    | ⟨0, _⟩ => rfl
    | ⟨1, _⟩ => exact absurd rfl hb
  · rfl
  · intro b; match b with
    | ⟨0, _⟩ => rfl

theorem diagIdx_apply0 (a : Fin 256) : diagIdx (ix2 a (0 : Fin 2)) = BitVec.ofNat 32 a.val := by
  rw [diagIdx_apply0', wrapIota_apply]; exact (wrapW_tbl a).1

theorem diagIdx_apply1 (a : Fin 256) : diagIdx (ix2 a (1 : Fin 2)) = BitVec.ofNat 32 a.val := by
  rw [diagIdx_apply1', wrapIota_apply]; exact (wrapW_tbl a).2

/-- Rows of a [256,512] array gathered at a [256,256,1] array of start indices: result element (i, r, d) is the operand
    at row `idx[i, r, 0]` (read signed, clamped into [0, 255]) and column `d`. -/
theorem gather_rows_apply {α : Type} (x : S256x512.Idx → α) (idx : IVec S256x256x1 32) (i r : Fin 256) (d : Fin 512) :
    Host.gather gather_S256x512_S256x256x1_S256x256x512_2_0_n_n_0_2_1512 x idx (ix3 i r d)
      = x (ix2 ⟨min (idx (ix3 i r (0 : Fin 1))).toInt.toNat 255, by omega⟩ d) := by
  unfold Host.gather
  congr 1
  funext a
  refine Fin.ext ?_
  have hsi : gather_S256x512_S256x256x1_S256x256x512_2_0_n_n_0_2_1512.siIdx (ix3 i r d)
      ⟨List.idxOf (0 : Fin 2) gather_S256x512_S256x256x1_S256x256x512_2_0_n_n_0_2_1512.startIndexMap,
        List.idxOf_lt_length_iff.2 (List.mem_singleton.mpr rfl)⟩ = ix3 i r (0 : Fin 1) := by
    funext b; refine Fin.ext ?_
    match b with
    | ⟨0, _⟩ => rfl
    | ⟨1, _⟩ => rfl
    | ⟨2, _⟩ => rfl
  match a with
  | ⟨0, _⟩ =>
    show gather_S256x512_S256x256x1_S256x256x512_2_0_n_n_0_2_1512.start (ix3 i r d) idx 0
      + gather_S256x512_S256x256x1_S256x256x512_2_0_n_n_0_2_1512.batchCoord (ix3 i r d) 0
      + gather_S256x512_S256x256x1_S256x256x512_2_0_n_n_0_2_1512.offCoord (ix3 i r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x512_S256x256x1_S256x256x512_2_0_n_n_0_2_1512.startIndexMap from List.mem_singleton.mpr rfl)]
    rw [hsi]
    rfl
  | ⟨1, _⟩ =>
    show gather_S256x512_S256x256x1_S256x256x512_2_0_n_n_0_2_1512.start (ix3 i r d) idx 1
      + gather_S256x512_S256x256x1_S256x256x512_2_0_n_n_0_2_1512.batchCoord (ix3 i r d) 1
      + gather_S256x512_S256x256x1_S256x256x512_2_0_n_n_0_2_1512.offCoord (ix3 i r d) 1 = d.val
    rw [GatherDims.batchCoord_eq_zero _ _ _ List.not_mem_nil]
    unfold GatherDims.start
    rw [dif_neg (show ¬ (1 : Fin 2) ∈ gather_S256x512_S256x256x1_S256x256x512_2_0_n_n_0_2_1512.startIndexMap from fun h => absurd (List.mem_singleton.mp h) (by decide))]
    simp only [Nat.zero_add, Nat.add_zero]
    rfl

end Cert.ReferenceIdeal.RefRead
end
-- ==== Proof.RefReadGather.lean ====
/-
  The reference's two gathers at the tables they are given, and the products they feed.

  The diagonal gather reads a [256, 65536] array at the index pairs (a, a): each coordinate of a start index is
  read signed and clamped so that the one-element slice fits; numbers below 256 are their own clamps on both
  axes. The row gather at the shift table reads row (r - i) of its operand, so the product array is
  (i, r, d) ↦ P[r, d] · Q[r - i, d], the row operand being broadcast along the shift axis.
-/
import proofs.«157399_j21638045237260_2_alg».proof.Proof.RefReadInt

noncomputable section
namespace Cert.ReferenceIdeal.RefRead
open Idealize.ShloMosaic Idealize.ShloMosaic.ValueIdx Cert.ReferenceIdeal Cert.ReferenceIdeal.RefTerm Facts₀ Facts

/-- The word of a number below 2¹⁶, read signed, is the number. -/
theorem toNat_word (v : Nat) (hv : v < 65536) : (BitVec.ofNat 32 v).toInt.toNat = v := by
  have h1 : (BitVec.ofNat 32 v).toNat = v := by rw [BitVec.toNat_ofNat]; omega
  rw [BitVec.toInt_eq_toNat_of_lt (by rw [h1]; omega), h1, Int.toNat_natCast]

variable [Facts]

/-- The row gather at a start index that is the word of a row number `v`: the operand's row `v`. -/
theorem gather_rows_apply_of {α : Type} (x : S256x512.Idx → α) (idx : IVec S256x256x1 32) (i r : Fin 256) (d : Fin 512)
    (v : Fin 256) (hv : idx (ix3 i r (0 : Fin 1)) = BitVec.ofNat 32 v.val) :
    Host.gather gather_S256x512_S256x256x1_S256x256x512_2_0_n_n_0_2_1512 x idx (ix3 i r d) = x (ix2 v d) := by
  refine (gather_rows_apply x idx i r d).trans (congrArg x (congrArg (fun t => ix2 t d) (Fin.ext ?_)))
  show min (idx (ix3 i r (0 : Fin 1))).toInt.toNat 255 = v.val
  have := v.isLt
  rw [hv, toNat_word _ (by omega)]; omega

/-- A [256, 65536] array gathered at a [256, 2] array of index pairs: result element `a` is the operand at the pair
    `(idx[a, 0], idx[a, 1])`, each read signed and clamped into its axis. -/
theorem gather_pairs_apply {α : Type} (x : S256x65536.Idx → α) (idx : IVec S256x2 32) (a : Fin 256) :
    Host.gather gather_S256x65536_S256x2_S256_n_01_n_n_01_1_11 x idx (ix1 a)
      = x (ix2 ⟨min (idx (ix2 a (0 : Fin 2))).toInt.toNat 255, by omega⟩
              ⟨min (idx (ix2 a (1 : Fin 2))).toInt.toNat 65535, by omega⟩) := by
  unfold Host.gather
  congr 1
  funext ax
  refine Fin.ext ?_
  have m0 : (0 : Fin 2) ∈ gather_S256x65536_S256x2_S256_n_01_n_n_01_1_11.startIndexMap :=
    show (0 : Fin 2) ∈ ([0, 1] : List (Fin 2)) from by decide
  have m1 : (1 : Fin 2) ∈ gather_S256x65536_S256x2_S256_n_01_n_n_01_1_11.startIndexMap :=
    show (1 : Fin 2) ∈ ([0, 1] : List (Fin 2)) from by decide
  have c0 : (0 : Fin 2) ∈ gather_S256x65536_S256x2_S256_n_01_n_n_01_1_11.collapsedSliceDims :=
    show (0 : Fin 2) ∈ ([0, 1] : List (Fin 2)) from by decide
  have c1 : (1 : Fin 2) ∈ gather_S256x65536_S256x2_S256_n_01_n_n_01_1_11.collapsedSliceDims :=
    show (1 : Fin 2) ∈ ([0, 1] : List (Fin 2)) from by decide
  have hsi0 : gather_S256x65536_S256x2_S256_n_01_n_n_01_1_11.siIdx (ix1 a)
      ⟨List.idxOf (0 : Fin 2) gather_S256x65536_S256x2_S256_n_01_n_n_01_1_11.startIndexMap,
        List.idxOf_lt_length_iff.2 m0⟩ = ix2 a (0 : Fin 2) := by
    funext b; refine Fin.ext ?_
    match b with
    | ⟨0, _⟩ => rfl
    | ⟨1, _⟩ => rfl
  have hsi1 : gather_S256x65536_S256x2_S256_n_01_n_n_01_1_11.siIdx (ix1 a)
      ⟨List.idxOf (1 : Fin 2) gather_S256x65536_S256x2_S256_n_01_n_n_01_1_11.startIndexMap,
        List.idxOf_lt_length_iff.2 m1⟩ = ix2 a (1 : Fin 2) := by
    funext b; refine Fin.ext ?_
    match b with
    | ⟨0, _⟩ => rfl
    | ⟨1, _⟩ => rfl
  match ax with
  | ⟨0, _⟩ =>
    show gather_S256x65536_S256x2_S256_n_01_n_n_01_1_11.start (ix1 a) idx 0
      + gather_S256x65536_S256x2_S256_n_01_n_n_01_1_11.batchCoord (ix1 a) 0
      + gather_S256x65536_S256x2_S256_n_01_n_n_01_1_11.offCoord (ix1 a) 0 = _
    rw [GatherDims.batchCoord_eq_zero _ _ _ List.not_mem_nil,
      GatherDims.offCoord_eq_zero _ _ _ (fun h => ((GatherDims.mem_sKept _ _).mp h).1 c0)]
    simp only [Nat.add_zero]
    unfold GatherDims.start
    rw [dif_pos m0, hsi0]
    rfl
  | ⟨1, _⟩ =>
    show gather_S256x65536_S256x2_S256_n_01_n_n_01_1_11.start (ix1 a) idx 1
      + gather_S256x65536_S256x2_S256_n_01_n_n_01_1_11.batchCoord (ix1 a) 1
      + gather_S256x65536_S256x2_S256_n_01_n_n_01_1_11.offCoord (ix1 a) 1 = _
    rw [GatherDims.batchCoord_eq_zero _ _ _ List.not_mem_nil,
      GatherDims.offCoord_eq_zero _ _ _ (fun h => ((GatherDims.mem_sKept _ _).mp h).1 c1)]
    simp only [Nat.add_zero]
    unfold GatherDims.start
    rw [dif_pos m1, hsi1]
    rfl

/-- The diagonal entries: element `a` of the gather at the diagonal's index pairs is the operand at (a, a). -/
theorem diag_apply {α : Type} (lp : S256x65536.Idx → α) (a : Fin 256) :
    Host.gather gather_S256x65536_S256x2_S256_n_01_n_n_01_1_11 lp diagIdx (ix1 a)
      = lp (ix2 a (⟨a.val, by omega⟩ : Fin 65536)) := by
  refine (gather_pairs_apply lp diagIdx a).trans (congrArg lp ?_)
  have := a.isLt
  funext ax
  refine Fin.ext ?_
  match ax with
  | ⟨0, _⟩ =>
    show min (diagIdx (ix2 a (0 : Fin 2))).toInt.toNat 255 = a.val
    rw [diagIdx_apply0, toNat_word _ (by omega)]; omega
  | ⟨1, _⟩ =>
    show min (diagIdx (ix2 a (1 : Fin 2))).toInt.toNat 65535 = a.val
    rw [diagIdx_apply1, toNat_word _ (by omega)]; omega

/-- The products: (i, r, d) ↦ P[r, d] · Q[r - i, d]. -/
theorem prods_apply (a b : FVec Ideal S256x512 .f32) (i r : Fin 256) (d : Fin 512) :
    prods a b (ix3 i r d) = a (ix2 r d) * b (ix2 (r - i) d) := by
  unfold prods
  rw [mulf_apply, gather_rows_apply_of b idxTbl i r d (r - i) (idxTbl_apply i r)]
  refine congrArg (· * b (ix2 (r - i) d)) ?_
  refine (broadcastInDim_apply _ _ _ (ix3 i r d) (ix3 (0 : Fin 1) r d) ?_).trans
    (broadcastInDim_apply _ _ _ (ix3 (0 : Fin 1) r d) (ix2 r d) ?_)
  · intro ax; match ax with
    | ⟨0, _⟩ => rfl
    | ⟨1, _⟩ => rfl
    | ⟨2, _⟩ => rfl
  · intro ax; match ax with
    | ⟨0, _⟩ => rfl
    | ⟨1, _⟩ => rfl

end Cert.ReferenceIdeal.RefRead
end
-- ==== Proof.RefReadSpec.lean ====
/-
  The reference's value in closed form, over plain matrices of extended reals (no program is
  imported here: only the ideal float values).

  For an anchor A, a row operand P and a rolled operand Q (each 256 × 512):
    score a i r   = ∑ d, A[a,d] · (P[r,d] · Q[(r - i) mod 256, d])     (the subtraction of `Fin 256`)
    rowSup a      = the largest score a i r over all 256 × 256 pairs (i, r)
    logProb a     = (score a 0 a - rowSup a) - log ∑ (i,r), exp (score a i r - rowSup a)
    meanLoss      = -( (∑ a, logProb a) / 256 )
  and the result is ((meanLoss x y z + meanLoss y x z) + meanLoss z x y) / 3.
-/
import Idealize.ShloMosaic.PureOps.Ideal

noncomputable section

open scoped BigOperators

namespace Cert.ReferenceIdeal.RefRead

open Idealize.ShloMosaic

/-- The score of query row `a` against the key pair (shift `i`, row `r`). -/
def score (A P Q : Fin 256 → Fin 512 → EReal) (a i r : Fin 256) : EReal :=
  ∑ d : Fin 512, A a d * (P r d * Q (r - i) d)

/-- The largest score of query row `a` over all key pairs. -/
def rowSup (A P Q : Fin 256 → Fin 512 → EReal) (a : Fin 256) : EReal :=
  (Finset.univ : Finset (Fin 256 × Fin 256)).sup fun p => score A P Q a p.1 p.2

/-- The log-softmax of query row `a` at its diagonal key pair (shift 0, row `a`). -/
def logProb (A P Q : Fin 256 → Fin 512 → EReal) (a : Fin 256) : EReal :=
  (score A P Q a 0 a - rowSup A P Q a)
    - Ideal.log (∑ p : Fin 256 × Fin 256, Ideal.exp (score A P Q a p.1 p.2 - rowSup A P Q a))

/-- Minus the mean over the query rows of the diagonal log-probabilities. -/
def meanLoss (A P Q : Fin 256 → Fin 512 → EReal) : EReal :=
  -(Ideal.div (∑ a : Fin 256, logProb A P Q a) ((256 : ℝ) : EReal))

/-- The mean of the three losses: anchors X, Y, Z against (Y, Z), (X, Z), (X, Y). -/
def total (X Y Z : Fin 256 → Fin 512 → EReal) : EReal :=
  Ideal.div ((meanLoss X Y Z + meanLoss Y X Z) + meanLoss Z X Y) ((3 : ℝ) : EReal)

end Cert.ReferenceIdeal.RefRead

end
-- ==== Proof.RefReadLogits.lean ====
/-
  The scores of one configuration, read at an index.

  The contraction of the anchor with the product array over the feature axis gives, at (a, i, r),
  ∑ d, A[a,d] · (P[r,d] · Q[r - i, d]); the reshape to [256, 65536] puts (i, r) at the flat column
  i·256 + r (the same row-major position), and the scale is the literal one.
-/
import proofs.«157399_j21638045237260_2_alg».proof.Proof.RefReadGather
import proofs.«157399_j21638045237260_2_alg».proof.Proof.RefReadSpec

noncomputable section
open scoped BigOperators
namespace Cert.ReferenceIdeal.RefRead
open Idealize.ShloMosaic Idealize.ShloMosaic.ValueIdx Cert.ReferenceIdeal Cert.ReferenceIdeal.RefTerm Facts₀ Facts

/-- An argument array as a matrix of extended reals. -/
def mat (x : FVec Ideal S256x512 .f32) : Fin 256 → Fin 512 → EReal := fun r d => x (ix2 r d)

/-- The flat column of the key pair (shift `i`, row `r`). -/
def flat (i r : Fin 256) : Fin 65536 := ⟨i.val * 256 + r.val, by omega⟩

variable [Facts]

/-- The contraction: (q, i, r) ↦ ∑ d, A[q,d] · (P[r,d] · Q[r - i, d]). -/
theorem dots_apply (anchor a b : FVec Ideal S256x512 .f32) (q i r : Fin 256) :
    dots anchor a b (ix3 q i r) = score (mat anchor) (mat a) (mat b) q i r := by
  unfold dots score mat
  simp only [Host.dotGeneral]
  rw [Ideal.dotGeneral_apply,
    ← Equiv.sum_comp (contrEquiv1 dot_S256x512_S256x256x512_S256x256x256_1_2_0_01_n_n 512 rfl rfl).symm]
  refine Finset.sum_congr rfl fun d _ => ?_
  have hl : dot_S256x512_S256x256x512_S256x256x256_1_2_0_01_n_n.lhsIdx (ix3 q i r)
      ((contrEquiv1 dot_S256x512_S256x256x512_S256x256x256_1_2_0_01_n_n 512 rfl rfl).symm d) = ix2 q d := by
    funext ax; refine Fin.ext ?_
    match ax with
    | ⟨0, _⟩ => rfl
    | ⟨1, _⟩ =>
      exact (DotDims.lhsIdx_val_of_single _ (cl := (1 : Fin 2)) rfl _ _).trans
        (contrEquiv1_symm_val dot_S256x512_S256x256x512_S256x256x256_1_2_0_01_n_n 512 rfl rfl d)
  have hr : dot_S256x512_S256x256x512_S256x256x256_1_2_0_01_n_n.rhsIdx (ix3 q i r)
      ((contrEquiv1 dot_S256x512_S256x256x512_S256x256x256_1_2_0_01_n_n 512 rfl rfl).symm d) = ix3 i r d := by
    funext ax; refine Fin.ext ?_
    match ax with
    | ⟨0, _⟩ => rfl
    | ⟨1, _⟩ => rfl
    | ⟨2, _⟩ =>
      exact (DotDims.rhsIdx_val_of_single _ (cr := (2 : Fin 3)) rfl _ _).trans
        (contrEquiv1_symm_val dot_S256x512_S256x256x512_S256x256x256_1_2_0_01_n_n 512 rfl rfl d)
  rw [hl, hr, prods_apply]

/-- The logits: (q, i·256 + r) ↦ the score of query row q against the key pair (i, r). -/
theorem logits_apply (anchor a b : FVec Ideal S256x512 .f32) (q i r : Fin 256) :
    logits anchor a b (ix2 q (flat i r)) = score (mat anchor) (mat a) (mat b) q i r := by
  unfold logits
  rw [mulf_apply, broadcastInDim_scalar_apply, constant_apply, Ideal.ofBits_one_f32, one_mul,
    shapeCast_apply _ _ (ix2 q (flat i r)) (ix3 q i r) ?_, dots_apply]
  rw [Shape.rowMajor_val_three, Shape.rowMajor_val_two]
  show (q.val * 256 + i.val) * 256 + r.val = q.val * 65536 + (i.val * 256 + r.val)
  omega

end Cert.ReferenceIdeal.RefRead
end
-- ==== Proof.RefReadSoftmax.lean ====
/-
  log-softmax along the second axis, the diagonal and the loss, read at an index — for ANY [256, 65536] array x.

  Row q of x is indexed by the flat columns k < 65536, or by the pairs (i, r) with k = i·256 + r (a bijection).
  The row maximum is the fold of max from -∞ over the row, then max with -∞ again: the supremum of the row.
  The row sum starts from the literal 0. So at (q, k):
      logSoftmax x = (x[q,k] - sup_q) - log ∑ (i,r), exp (x[q, i·256 + r] - sup_q).
-/
import proofs.«157399_j21638045237260_2_alg».proof.Proof.RefReadLogits
import Mathlib.Data.Finset.Fold

noncomputable section
open scoped BigOperators
namespace Cert.ReferenceIdeal.RefRead
open Idealize.ShloMosaic Idealize.ShloMosaic.ValueIdx Cert.ReferenceIdeal Cert.ReferenceIdeal.RefTerm Facts₀ Facts

/-! ## Flat columns and key pairs -/

/-- Key pairs and flat columns: (i, r) ↔ i·256 + r. -/
def flatEquiv : Fin 256 × Fin 256 ≃ Fin 65536 where
  toFun p := flat p.1 p.2
  invFun k := (⟨k.val / 256, by omega⟩, ⟨k.val % 256, by omega⟩)
  left_inv p := by
    have := p.1.isLt; have := p.2.isLt
    exact Prod.ext (Fin.ext (by show (p.1.val * 256 + p.2.val) / 256 = p.1.val; omega))
      (Fin.ext (by show (p.1.val * 256 + p.2.val) % 256 = p.2.val; omega))
  right_inv k := Fin.ext (by show k.val / 256 * 256 + k.val % 256 = k.val; omega)

/-- A sum over the flat columns is the sum over the key pairs. -/
theorem sum_flat (f : Fin 65536 → EReal) : ∑ k, f k = ∑ p : Fin 256 × Fin 256, f (flat p.1 p.2) :=
  (Equiv.sum_comp flatEquiv f).symm

/-- A supremum over the flat columns is the supremum over the key pairs. -/
theorem sup_flat (f : Fin 65536 → EReal) :
    Finset.univ.sup f = (Finset.univ : Finset (Fin 256 × Fin 256)).sup fun p => f (flat p.1 p.2) := by
  rw [← Finset.map_univ_equiv flatEquiv, Finset.sup_map]
  rfl

/-- The fold of the ideal maximum from -∞ is the supremum. -/
theorem fold_maximumf_eq_sup {ι : Type} (s : Finset ι) (f : ι → EReal) :
    s.fold (FloatOps.maximumf (F := Ideal) (φ := .f32)) ⊥ f = s.sup f := by
  classical
  refine Finset.induction_on s ?_ ?_
  · rw [Finset.fold_empty, Finset.sup_empty]
  · intro a s ha ih
    rw [Finset.fold_insert ha, Finset.sup_insert, ih]
    rfl

/-- A row's fold of the ideal maximum from -∞, over an index type that is the 65536 flat columns, is the supremum over
    the key pairs. -/
theorem fold_row {n : Nat} (hn : n = 65536) (g : Fin n → EReal) :
    (Finset.univ : Finset (Fin n)).fold (FloatOps.maximumf (F := Ideal) (φ := .f32)) ⊥ g
      = (Finset.univ : Finset (Fin 256 × Fin 256)).sup fun p => g (Fin.cast hn.symm (flat p.1 p.2)) := by
  subst hn
  exact (fold_maximumf_eq_sup _ _).trans (sup_flat g)

/-- A row's sum, over an index type that is the 65536 flat columns, is the sum over the key pairs. -/
theorem sum_row {n : Nat} (hn : n = 65536) (g : Fin n → EReal) :
    ∑ k, g k = ∑ p : Fin 256 × Fin 256, g (Fin.cast hn.symm (flat p.1 p.2)) := by
  subst hn
  exact sum_flat g

/-! ## Three literals -/

theorem ofBits_neg_inf_f32 : Ideal.ofBits .f32 0xFF800000#32 = ⊥ := by simp [Ideal.ofBits, Ideal.ieee]

theorem ofBits_256_f32 : Ideal.ofBits .f32 0x43800000#32 = ((256 : ℝ) : EReal) := by
  simp [Ideal.ofBits, Ideal.ieee, -EReal.coe_mul]; norm_num

theorem ofBits_3_f32 : Ideal.ofBits .f32 0x40400000#32 = ((3 : ℝ) : EReal) := by
  simp [Ideal.ofBits, Ideal.ieee, -EReal.coe_mul]; norm_num

/-! ## The two reductions' inserted indices -/

/-- Row q with the column k inserted is (q, k). -/
theorem lift_row (hR : S256x65536.Reduces [1] S256) (q : Fin 256) (k : Fin 65536) :
    hR.lift (ix1 q) k = ix2 q k := by
  funext ax; refine Fin.ext ?_
  match ax with
  | ⟨0, _⟩ => rfl
  | ⟨1, _⟩ => rfl

/-- A sum over a rank-1 index set is the sum over its coordinate. -/
theorem sum_idx1 {n : Nat} (f : (⟨1, ![n]⟩ : Shape).Idx → EReal) : ∑ i, f i = ∑ a : Fin n, f (ix1 a) := by
  let e : (⟨1, ![n]⟩ : Shape).Idx ≃ Fin n := ⟨fun i => i 0, fun a => ix1 a, fun i => (eq_ix1 i).symm, fun _ => rfl⟩
  exact (Equiv.sum_comp e.symm f).symm

/-! ## Three host operations at an index, at the ideal values -/

theorem hostLog_apply {s : Shape} (y : FVec Ideal s .f32) (j : s.Idx) : Host.log y j = Ideal.log (y j) := rfl
theorem hostExp_apply {s : Shape} (y : FVec Ideal s .f32) (j : s.Idx) : Host.exp y j = Ideal.exp (y j) := rfl
theorem hostNegf_apply {s : Shape} (y : FVec Ideal s .f32) (j : s.Idx) : Host.negf y j = -(y j) := rfl

variable [Facts]

/-! ## log-softmax -/

/-- The row maximum is the supremum of the row over the key pairs. -/
theorem rowMax_apply (x : FVec Ideal S256x65536 .f32) (q : Fin 256) :
    rowMax x (ix1 q) = (Finset.univ : Finset (Fin 256 × Fin 256)).sup fun p => x (ix2 q (flat p.1 p.2)) := by
  have hR : S256x65536.Reduces [1] S256 := by decide
  unfold rowMax
  rw [maximumf_apply, broadcastInDim_scalar_apply, constant_apply, ofBits_neg_inf_f32, max_bot_left,
    Host.reduce_eq_fold_single FloatOps.maximumf x _ reducesTo_S256x65536_S256_d1 hR h_S_ (ix1 q),
    constant_apply, ofBits_neg_inf_f32]
  refine (fold_row rfl _).trans ?_
  exact congrArg (Finset.sup Finset.univ) (funext fun p => congrArg x (lift_row hR q (flat p.1 p.2)))

/-- x minus its row maximum. -/
theorem shifted_apply (x : FVec Ideal S256x65536 .f32) (q : Fin 256) (c : Fin 65536) :
    shifted x (ix2 q c) = x (ix2 q c) - rowMax x (ix1 q) := by
  unfold shifted
  rw [subf_apply]
  refine congrArg (x (ix2 q c) - ·) ?_
  refine (broadcastInDim_apply _ _ _ (ix2 q c) (ix2 q (0 : Fin 1)) ?_).trans
    (broadcastInDim_apply _ _ _ (ix2 q (0 : Fin 1)) (ix1 q) ?_)
  · intro ax; match ax with
    | ⟨0, _⟩ => rfl
    | ⟨1, _⟩ => rfl
  · intro ax; match ax with
    | ⟨0, _⟩ => rfl

/-- The row sum of the exponentials, over the key pairs. -/
theorem sumExp_apply (x : FVec Ideal S256x65536 .f32) (q : Fin 256) :
    sumExp x (ix1 q) = ∑ p : Fin 256 × Fin 256, Ideal.exp (shifted x (ix2 q (flat p.1 p.2))) := by
  have hR : S256x65536.Reduces [1] S256 := by decide
  unfold sumExp
  rw [hostReduceAdd_apply, Ideal.hostReduceAdd_single reducesTo_S256x65536_S256_d1 hR, constant_apply,
    Ideal.ofBits_zero_f32, zero_add]
  refine (sum_row rfl _).trans (Finset.sum_congr rfl fun p _ => ?_)
  show Host.exp (shifted x) (hR.lift (ix1 q) (flat p.1 p.2)) = _
  rw [lift_row hR q (flat p.1 p.2), hostExp_apply]

/-- log-softmax at (q, c). -/
theorem logSoftmax_apply (x : FVec Ideal S256x65536 .f32) (q : Fin 256) (c : Fin 65536) :
    logSoftmax x (ix2 q c) = shifted x (ix2 q c) - Ideal.log (sumExp x (ix1 q)) := by
  unfold logSoftmax
  rw [subf_apply]
  refine congrArg (shifted x (ix2 q c) - ·) ?_
  refine (broadcastInDim_apply _ _ _ (ix2 q c) (ix2 q (0 : Fin 1)) ?_).trans ?_
  · intro ax; match ax with
    | ⟨0, _⟩ => rfl
    | ⟨1, _⟩ => rfl
  rw [hostLog_apply]
  refine congrArg Ideal.log (broadcastInDim_apply _ _ _ (ix2 q (0 : Fin 1)) (ix1 q) ?_)
  intro ax; match ax with
  | ⟨0, _⟩ => rfl

/-! ## The loss -/

/-- Minus the mean of the diagonal entries lp[a, 0·256 + a]. -/
theorem loss_apply (lp : FVec Ideal S256x65536 .f32) :
    loss lp ix0 = -(Ideal.div (∑ a : Fin 256, lp (ix2 a (flat 0 a))) ((256 : ℝ) : EReal)) := by
  unfold loss
  rw [hostNegf_apply, hostDivf_apply, hostReduceAdd_apply,
    Ideal.hostReduceAdd_total reducesTo_S256_S_d0 (fun b => b.elim0), constant_apply, constant_apply,
    Ideal.ofBits_zero_f32, zero_add, ofBits_256_f32, sum_idx1]
  refine congrArg (fun s => -(Ideal.div s ((256 : ℝ) : EReal))) (Finset.sum_congr rfl fun a _ => ?_)
  unfold diag
  rw [diag_apply]
  exact congrArg (fun k => lp (ix2 a k)) (Fin.ext (by show a.val = 0 * 256 + a.val; omega))

end Cert.ReferenceIdeal.RefRead
end
-- ==== Proof.RefRead.lean ====
/-
  The reference's result in closed form.

  Composing the stages read at an index: the logits of a configuration at (q, i·256 + r) are the scores, so its
  row maxima are the suprema of the scores over the key pairs, its log-softmax at the diagonal column 0·256 + q is
  the diagonal log-probability, and its loss is minus their mean. The result is the sum of the three losses
  (from the literal 0) over the literal 3.
-/
import proofs.«157399_j21638045237260_2_alg».proof.Proof.RefReadSoftmax

noncomputable section
open scoped BigOperators
namespace Cert.ReferenceIdeal.RefRead
open Idealize.ShloMosaic Idealize.ShloMosaic.ValueIdx Cert.ReferenceIdeal Cert.ReferenceIdeal.RefTerm Facts₀ Facts

variable [Facts]

/-- The loss of one configuration (anchor, row operand, rolled operand) in closed form. -/
theorem cfgLoss_eq (anchor a b : FVec Ideal S256x512 .f32) :
    cfgLoss anchor a b ix0 = meanLoss (mat anchor) (mat a) (mat b) := by
  unfold cfgLoss meanLoss
  rw [loss_apply]
  refine congrArg (fun s => -(Ideal.div s ((256 : ℝ) : EReal))) (Finset.sum_congr rfl fun q _ => ?_)
  have hmax : rowMax (logits anchor a b) (ix1 q) = rowSup (mat anchor) (mat a) (mat b) q := by
    rw [rowMax_apply]; unfold rowSup
    exact congrArg (Finset.sup Finset.univ) (funext fun p => logits_apply anchor a b q p.1 p.2)
  have hsh : ∀ i r : Fin 256, shifted (logits anchor a b) (ix2 q (flat i r))
      = score (mat anchor) (mat a) (mat b) q i r - rowSup (mat anchor) (mat a) (mat b) q := by
    intro i r; rw [shifted_apply, logits_apply, hmax]
  rw [logSoftmax_apply, sumExp_apply, hsh]
  unfold logProb
  refine congrArg (fun s => score (mat anchor) (mat a) (mat b) q 0 q - rowSup (mat anchor) (mat a) (mat b) q - Ideal.log s)
    (Finset.sum_congr rfl fun p _ => ?_)
  rw [hsh]

/-- The reference's result: the mean of the three configurations' losses. -/
theorem result_eq (x y z : FVec Ideal S256x512 .f32) :
    RefTerm.result (F := Ideal) x y z = fun _ => total (mat x) (mat y) (mat z) := by
  funext k
  obtain rfl := eq_ix0 k
  unfold RefTerm.result total
  rw [hostDivf_apply, addf_apply, addf_apply, addf_apply, constant_apply, constant_apply, Ideal.ofBits_zero_f32, zero_add,
    ofBits_3_f32, cfgLoss_eq, cfgLoss_eq, cfgLoss_eq]

end Cert.ReferenceIdeal.RefRead
end
-- ==== Proof.KIdealRunRead.lean ====
/-
  The region's arrays and blocks read at coordinates.

  The three stacks the region finds are concatenations, along the leading axis, of the three
  arguments (each given a leading unit axis): the anchor stack is [x; y; z], the two others
  [y; x; x] and [z; z; y].  The grid's point t = 2·g + h works on configuration g and on the rows
  128·h … 128·h + 127 of it: that is where its 128-row blocks sit in their arrays, while its
  256-row blocks are the whole of configuration g.  The six output blocks tile the result array, so
  that array ends holding any function whose blocks the points write.
-/
import proofs.«157399_j21638045237260_2_alg».proof.Proof.KIdealRunDat
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

variable (m : (ℓ : Loc nD τ sig) → Buf (Elt F) ℓ)

/-! ## The grid's points -/

theorem lt6 (t : Fin cfg0.N) : t.val < 6 := by
  have h : t.val < grid0.N := t.isLt
  rw [N_0] at h; exact h

/-- The configuration point `t` works on, -/
def cfgOf (t : Fin cfg0.N) : Fin 3 := ⟨t.val / 2, by have := lt6 t; omega⟩
/-- and the row of it that row `a` of the point's 128-row blocks is. -/
def rowOf (t : Fin cfg0.N) (a : Fin 128) : Fin 256 := ⟨128 * (t.val % 2) + a.val, by have := a.isLt; omega⟩

/-- The printed index maps, decided over the grid. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = t.val % 2 ∧ win0_3.index t (2 : Fin 3) = 0)
    ∧ (win0_4.index t (0 : Fin 3) = t.val / 2 ∧ win0_4.index t (1 : Fin 3) = t.val % 2 ∧ win0_4.index t (2 : Fin 3) = 0)
    ∧ (win0_5.index t (0 : Fin 3) = t.val / 2 ∧ win0_5.index t (1 : Fin 3) = t.val % 2 ∧ win0_5.index t (2 : Fin 3) = 0) :=
  (by decide +kernel : ∀ t : Fin grid0.N, _)

/-! ## The blocks read at coordinates -/

/-- Row `a` of the anchor block at point `t` is row `128·(t mod 2) + a` of configuration `t / 2` of the anchor stack. -/
theorem iblk0_apply (c : Dev nD) (t : Fin cfg0.N) (a : Fin 128) (d : Fin 512) :
    iblk m c 0 t (ix3 (0 : Fin 1) a d) = V m c main_v3 (ix3 (cfgOf t) (rowOf t a) d) := by
  obtain ⟨⟨e0, e1, e2⟩, -⟩ := idx_facts t
  show V m c main_v3 (((cfg0.win 0).blk t).view.emb (ix3 (0 : Fin 1) a d)) = _
  refine congrArg _ (funext fun ax => Fin.ext ?_)
  match ax with
  | ⟨0, _⟩ => show win0_0.index t (0 : Fin 3) * 1 + 1 * 0 = t.val / 2; omega
  | ⟨1, _⟩ => show win0_0.index t (1 : Fin 3) * 128 + 1 * a.val = 128 * (t.val % 2) + a.val; omega
  | ⟨2, _⟩ => show win0_0.index t (2 : Fin 3) * 512 + 1 * d.val = d.val; omega

theorem iblk3_apply (c : Dev nD) (t : Fin cfg0.N) (a : Fin 128) (d : Fin 512) :
    iblk m c 3 t (ix3 (0 : Fin 1) a d) = V m c main_v7 (ix3 (cfgOf t) (rowOf t a) d) := by
  obtain ⟨-, -, -, ⟨e0, e1, e2⟩, -⟩ := idx_facts t
  show V m c main_v7 (((cfg0.win 3).blk t).view.emb (ix3 (0 : Fin 1) a d)) = _
  refine congrArg _ (funext fun ax => Fin.ext ?_)
  match ax with
  | ⟨0, _⟩ => show win0_3.index t (0 : Fin 3) * 1 + 1 * 0 = t.val / 2; omega
  | ⟨1, _⟩ => show win0_3.index t (1 : Fin 3) * 128 + 1 * a.val = 128 * (t.val % 2) + a.val; omega
  | ⟨2, _⟩ => show win0_3.index t (2 : Fin 3) * 512 + 1 * d.val = d.val; omega

theorem iblk4_apply (c : Dev nD) (t : Fin cfg0.N) (a : Fin 128) (d : Fin 512) :
    iblk m c 4 t (ix3 (0 : Fin 1) a d) = V m c main_v11 (ix3 (cfgOf t) (rowOf t a) d) := by
  obtain ⟨-, -, -, -, ⟨e0, e1, e2⟩, -⟩ := idx_facts t
  show V m c main_v11 (((cfg0.win 4).blk t).view.emb (ix3 (0 : Fin 1) a d)) = _
  refine congrArg _ (funext fun ax => Fin.ext ?_)
  match ax with
  | ⟨0, _⟩ => show win0_4.index t (0 : Fin 3) * 1 + 1 * 0 = t.val / 2; omega
  | ⟨1, _⟩ => show win0_4.index t (1 : Fin 3) * 128 + 1 * a.val = 128 * (t.val % 2) + a.val; omega
  | ⟨2, _⟩ => show win0_4.index t (2 : Fin 3) * 512 + 1 * d.val = d.val; omega

/-- The 256-row blocks at point `t` are the whole of configuration `t / 2` of their stacks. -/
theorem iblk1_apply (c : Dev nD) (t : Fin cfg0.N) (r : Fin 256) (d : Fin 512) :
    iblk m c 1 t (ix3 (0 : Fin 1) r d) = V m c main_v7 (ix3 (cfgOf t) r d) := by
  obtain ⟨-, ⟨e0, e1, e2⟩, -⟩ := idx_facts t
  show V m c main_v7 (((cfg0.win 1).blk t).view.emb (ix3 (0 : Fin 1) r d)) = _
  refine congrArg _ (funext fun ax => Fin.ext ?_)
  match ax with
  | ⟨0, _⟩ => show win0_1.index t (0 : Fin 3) * 1 + 1 * 0 = t.val / 2; omega
  | ⟨1, _⟩ => show win0_1.index t (1 : Fin 3) * 256 + 1 * r.val = r.val; omega
  | ⟨2, _⟩ => show win0_1.index t (2 : Fin 3) * 512 + 1 * d.val = d.val; omega

theorem iblk2_apply (c : Dev nD) (t : Fin cfg0.N) (r : Fin 256) (d : Fin 512) :
    iblk m c 2 t (ix3 (0 : Fin 1) r d) = V m c main_v11 (ix3 (cfgOf t) r d) := by
  obtain ⟨-, -, ⟨e0, e1, e2⟩, -⟩ := idx_facts t
  show V m c main_v11 (((cfg0.win 2).blk t).view.emb (ix3 (0 : Fin 1) r d)) = _
  refine congrArg _ (funext fun ax => Fin.ext ?_)
  match ax with
  | ⟨0, _⟩ => show win0_2.index t (0 : Fin 3) * 1 + 1 * 0 = t.val / 2; omega
  | ⟨1, _⟩ => show win0_2.index t (1 : Fin 3) * 256 + 1 * r.val = r.val; omega
  | ⟨2, _⟩ => show win0_2.index t (2 : Fin 3) * 512 + 1 * d.val = d.val; omega

/-- Row `a` of the output block at point `t` is row `128·(t mod 2) + a` of configuration `t / 2` of the result array. -/
theorem oblk_apply (c : Dev nD) (G : Buf (Elt F) ((cfg0.win 5).arr.view.loc (c : Thread nD τ))) (t : Fin cfg0.N) (a : Fin 128) :
    ((cfg0.win 5).blk t).view.read (Elt F) G (ix3 (0 : Fin 1) a (0 : Fin 1)) = G (ix3 (cfgOf t) (rowOf t a) (0 : Fin 1)) := by
  obtain ⟨-, -, -, -, -, ⟨e0, e1, e2⟩⟩ := idx_facts t
  show G (((cfg0.win 5).blk t).view.emb (ix3 (0 : Fin 1) a (0 : Fin 1))) = _
  refine congrArg _ (funext fun ax => Fin.ext ?_)
  match ax with
  | ⟨0, _⟩ => show win0_5.index t (0 : Fin 3) * 1 + 1 * 0 = t.val / 2; omega
  | ⟨1, _⟩ => show win0_5.index t (1 : Fin 3) * 128 + 1 * a.val = 128 * (t.val % 2) + a.val; omega
  | ⟨2, _⟩ => show win0_5.index t (2 : Fin 3) * 1 + 1 * 0 = 0; omega

/-! ## The output blocks tile the result array -/

/-- Every block of the result array is some point's. -/
theorem idx_onto5 : ∀ (q0 : Fin 3) (q1 : Fin 2), ∃ t : Fin cfg0.N, win0_5.index t = ![q0.val, q1.val, 0] :=
  (by decide +kernel : ∀ (q0 : Fin 3) (q1 : Fin 2), ∃ t : Fin grid0.N, win0_5.index t = ![q0.val, q1.val, 0])

/-- An index of the result array is in point `t`'s block iff each coordinate is in the block's range. -/
theorem mem_blk5 (t : Fin cfg0.N) (i : S3x256x1.Idx) :
    i ∈ ((cfg0.win 5).blk t).view.set ↔ ∀ a : Fin 3, win0_5.index t a * S1x128x1.size a ≤ (i a).val ∧ (i a).val < win0_5.index t a * S1x128x1.size a + S1x128x1.size a := by
  show i ∈ ((View.whole main_v12).slice (win0_5.rect t)).set ↔ _
  rw [View.set_slice_whole, Rect.mem_set_unit]
  exact Iff.rfl

theorem cover5 (i : S3x256x1.Idx) : ∃ t : Fin cfg0.N, (cfg0.win 5).flush t = true ∧ i ∈ ((cfg0.win 5).blk t).view.set := by
  have hi0 : (i 0).val < 3 := (i 0).isLt
  have hi1 : (i 1).val < 256 := (i 1).isLt
  have hi2 : (i 2).val < 1 := (i 2).isLt
  obtain ⟨t, ht⟩ := idx_onto5 ⟨(i 0).val, by omega⟩ ⟨(i 1).val / 128, by omega⟩
  have q0 : win0_5.index t (0 : Fin 3) = (i 0).val := congrFun ht 0
  have q1 : win0_5.index t (1 : Fin 3) = (i 1).val / 128 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 1 ≤ (i 2).val ∧ (i 2).val < win0_5.index t (2 : Fin 3) * 1 + 1; omega

/-- THE RESULT ARRAY after the region: any array whose block at every point is what the body stores
    there. -/
theorem arrAt5_eq_of_blocks (c : Dev nD) (G : Buf (Elt F) ((cfg0.win 5).arr.view.loc (c : Thread nD τ)))
    (hG : ∀ t : Fin cfg0.N, outBlk (iblk m c 0 t) (iblk m c 1 t) (iblk m c 2 t) (iblk m c 3 t) (iblk m c 4 t)
      = ((cfg0.win 5).blk t).view.read (Elt F) G) :
    (dats m 0 c).arrAt 5 cfg0.N = G :=
  (dats m 0 c).arrAt_eq_of_cover 5 G (fun t _ => by
    show (cfg0.win 5).cut (grid0.coords t) ((dats m 0 c).after 5 t) = _
    rw [after0_5]; exact hG t) cover5

/-- THE RESULT ARRAY after the region, pointwise: any array that at row `128·(t mod 2) + a` of
    configuration `t / 2` holds what the body stores at row `a` of its block at point `t`. -/
theorem arrAt5_eq_pointwise (c : Dev nD) (G : Buf (Elt F) ((cfg0.win 5).arr.view.loc (c : Thread nD τ)))
    (hG : ∀ (t : Fin cfg0.N) (a : Fin 128),
      outBlk (iblk m c 0 t) (iblk m c 1 t) (iblk m c 2 t) (iblk m c 3 t) (iblk m c 4 t) (ix3 (0 : Fin 1) a (0 : Fin 1))
        = G (ix3 (cfgOf t) (rowOf t a) (0 : Fin 1))) :
    (dats m 0 c).arrAt 5 cfg0.N = G :=
  arrAt5_eq_of_blocks m c G fun t => funext fun (y : S1x128x1.Idx) => by
    have h0 : (y 0).val < 1 := (y 0).isLt
    have h2 : (y 2).val < 1 := (y 2).isLt
    obtain ⟨a, rfl⟩ : ∃ a : Fin 128, y = ix3 (0 : Fin 1) a (0 : Fin 1) :=
      ⟨y 1, funext fun ax => by
        match ax with
        | ⟨0, _⟩ => exact Fin.ext (by show (y 0).val = 0; omega)
        | ⟨1, _⟩ => rfl
        | ⟨2, _⟩ => exact Fin.ext (by show (y 2).val = 0; omega)⟩
    rw [oblk_apply]; exact hG t a

/-! ## The three stacks read at coordinates -/

/-- An array given a leading unit axis, read at a row and a column. -/
theorem bcast_apply {α : Type} (x : S256x512.Idx → α) (r : Fin 256) (d : Fin 512) :
    broadcastInDim S1x256x512 ![1, 2] bcast_S256x512_S1x256x512_1_2 x (ix3 (0 : Fin 1) r d) = x (ix2 r d) :=
  broadcastInDim_apply ![1, 2] bcast_S256x512_S1x256x512_1_2 x (ix3 (0 : Fin 1) r d) (ix2 r d) (fun a => by
    match a with
    | ⟨0, _⟩ => show r.val = if (256 : ℕ) = 1 then 0 else r.val; rw [if_neg (by decide)]
    | ⟨1, _⟩ => show d.val = if (512 : ℕ) = 1 then 0 else d.val; rw [if_neg (by decide)])

/-- One of three. -/
def pick3 {α : Type} (k : Fin 3) (a b c : α) : α :=
  match k with
  | ⟨0, _⟩ => a
  | ⟨1, _⟩ => b
  | ⟨2, _⟩ => c

/-- Three [256, 512] arrays, each given a leading unit axis, as the pieces of a concatenation. -/
abbrev xs3 {α : Type} (x0 x1 x2 : S256x512.Idx → α) : List ((s : Shape) × (s.Idx → α)) :=
  [⟨S1x256x512, broadcastInDim S1x256x512 ![1, 2] bcast_S256x512_S1x256x512_1_2 x0⟩,
    ⟨S1x256x512, broadcastInDim S1x256x512 ![1, 2] bcast_S256x512_S1x256x512_1_2 x1⟩,
    ⟨S1x256x512, broadcastInDim S1x256x512 ![1, 2] bcast_S256x512_S1x256x512_1_2 x2⟩]

theorem hxs3 {α : Type} (x0 x1 x2 : S256x512.Idx → α) : Shape.Concatenates ((xs3 x0 x1 x2).map (·.1)) S3x256x512 0 :=
  concatenates_S1x256x512_S1x256x512_S1x256x512_S3x256x512_d0

/-- A concatenation of three operands named one by one: each operand's contents at its own reference. -/
theorem nary3_result {Val : EltTy → Type} (x a b y : Ref sig .tc)
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- A stack of three [256, 512] arrays, each given a leading unit axis, read at configuration `k`:
    the `k`-th array. -/
theorem stack_apply {α : Type} (x0 x1 x2 : S256x512.Idx → α) (k : Fin 3) (r : Fin 256) (d : Fin 512) :
    concatenate S3x256x512 0 (xs3 x0 x1 x2) (hxs3 x0 x1 x2) (ix3 k r d) = pick3 k x0 x1 x2 (ix2 r d) := by
  have hi : ∀ (j : S3x256x512.Idx) (b : Fin S1x256x512.rank), b.cast (rfl : S1x256x512.rank = S3x256x512.rank) ≠ (0 : Fin 3) →
      ((ix3 (0 : Fin 1) (j 1) (j 2) : S1x256x512.Idx) b).val = (j (b.cast (rfl : S1x256x512.rank = S3x256x512.rank))).val := by
    intro j b hb
    match b with
    | ⟨0, _⟩ => exact absurd rfl hb
    | ⟨1, _⟩ => rfl
    | ⟨2, _⟩ => rfl
  match k with
  | ⟨0, _⟩ =>
    exact (concatenate_apply_piece (t := S3x256x512) (0 : Fin 3) (xs3 x0 x1 x2) (hxs3 x0 x1 x2) (ix3 (0 : Fin 3) r d) 0 (by show 0 < 3; omega)
      S1x256x512 _ rfl rfl 0 rfl (ix3 (0 : Fin 1) r d) (hi (ix3 (0 : Fin 3) r d)) rfl).trans (bcast_apply x0 r d)
  | ⟨1, _⟩ =>
    exact (concatenate_apply_piece (t := S3x256x512) (0 : Fin 3) (xs3 x0 x1 x2) (hxs3 x0 x1 x2) (ix3 (1 : Fin 3) r d) 1 (by show 1 < 3; omega)
      S1x256x512 _ rfl rfl 1 rfl (ix3 (0 : Fin 1) r d) (hi (ix3 (1 : Fin 3) r d)) rfl).trans (bcast_apply x1 r d)
  | ⟨2, _⟩ =>
    exact (concatenate_apply_piece (t := S3x256x512) (0 : Fin 3) (xs3 x0 x1 x2) (hxs3 x0 x1 x2) (ix3 (2 : Fin 3) r d) 2 (by show 2 < 3; omega)
      S1x256x512 _ rfl rfl 2 rfl (ix3 (0 : Fin 1) r d) (hi (ix3 (2 : Fin 3) r d)) rfl).trans (bcast_apply x2 r d)

/-- The anchor stack is [x; y; z]; -/
theorem V_main_v3 (c : Dev nD) : V m c main_v3 = concatenate S3x256x512 0
    [⟨S1x256x512, broadcastInDim S1x256x512 ![1, 2] bcast_S256x512_S1x256x512_1_2 (m ((c : Thread nD τ).loc main_arg0))⟩,
      ⟨S1x256x512, broadcastInDim S1x256x512 ![1, 2] bcast_S256x512_S1x256x512_1_2 (m ((c : Thread nD τ).loc main_arg1))⟩,
      ⟨S1x256x512, broadcastInDim S1x256x512 ![1, 2] bcast_S256x512_S1x256x512_1_2 (m ((c : Thread nD τ).loc main_arg2))⟩]
    concatenates_S1x256x512_S1x256x512_S1x256x512_S3x256x512_d0 := by
  show StableHlo.after hostOps0 (V₀ m c) (Proc.devRef .tc main_v3) = _
  simp only [StableHlo.after_cons, StableHlo.after_nil]
  rw [StableHlo.nary_result_ne]; rotate_left; decide
  rw [StableHlo.unary_result_ne]; rotate_left; decide
  rw [StableHlo.unary_result_ne]; rotate_left; decide
  rw [StableHlo.unary_result_ne]; rotate_left; decide
  rw [StableHlo.nary_result_ne]; rotate_left; decide
  rw [StableHlo.unary_result_ne]; rotate_left; decide
  rw [StableHlo.unary_result_ne]; rotate_left; decide
  rw [StableHlo.unary_result_ne]; rotate_left; decide
  rw [nary3_result]
  repeat (first | rw [StableHlo.unary_result] | (rw [StableHlo.unary_result_ne]; rotate_left; decide) | (rw [StableHlo.nary_result_ne]; rotate_left; decide))
  rfl

/-- the second stack [y; x; x]; -/
theorem V_main_v7 (c : Dev nD) : V m c main_v7 = concatenate S3x256x512 0
    [⟨S1x256x512, broadcastInDim S1x256x512 ![1, 2] bcast_S256x512_S1x256x512_1_2 (m ((c : Thread nD τ).loc main_arg1))⟩,
      ⟨S1x256x512, broadcastInDim S1x256x512 ![1, 2] bcast_S256x512_S1x256x512_1_2 (m ((c : Thread nD τ).loc main_arg0))⟩,
      ⟨S1x256x512, broadcastInDim S1x256x512 ![1, 2] bcast_S256x512_S1x256x512_1_2 (m ((c : Thread nD τ).loc main_arg0))⟩]
    concatenates_S1x256x512_S1x256x512_S1x256x512_S3x256x512_d0 := by
  show StableHlo.after hostOps0 (V₀ m c) (Proc.devRef .tc main_v7) = _
  simp only [StableHlo.after_cons, StableHlo.after_nil]
  rw [StableHlo.nary_result_ne]; rotate_left; decide
  rw [StableHlo.unary_result_ne]; rotate_left; decide
  rw [StableHlo.unary_result_ne]; rotate_left; decide
  rw [StableHlo.unary_result_ne]; rotate_left; decide
  rw [nary3_result]
  repeat (first | rw [StableHlo.unary_result] | (rw [StableHlo.unary_result_ne]; rotate_left; decide) | (rw [StableHlo.nary_result_ne]; rotate_left; decide))
  rfl

/-- the third [z; z; y]. -/
theorem V_main_v11 (c : Dev nD) : V m c main_v11 = concatenate S3x256x512 0
    [⟨S1x256x512, broadcastInDim S1x256x512 ![1, 2] bcast_S256x512_S1x256x512_1_2 (m ((c : Thread nD τ).loc main_arg2))⟩,
      ⟨S1x256x512, broadcastInDim S1x256x512 ![1, 2] bcast_S256x512_S1x256x512_1_2 (m ((c : Thread nD τ).loc main_arg2))⟩,
      ⟨S1x256x512, broadcastInDim S1x256x512 ![1, 2] bcast_S256x512_S1x256x512_1_2 (m ((c : Thread nD τ).loc main_arg1))⟩]
    concatenates_S1x256x512_S1x256x512_S1x256x512_S3x256x512_d0 := by
  show StableHlo.after hostOps0 (V₀ m c) (Proc.devRef .tc main_v11) = _
  simp only [StableHlo.after_cons, StableHlo.after_nil]
  rw [nary3_result]
  repeat (first | rw [StableHlo.unary_result] | (rw [StableHlo.unary_result_ne]; rotate_left; decide) | (rw [StableHlo.nary_result_ne]; rotate_left; decide))
  rfl

/-- The stacks at configuration `k`, row `r`, column `d`. -/
theorem V_main_v3_apply (c : Dev nD) (k : Fin 3) (r : Fin 256) (d : Fin 512) :
    V m c main_v3 (ix3 k r d) = pick3 k (m ((c : Thread nD τ).loc main_arg0) : S256x512.Idx → Elt F .f32)
      (m ((c : Thread nD τ).loc main_arg1)) (m ((c : Thread nD τ).loc main_arg2)) (ix2 r d) := by
  rw [V_main_v3]; exact stack_apply _ _ _ k r d
theorem V_main_v7_apply (c : Dev nD) (k : Fin 3) (r : Fin 256) (d : Fin 512) :
    V m c main_v7 (ix3 k r d) = pick3 k (m ((c : Thread nD τ).loc main_arg1) : S256x512.Idx → Elt F .f32)
      (m ((c : Thread nD τ).loc main_arg0)) (m ((c : Thread nD τ).loc main_arg0)) (ix2 r d) := by
  rw [V_main_v7]; exact stack_apply _ _ _ k r d
theorem V_main_v11_apply (c : Dev nD) (k : Fin 3) (r : Fin 256) (d : Fin 512) :
    V m c main_v11 (ix3 k r d) = pick3 k (m ((c : Thread nD τ).loc main_arg2) : S256x512.Idx → Elt F .f32)
      (m ((c : Thread nD τ).loc main_arg2)) (m ((c : Thread nD τ).loc main_arg1)) (ix2 r d) := by
  rw [V_main_v11]; exact stack_apply _ _ _ k r d

end Cert.KernelIdeal.Hand

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelPay.lean ====
/-
  The kernel body's values read at coordinates, on the extended reals.

  One grid point sees a block of 128 query rows v0, the whole second and third operands v2, v4 (256 rows each) and the
  blocks v6, v8 of those two at the query rows. Trip k of the loop builds a stacked operand of 4 × 256 rows — piece q is
  v2 times v4 rotated down by 4k + q rows, so its row r is v2[r] · v4[(r − (4k + q)) mod 256] — and multiplies the query
  block against it: the score of query row a at column 256·q + r is Σ_d v0[a,d] · (v2[r,d] · v4[(r − (4k+q)) mod 256, d]),
  times the unit scale. The trip then updates a running maximum (from −∞) and a running sum of exponentials per row.
  After the loop row a stores  max + log sum − (Σ_d v0[a,d] · v6[a,d] · v8[a,d]) · scale.
-/
import proofs.«157399_j21638045237260_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import proofs.«157399_j21638045237260_2_alg».proof.Proof.LibKeepdims

noncomputable section

namespace Cert.KernelIdeal.Pay

open Idealize.ShloMosaic Idealize.ShloMosaic.ValueIdx Cert.KernelIdeal
open Cert.KernelIdeal.Facts₀

variable [Cert.KernelIdeal.Facts]

theorem trips_eq : k0_t1_loop.trips = 64 := by decide

/-- The rotation amount of piece `q` at trip `k`, read unsigned, is `4k + q`. -/
theorem shift_toNat (k : Fin k0_t1_loop.trips) (q : Nat) (hq : q < 4) :
    (Scalar.addi (Scalar.muli (Scf.iv 0#32 1#32 k) 4#32) (BitVec.ofNat 32 q)).toNat = 4 * k.val + q := by
  have hk : k.val < 64 := lt_of_lt_of_eq k.isLt trips_eq
  simp only [Scalar.addi, Scalar.muli, Scf.iv, IntOp.addi, IntOp.muli, BitVec.toNat_add, BitVec.toNat_mul,
    BitVec.toNat_ofNat]
  omega

theorem pay1_apply (v0 : Vec Ideal S1x128x512 .f32) (a : Fin 128) (d : Fin 512) :
    Gen.k0_pay1 v0 (ix2 a d) = v0 (ix3 (0 : Fin 1) a d) := by
  unfold Gen.k0_pay1
  exact shapeCast_1ab_ab_apply v0 _ a d

/-- One piece of the stacked operand at row `r`: row `r` of the first factor times the row of the second factor that
    the rotation by `s` brings to `r`, that is row `(r − s) mod 256`. -/
theorem piece_apply (v2 v4 : Vec Ideal S1x256x512 .f32) (sb : BitVec 32) (s : Nat) (hs : sb.toNat = s)
    (r ρ : Fin 256) (hρ : ρ.val = (r.val + 256 - s % 256) % 256) (d : Fin 512) :
    mulf (truncf .bf16 (shapeCast S256x512 v2 shapeCasts_S1x256x512_S256x512) bitsLt_bf16_f32 : FVec Ideal S256x512 .bf16)
        (truncf .bf16 (dynamicRotate 0 sb none (shapeCast S256x512 v4 shapeCasts_S1x256x512_S256x512) rotates_S256x512_d0)
          bitsLt_bf16_f32) (ix2 r d)
      = v2 (ix3 (0 : Fin 1) r d) * v4 (ix3 (0 : Fin 1) ρ d) := by
  rw [mulf_apply, truncf_apply, truncf_apply, shapeCast_1ab_ab_apply,
    dynamicRotate_apply (0 : Fin S256x512.rank) sb _ rotates_S256x512_d0 (ix2 r d) (ix2 ρ d) (by
      intro b
      match b with
      | ⟨0, h0⟩ =>
        rw [if_pos (show (⟨0, h0⟩ : Fin S256x512.rank) = 0 from rfl)]
        show ρ.val = (r.val + 256 - sb.toNat % 256) % 256
        rw [hs]; exact hρ
      | ⟨1, h1⟩ =>
        rw [if_neg (show ¬(⟨1, h1⟩ : Fin S256x512.rank) = 0 from fun h => absurd (congrArg Fin.val h) Nat.one_ne_zero)]),
    shapeCast_1ab_ab_apply]

theorem lhs0 (i : S128x1024.Idx) (q : (dot_S128x512_S1024x512_S128x1024_1_1_0_0_n_n).contr.Idx) :
    ((dot_S128x512_S1024x512_S128x1024_1_1_0_0_n_n).lhsIdx i q 0).val = (i 0).val := by
  unfold DotDims.lhsIdx
  rw [dif_neg (show ¬(0 : Fin S128x512.rank) ∈ (dot_S128x512_S1024x512_S128x1024_1_1_0_0_n_n).lhsBatch by decide),
    dif_pos (show (0 : Fin S128x512.rank) ∈ (dot_S128x512_S1024x512_S128x1024_1_1_0_0_n_n).lhsNonContracting by decide)]
  rfl
theorem lhs1 (i : S128x1024.Idx) (q : (dot_S128x512_S1024x512_S128x1024_1_1_0_0_n_n).contr.Idx) :
    ((dot_S128x512_S1024x512_S128x1024_1_1_0_0_n_n).lhsIdx i q 1).val = (q ⟨0, by decide⟩).val :=
  (dot_S128x512_S1024x512_S128x1024_1_1_0_0_n_n).lhsIdx_val_of_single rfl i q
theorem rhs0 (i : S128x1024.Idx) (q : (dot_S128x512_S1024x512_S128x1024_1_1_0_0_n_n).contr.Idx) :
    ((dot_S128x512_S1024x512_S128x1024_1_1_0_0_n_n).rhsIdx i q 0).val = (i 1).val := by
  unfold DotDims.rhsIdx
  rw [dif_neg (show ¬(0 : Fin S1024x512.rank) ∈ (dot_S128x512_S1024x512_S128x1024_1_1_0_0_n_n).rhsBatch by decide),
    dif_pos (show (0 : Fin S1024x512.rank) ∈ (dot_S128x512_S1024x512_S128x1024_1_1_0_0_n_n).rhsNonContracting by decide)]
  rfl
theorem rhs1 (i : S128x1024.Idx) (q : (dot_S128x512_S1024x512_S128x1024_1_1_0_0_n_n).contr.Idx) :
    ((dot_S128x512_S1024x512_S128x1024_1_1_0_0_n_n).rhsIdx i q 1).val = (q ⟨0, by decide⟩).val :=
  (dot_S128x512_S1024x512_S128x1024_1_1_0_0_n_n).rhsIdx_val_of_single rfl i q

/-- The matrix product into a zero accumulator at (a, j): row `a` of the left operand against row `j` of the right. -/
theorem matmul_row (L : FVec Ideal S128x512 .bf16) (R : FVec Ideal S1024x512 .bf16) (a : Fin 128) (j : Fin 1024) :
    matmul dot_S128x512_S1024x512_S128x1024_1_1_0_0_n_n none L R (constant S128x1024 .f32 0x00000000#32) (ix2 a j)
      = ∑ d : Fin 512, L (ix2 a d) * R (ix2 j d) := by
  simp only [matmul]
  rw [Ideal.matmul_constant_zero_apply,
    ← Equiv.sum_comp (contrEquiv1 dot_S128x512_S1024x512_S128x1024_1_1_0_0_n_n 512 rfl rfl).symm]
  refine Finset.sum_congr rfl fun d _ => ?_
  have hk := contrEquiv1_symm_val dot_S128x512_S1024x512_S128x1024_1_1_0_0_n_n 512 rfl rfl d
  have el : (dot_S128x512_S1024x512_S128x1024_1_1_0_0_n_n).lhsIdx (ix2 a j)
      ((contrEquiv1 dot_S128x512_S1024x512_S128x1024_1_1_0_0_n_n 512 rfl rfl).symm d) = ix2 a d :=
    funext fun b => Fin.ext (by
      match b with
      | ⟨0, _⟩ => exact lhs0 _ _
      | ⟨1, _⟩ => exact (lhs1 _ _).trans hk)
  have er : (dot_S128x512_S1024x512_S128x1024_1_1_0_0_n_n).rhsIdx (ix2 a j)
      ((contrEquiv1 dot_S128x512_S1024x512_S128x1024_1_1_0_0_n_n 512 rfl rfl).symm d) = ix2 j d :=
    funext fun b => Fin.ext (by
      match b with
      | ⟨0, _⟩ => exact rhs0 _ _
      | ⟨1, _⟩ => exact (rhs1 _ _).trans hk)
  rw [el, er]

/-- The stacked operand of one trip: four pieces of 256 rows; row `256·q + r` is row `r` of piece `q`. -/
theorem stack_apply (x0 x1 x2 x3 : FVec Ideal S256x512 .bf16) (q : Fin 4) (r : Fin 256) (j : Fin 1024)
    (hj : j.val = 256 * q.val + r.val) (d : Fin 512) :
    concatenate S1024x512 0 [⟨S256x512, x0⟩, ⟨S256x512, x1⟩, ⟨S256x512, x2⟩, ⟨S256x512, x3⟩]
        Facts₀.concatenates_S256x512_S256x512_S256x512_S256x512_S1024x512_d0 (ix2 j d)
      = (match q with | ⟨0, _⟩ => x0 | ⟨1, _⟩ => x1 | ⟨2, _⟩ => x2 | ⟨3, _⟩ => x3) (ix2 r d) := by
  have hi : ∀ b : Fin S256x512.rank, b.cast (rfl : S256x512.rank = S1024x512.rank) ≠ (0 : Fin S1024x512.rank) →
      ((ix2 r d : S256x512.Idx) b).val = ((ix2 j d : S1024x512.Idx) (b.cast rfl)).val := by
    intro b hb
    match b with
    | ⟨0, _⟩ => exact absurd rfl hb
    | ⟨1, _⟩ => rfl
  match q with
  | ⟨0, _⟩ =>
    exact concatenate_apply_piece 0 _ _ (ix2 j d) 0 (by simp) S256x512 x0 rfl rfl 0 rfl (ix2 r d) hi (by
      show 0 + r.val = j.val; rw [hj]; simp)
  | ⟨1, _⟩ =>
    exact concatenate_apply_piece 0 _ _ (ix2 j d) 1 (by simp) S256x512 x1 rfl rfl 256 rfl (ix2 r d) hi (by
      show 256 + r.val = j.val; rw [hj]; simp)
  | ⟨2, _⟩ =>
    exact concatenate_apply_piece 0 _ _ (ix2 j d) 2 (by simp) S256x512 x2 rfl rfl 512 rfl (ix2 r d) hi (by
      show 512 + r.val = j.val; rw [hj]; simp)
  | ⟨3, _⟩ =>
    exact concatenate_apply_piece 0 _ _ (ix2 j d) 3 (by simp) S256x512 x3 rfl rfl 768 rfl (ix2 r d) hi (by
      show 768 + r.val = j.val; rw [hj]; simp)

/-- **The score tile of trip `k` at (a, 256·q + r)**: the query row `a` against the product of row `r` of the second
    operand and row `(r − (4k + q)) mod 256` of the third, times the unit scale. -/
theorem pay4_apply (v0 : Vec Ideal S1x128x512 .f32) (v2 v4 : Vec Ideal S1x256x512 .f32) (k : Fin k0_t1_loop.trips)
    (a : Fin 128) (q : Fin 4) (r ρ : Fin 256) (hρ : ρ.val = (r.val + 256 - (4 * k.val + q.val) % 256) % 256)
    (j : Fin 1024) (hj : j.val = 256 * q.val + r.val) :
    Gen.k0_pay4 v0 v2 v4 k (ix2 a j)
      = (∑ d : Fin 512, v0 (ix3 (0 : Fin 1) a d) * (v2 (ix3 (0 : Fin 1) r d) * v4 (ix3 (0 : Fin 1) ρ d)))
          * Ideal.ofBits .f32 0x3F800000#32 := by
  unfold Gen.k0_pay4
  dsimp only
  rw [mulf_apply, broadcast_apply, matmul_row]
  refine congrArg (· * _) (Finset.sum_congr rfl fun d _ => ?_)
  rw [truncf_apply, pay1_apply, stack_apply _ _ _ _ q r j hj d]
  refine congrArg (_ * ·) ?_
  match q with
  | ⟨0, _⟩ => exact piece_apply v2 v4 _ (4 * k.val + 0) (shift_toNat k 0 (by decide)) r ρ hρ d
  | ⟨1, _⟩ => exact piece_apply v2 v4 _ (4 * k.val + 1) (shift_toNat k 1 (by decide)) r ρ hρ d
  | ⟨2, _⟩ => exact piece_apply v2 v4 _ (4 * k.val + 2) (shift_toNat k 2 (by decide)) r ρ hρ d
  | ⟨3, _⟩ => exact piece_apply v2 v4 _ (4 * k.val + 3) (shift_toNat k 3 (by decide)) r ρ hρ d

theorem ninf_f32 : FloatOps.ofBits (F := Ideal) .f32 0xFF800000#32 = (⊥ : EReal) := by
  simp [Ideal.ofBits, Ideal.ieee]

theorem lift1024 (a : Fin 128) (j : Fin 1024) :
    Facts₀.reduces_S128x1024_S128.lift (ix1 a) j = (ix2 a j : S128x1024.Idx) :=
  funext fun b => Fin.ext (by
    match b with
    | ⟨0, _⟩ => rfl
    | ⟨1, _⟩ => rfl)

theorem lift512 (a : Fin 128) (d : Fin 512) :
    Facts₀.reduces_S128x512_S128.lift (ix1 a) d = (ix2 a d : S128x512.Idx) :=
  funext fun b => Fin.ext (by
    match b with
    | ⟨0, _⟩ => rfl
    | ⟨1, _⟩ => rfl)

/-- The running maximum after trip `k`, row `a`: the larger of the carried one and the largest of the trip's 1024
    scores of that row (from −∞). -/
theorem pay5_apply (v0 : Vec Ideal S1x128x512 .f32) (v2 v4 : Vec Ideal S1x256x512 .f32) (k : Fin k0_t1_loop.trips)
    (arg9 : FVec Ideal S128x1 .f32) (a : Fin 128) :
    Gen.k0_pay5 v0 v2 v4 k arg9 (ix2 a (0 : Fin 1))
      = max (arg9 (ix2 a (0 : Fin 1)))
          ((Finset.univ : Finset (Fin 1024)).fold max ⊥ fun j => Gen.k0_pay4 v0 v2 v4 k (ix2 a j)) := by
  unfold Gen.k0_pay5
  dsimp only
  rw [maximumf_apply]
  refine congrArg (max _) ?_
  refine (Cert.Keepdims.shapeCast_a_a1_apply _ _ a 0).trans ?_
  refine (Ideal.multiReduction_maximumf_single _ _ _ _ _ (ix1 a)).trans ?_
  rw [ninf_f32]
  refine congrArg (Finset.fold max ⊥ · Finset.univ) (funext fun (j : Fin 1024) => ?_)
  show Gen.k0_pay4 v0 v2 v4 k (Facts₀.reduces_S128x1024_S128.lift (ix1 a) j) = Gen.k0_pay4 v0 v2 v4 k (ix2 a j)
  rw [lift1024 a j]

/-- The running sum after trip `k`, row `a`: the carried sum rescaled by exp (old maximum − new maximum), plus the
    exponentials of the trip's 1024 scores less the new maximum. -/
theorem pay6_apply (v0 : Vec Ideal S1x128x512 .f32) (v2 v4 : Vec Ideal S1x256x512 .f32) (k : Fin k0_t1_loop.trips)
    (arg9 arg10 : FVec Ideal S128x1 .f32) (a : Fin 128) :
    Gen.k0_pay6 v0 v2 v4 k arg9 arg10 (ix2 a (0 : Fin 1))
      = Ideal.exp (arg9 (ix2 a (0 : Fin 1)) - Gen.k0_pay5 v0 v2 v4 k arg9 (ix2 a (0 : Fin 1))) * arg10 (ix2 a (0 : Fin 1))
        + ∑ j : Fin 1024, Ideal.exp (Gen.k0_pay4 v0 v2 v4 k (ix2 a j) - Gen.k0_pay5 v0 v2 v4 k arg9 (ix2 a (0 : Fin 1))) := by
  unfold Gen.k0_pay6
  dsimp only
  rw [addf_apply, mulf_apply]
  refine congrArg₂ (· + ·) rfl ?_
  refine (Cert.Keepdims.shapeCast_a_a1_apply _ _ a 0).trans ?_
  refine (Ideal.multiReduction_add_single _ _ _ _ _ (ix1 a)).trans ?_
  refine Finset.sum_congr rfl fun (j : Fin 1024) _ => ?_
  rw [lift1024 a j]
  show Ideal.exp (Gen.k0_pay4 v0 v2 v4 k (ix2 a j) - broadcastTo S128x1024 (Gen.k0_pay5 v0 v2 v4 k arg9) Facts₀.broadcasts_S128x1_S128x1024 (ix2 a j)) = _
  rw [Cert.Keepdims.broadcastTo_a1_ab_apply]

/-- What is stored for row `a`: running maximum plus the logarithm of the running sum, less the diagonal logit times the
    unit scale. -/
theorem pay7_apply (v0 v6 v8 : Vec Ideal S1x128x512 .f32) (m l : FVec Ideal S128x1 .f32) (a : Fin 128) :
    Gen.k0_pay7 v0 v6 v8 m l (ix3 (0 : Fin 1) a (0 : Fin 1))
      = (m (ix2 a (0 : Fin 1)) + Ideal.log (l (ix2 a (0 : Fin 1))))
        - (∑ d : Fin 512, v0 (ix3 (0 : Fin 1) a d) * v6 (ix3 (0 : Fin 1) a d) * v8 (ix3 (0 : Fin 1) a d))
            * Ideal.ofBits .f32 0x3F800000#32 := by
  unfold Gen.k0_pay7
  dsimp only
  refine (shapeCast_ab_1ab_apply _ _ 0 a 0).trans ?_
  rw [subf_apply, addf_apply, mulf_apply, broadcast_apply]
  refine congrArg₂ (· - ·) rfl (congrArg (· * _) ?_)
  refine (Cert.Keepdims.shapeCast_a_a1_apply _ _ a 0).trans ?_
  refine (Ideal.multiReduction_add_single _ _ _ _ _ (ix1 a)).trans ?_
  refine Finset.sum_congr rfl fun (d : Fin 512) _ => ?_
  rw [lift512 a d, mulf_apply, mulf_apply, pay1_apply]
  refine congrArg₂ (· * ·) (congrArg₂ (· * ·) rfl ?_) ?_
  · exact shapeCast_1ab_ab_apply v6 _ a d
  · exact shapeCast_1ab_ab_apply v8 _ a d

/-- The float word of 1.0 denotes 1. -/
theorem one_f32 : Ideal.ofBits .f32 0x3F800000#32 = (1 : EReal) := IdealRules.sign_bit.ideal_onePat .f32

/-- The loop's initial pair, read at a row: −∞ and 0. -/
theorem pay2_apply (a : Fin 128) : (Gen.k0_pay2 (F := Ideal)) (ix2 a (0 : Fin 1)) = (⊥ : EReal) := by
  unfold Gen.k0_pay2
  exact ninf_f32
theorem pay3_apply (a : Fin 128) : (Gen.k0_pay3 (F := Ideal)) (ix2 a (0 : Fin 1)) = (0 : EReal) := by
  unfold Gen.k0_pay3
  exact Ideal.ofBits_zero_f32

end Cert.KernelIdeal.Pay
end
-- ==== Proof.LibOnlineLse.lean ====
/-
  The running pair of an online log-sum-exp over blocks of keys.

  Keys come in blocks. A state (m, l) of extended reals starts at (−∞, 0); a block B with scores f takes it to
    m' = max m (max of f over B),   l' = exp (m − m') · l + Σ_{i ∈ B} exp (f i − m').
  For REAL scores the state after any set S of whole blocks is: m the largest score in S and
  l = Σ_{i ∈ S} exp (f i − m) (or (−∞, 0) while S is empty). The step is the identity
    exp (μ − μ') · Σ_S exp (f i − μ) = Σ_S exp (f i − μ'),
  and at the first block exp (−∞ − μ') · 0 = 0. At the end, m + log l is the log-sum-exp of all the scores, written
  around their maximum; the same number is what a one-pass log-softmax subtracts.
-/
import Idealize.ShloMosaic.PureOps.Ideal

noncomputable section

namespace Cert.OnlineLse

open Idealize.ShloMosaic

/-- A finite sum of reals, read in the extended reals, is the sum there. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What the running pair holds after the keys in `S`: nothing yet, or the largest score and the sum of the
    exponentials of the scores less that largest one. -/
def Inv {ι : Type} (f : ι → ℝ) (S : Finset ι) (m l : EReal) : Prop :=
  (S = ∅ ∧ m = ⊥ ∧ l = 0) ∨
  ∃ μ : ℝ, (∀ i ∈ S, f i ≤ μ) ∧ (∃ i ∈ S, f i = μ) ∧ m = (μ : EReal)
    ∧ l = ((∑ i ∈ S, Real.exp (f i - μ) : ℝ) : EReal)

/-- The larger of two reals, read in the extended reals, is the larger there. -/
theorem coe_max (a b : ℝ) : ((max a b : ℝ) : EReal) = max (a : EReal) (b : EReal) :=
  (EReal.coe_strictMono.monotone).map_max

/-- One block: `bm` is the block's largest score. -/
theorem inv_step {ι : Type} [DecidableEq ι] (f : ι → ℝ) (S B : Finset ι) (hd : Disjoint S B)
    (m l bm : EReal) (h : Inv f S m l) (hle : ∀ i ∈ B, (f i : EReal) ≤ bm) (hex : ∃ i ∈ B, bm = (f i : EReal)) :
    Inv f (S ∪ B) (max m bm)
      (Ideal.exp (m - max m bm) * l + ∑ i ∈ B, Ideal.exp ((f i : EReal) - max m bm)) := by
  obtain ⟨i0, hi0, rfl⟩ := hex
  have hle' : ∀ i ∈ B, f i ≤ f i0 := fun i hi => EReal.coe_le_coe_iff.mp (hle i hi)
  rcases h with ⟨rfl, rfl, rfl⟩ | ⟨μ, hμle, ⟨i1, hi1, hi1μ⟩, rfl, rfl⟩
  · refine Or.inr ⟨f i0, ?_, ⟨i0, by simp [hi0], rfl⟩, by simp, ?_⟩
    · intro i hi
      rw [Finset.empty_union] at hi
      exact hle' i hi
    · rw [max_eq_right bot_le, Finset.empty_union, mul_zero, zero_add]
      simp only [← EReal.coe_sub, Ideal.exp_coe, ← coe_sum]
  · refine Or.inr ⟨max μ (f i0), ?_, ?_, ?_, ?_⟩
    · intro i hi
      rcases Finset.mem_union.mp hi with hi | hi
      · exact le_trans (hμle i hi) (le_max_left _ _)
      · exact le_trans (hle' i hi) (le_max_right _ _)
    · rcases le_total (f i0) μ with hc | hc
      · exact ⟨i1, Finset.mem_union_left _ hi1, by rw [hi1μ, max_eq_left hc]⟩
      · exact ⟨i0, Finset.mem_union_right _ hi0, by rw [max_eq_right hc]⟩
    · rw [coe_max]
    · rw [← coe_max]
      simp only [← EReal.coe_sub, Ideal.exp_coe, ← coe_sum, ← EReal.coe_mul, ← EReal.coe_add]
      refine congrArg _ ?_
      rw [Finset.sum_union hd, Finset.mul_sum]
      refine congrArg (· + _) (Finset.sum_congr rfl fun i _ => ?_)
      rw [← Real.exp_add]
      exact congrArg _ (by ring)

/-- The largest of finitely many reals from −∞, over a nonempty set, is one of them and above them all. -/
theorem fold_max_spec {β : Type} (B : Finset β) (hB : B.Nonempty) (g : β → ℝ) :
    (∀ j ∈ B, (g j : EReal) ≤ B.fold max ⊥ (fun j => (g j : EReal)))
      ∧ ∃ j ∈ B, B.fold max ⊥ (fun j => (g j : EReal)) = (g j : EReal) := by
  refine ⟨fun j hj => Finset.le_sup (f := fun j => (g j : EReal)) hj, ?_⟩
  obtain ⟨j, hj, h⟩ := Finset.exists_mem_eq_sup B hB (fun j => (g j : EReal))
  exact ⟨j, hj, h⟩

/-- The largest score is unique: two reals that each bound every score and are each attained are equal. -/
theorem max_unique {ι : Type} (f : ι → ℝ) (μ μ' : ℝ) (hle : ∀ i, f i ≤ μ) (hex : ∃ i, f i = μ)
    (hle' : ∀ i, f i ≤ μ') (hex' : ∃ i, f i = μ') : μ = μ' := by
  obtain ⟨i, hi⟩ := hex
  obtain ⟨i', hi'⟩ := hex'
  exact le_antisymm (hi ▸ hle' i) (hi' ▸ hle i')

/-- The supremum, in the extended reals, of finitely many reals with largest value `μ` is `μ`. -/
theorem sup_coe_eq {ι : Type} [Fintype ι] (f : ι → ℝ) (μ : ℝ) (hle : ∀ i, f i ≤ μ) (hex : ∃ i, f i = μ) :
    (Finset.univ : Finset ι).sup (fun i => (f i : EReal)) = (μ : EReal) := by
  refine le_antisymm (Finset.sup_le fun i _ => EReal.coe_le_coe_iff.mpr (hle i)) ?_
  obtain ⟨i, hi⟩ := hex
  rw [← hi]
  exact Finset.le_sup (f := fun i => (f i : EReal)) (Finset.mem_univ i)

/-- The one-pass form: an entry `d` of a log-softmax row, written around the row's largest score. -/
theorem logprob_coe {ι : Type} [Fintype ι] [Nonempty ι] (f : ι → ℝ) (d μ : ℝ) (hle : ∀ i, f i ≤ μ) (hex : ∃ i, f i = μ) :
    ((d : EReal) - (Finset.univ : Finset ι).sup (fun i => (f i : EReal)))
        - Ideal.log (∑ i, Ideal.exp ((f i : EReal) - (Finset.univ : Finset ι).sup (fun i => (f i : EReal))))
      = ((d - μ - Real.log (∑ i, Real.exp (f i - μ)) : ℝ) : EReal) := by
  rw [sup_coe_eq f μ hle hex]
  have hpos : 0 < ∑ i, Real.exp (f i - μ) := Finset.sum_pos (fun i _ => Real.exp_pos _) Finset.univ_nonempty
  simp only [← EReal.coe_sub, Ideal.exp_coe, ← coe_sum, Ideal.log_coe, if_neg (not_le.mpr hpos)]

/-- The online form: running maximum plus the logarithm of the running sum, less `d`. -/
theorem online_coe (μ L d : ℝ) (hL : 0 < L) :
    ((μ : EReal) + Ideal.log (L : EReal)) - (d : EReal) = ((μ + Real.log L - d : ℝ) : EReal) := by
  simp only [Ideal.log_coe, if_neg (not_le.mpr hL), ← EReal.coe_add, ← EReal.coe_sub]

/-- What the invariant says once every key has been seen. -/
theorem inv_univ {ι : Type} [Fintype ι] [Nonempty ι] (f : ι → ℝ) (m l : EReal) (h : Inv f Finset.univ m l) :
    ∃ μ : ℝ, (∀ i, f i ≤ μ) ∧ (∃ i, f i = μ) ∧ m = (μ : EReal) ∧ l = ((∑ i, Real.exp (f i - μ) : ℝ) : EReal) := by
  rcases h with ⟨he, -, -⟩ | ⟨μ, hle, ⟨i, -, hi⟩, hm, hl⟩
  · exact absurd he (Finset.univ_nonempty.ne_empty)
  · exact ⟨μ, fun i => hle i (Finset.mem_univ i), ⟨i, hi⟩, hm, hl⟩

section Blocks

variable {n : ℕ} {β : Type} [Fintype β] [Nonempty β] [DecidableEq β]

/-- The keys of the blocks in `T`. -/
def keys (T : Finset (Fin n)) : Finset (Fin n × β) := T ×ˢ (Finset.univ : Finset β)

/-- The fold of a step function over a list of distinct fresh blocks keeps the invariant. `rd` reads the running pair
    off the carried state (one row of carried vectors); `hg` says one trip is the online step on that pair. -/
theorem foldl_inv {σ : Type} (f : Fin n → β → ℝ) (g : Fin n → σ → σ) (rd : σ → EReal × EReal)
    (hg : ∀ k s, rd (g k s) =
      (max (rd s).1 (Finset.univ.fold max ⊥ fun j => (f k j : EReal)),
        Ideal.exp ((rd s).1 - max (rd s).1 (Finset.univ.fold max ⊥ fun j => (f k j : EReal))) * (rd s).2
          + ∑ j, Ideal.exp ((f k j : EReal) - max (rd s).1 (Finset.univ.fold max ⊥ fun j => (f k j : EReal))))) :
    ∀ (ks : List (Fin n)), ks.Nodup → ∀ (T : Finset (Fin n)), (∀ k ∈ ks, k ∉ T) → ∀ s : σ,
      Inv (fun p : Fin n × β => f p.1 p.2) (keys T) (rd s).1 (rd s).2 →
      Inv (fun p : Fin n × β => f p.1 p.2) (keys (T ∪ ks.toFinset))
        (rd (ks.foldl (fun acc k => g k acc) s)).1 (rd (ks.foldl (fun acc k => g k acc) s)).2
  | [], _, T, _, s, hs => by simpa using hs
  | k :: ks, hnd, T, hT, s, hs => by
    have hkT : k ∉ T := hT k (List.mem_cons_self ..)
    obtain ⟨hkks, hnd'⟩ := List.nodup_cons.mp hnd
    have hstep : Inv (fun p : Fin n × β => f p.1 p.2) (keys (insert k T)) (rd (g k s)).1 (rd (g k s)).2 := by
      have hB := fold_max_spec (Finset.univ : Finset β) Finset.univ_nonempty (f k)
      have := inv_step (fun p : Fin n × β => f p.1 p.2) (keys T) (({k} : Finset (Fin n)) ×ˢ (Finset.univ : Finset β))
        (by
          rw [Finset.disjoint_left]
          intro p hp hp'
          simp only [keys, Finset.mem_product, Finset.mem_univ, and_true, Finset.mem_singleton] at hp hp'
          exact hkT (hp' ▸ hp))
        (rd s).1 (rd s).2 (Finset.univ.fold max ⊥ fun j => (f k j : EReal)) hs
        (by
          intro p hp
          simp only [Finset.mem_product, Finset.mem_univ, and_true, Finset.mem_singleton] at hp
          obtain ⟨p1, p2⟩ := p
          simp only at hp
          subst hp
          exact hB.1 p2 (Finset.mem_univ _))
        (by
          obtain ⟨j, -, hj⟩ := hB.2
          exact ⟨(k, j), by simp, hj⟩)
      rw [hg k s]
      have hk : keys (insert k T) = keys T ∪ (({k} : Finset (Fin n)) ×ˢ (Finset.univ : Finset β)) := by
        ext p
        simp only [keys, Finset.mem_product, Finset.mem_insert, Finset.mem_univ, and_true, Finset.mem_union,
          Finset.mem_singleton]
        tauto
      rw [hk]
      have hsum : ∑ p ∈ (({k} : Finset (Fin n)) ×ˢ (Finset.univ : Finset β)),
            Ideal.exp (((f p.1 p.2 : ℝ) : EReal) - max (rd s).1 (Finset.univ.fold max ⊥ fun j => (f k j : EReal)))
          = ∑ j, Ideal.exp ((f k j : EReal) - max (rd s).1 (Finset.univ.fold max ⊥ fun j => (f k j : EReal))) := by
        rw [Finset.sum_product, Finset.sum_singleton]
      rw [← hsum]
      exact this
    have := foldl_inv f g rd hg ks hnd' (insert k T)
      (fun k' hk' hmem => by
        rcases Finset.mem_insert.mp hmem with h | h
        · exact hkks (h ▸ hk')
        · exact hT k' (List.mem_cons_of_mem _ hk') h)
      (g k s) hstep
    rw [List.foldl_cons]
    have he : T ∪ (k :: ks).toFinset = insert k T ∪ ks.toFinset := by
      ext x
      simp only [List.toFinset_cons, Finset.mem_union, Finset.mem_insert, List.mem_toFinset]
      tauto
    rw [he]
    exact this

end Blocks

end Cert.OnlineLse

end
-- ==== Proof.KernelRow.lean ====
/-
  One query row of one grid point, for REAL inputs: the loop's running pair ends at the largest of the row's 256 × 256
  scores and the sum of the exponentials of the scores less that largest one, so what the body stores for the row is
  the log-sum-exp of its scores less its diagonal logit.

  The keys the loop visits are pairs (trip k, column j) with j = 256·q + r; the score there belongs to the key pair
  (shift 4k + q, row r). Every pair (shift, row) of 256 × 256 is visited exactly once (k = shift / 4, q = shift mod 4),
  so sums and maxima over the loop's keys are sums and maxima over all (shift, row) pairs.
-/
import proofs.«157399_j21638045237260_2_alg».proof.Proof.KernelPay
import proofs.«157399_j21638045237260_2_alg».proof.Proof.LibOnlineLse

noncomputable section

namespace Cert.KernelIdeal.Row

open Idealize.ShloMosaic Idealize.ShloMosaic.ValueIdx Cert.KernelIdeal Cert.KernelIdeal.Pay Cert.OnlineLse

variable [Cert.KernelIdeal.Facts]

/-- The real score of query row `a` (of the block) against the key pair p = (shift, row). -/
def sR (X : Fin 128 → Fin 512 → ℝ) (Y Z : Fin 256 → Fin 512 → ℝ) (a : Fin 128) (p : Fin 256 × Fin 256) : ℝ :=
  ∑ d : Fin 512, X a d * (Y p.2 d * Z (p.2 - p.1) d)

/-- The loop's keys (trip, column) are the key pairs (shift, row): shift = 4·trip + column / 256, row = column mod 256. -/
def keyEquiv : Fin k0_t1_loop.trips × Fin 1024 ≃ Fin 256 × Fin 256 where
  toFun p := (⟨4 * p.1.val + p.2.val / 256, by
      have h1 := lt_of_lt_of_eq p.1.isLt trips_eq
      have h2 := p.2.isLt
      omega⟩,
    ⟨p.2.val % 256, Nat.mod_lt _ (by decide)⟩)
  invFun p := (⟨p.1.val / 4, by rw [trips_eq]; have := p.1.isLt; omega⟩,
    ⟨256 * (p.1.val % 4) + p.2.val, by have := p.2.isLt; omega⟩)
  left_inv p := by
    obtain ⟨k, j⟩ := p
    have h1 := lt_of_lt_of_eq k.isLt trips_eq
    have h2 := j.isLt
    refine Prod.ext (Fin.ext ?_) (Fin.ext ?_)
    · show (4 * k.val + j.val / 256) / 4 = k.val
      omega
    · show 256 * ((4 * k.val + j.val / 256) % 4) + j.val % 256 = j.val
      omega
  right_inv p := by
    obtain ⟨i, r⟩ := p
    have h1 := i.isLt
    have h2 := r.isLt
    refine Prod.ext (Fin.ext ?_) (Fin.ext ?_)
    · show 4 * (i.val / 4) + (256 * (i.val % 4) + r.val) / 256 = i.val
      omega
    · show (256 * (i.val % 4) + r.val) % 256 = r.val
      omega

section Real

variable (X : Fin 128 → Fin 512 → ℝ) (Y Z : Fin 256 → Fin 512 → ℝ)
  (v0 : Vec Ideal S1x128x512 .f32) (v2 v4 : Vec Ideal S1x256x512 .f32)
  (h0 : ∀ a d, v0 (ix3 (0 : Fin 1) a d) = (X a d : EReal))
  (h2 : ∀ r d, v2 (ix3 (0 : Fin 1) r d) = (Y r d : EReal))
  (h4 : ∀ r d, v4 (ix3 (0 : Fin 1) r d) = (Z r d : EReal))

include h0 h2 h4

/-- A score of the tile is the real score of its key pair. -/
theorem pay4_coe (k : Fin k0_t1_loop.trips) (j : Fin 1024) (a : Fin 128) :
    Gen.k0_pay4 v0 v2 v4 k (ix2 a j) = ((sR X Y Z a (keyEquiv (k, j)) : ℝ) : EReal) := by
  have hk := lt_of_lt_of_eq k.isLt trips_eq
  have hj := j.isLt
  rw [pay4_apply v0 v2 v4 k a ⟨j.val / 256, by omega⟩ ⟨j.val % 256, Nat.mod_lt _ (by decide)⟩
    ((keyEquiv (k, j)).2 - (keyEquiv (k, j)).1) (by
      rw [Fin.sub_def]
      show (256 - (4 * k.val + j.val / 256) + j.val % 256) % 256
        = (j.val % 256 + 256 - (4 * k.val + j.val / 256) % 256) % 256
      omega) j (by show j.val = 256 * (j.val / 256) + j.val % 256; omega),
    one_f32, mul_one]
  simp only [h0, h2, h4, ← EReal.coe_mul, ← coe_sum]
  rfl

/-- The loop's result at row `a`: the largest score of the row and the sum of the shifted exponentials. -/
theorem fold_row (a : Fin 128) :
    ∃ μ : ℝ, (∀ p, sR X Y Z a p ≤ μ) ∧ (∃ p, sR X Y Z a p = μ)
      ∧ (Scf.fold (fun (k : Fin k0_t1_loop.trips) (acc : FVec Ideal S128x1 .f32 × FVec Ideal S128x1 .f32) =>
            (Gen.k0_pay5 v0 v2 v4 k acc.1, Gen.k0_pay6 v0 v2 v4 k acc.1 acc.2)) (Gen.k0_pay2, Gen.k0_pay3)).1
          (ix2 a (0 : Fin 1)) = (μ : EReal)
      ∧ (Scf.fold (fun (k : Fin k0_t1_loop.trips) (acc : FVec Ideal S128x1 .f32 × FVec Ideal S128x1 .f32) =>
            (Gen.k0_pay5 v0 v2 v4 k acc.1, Gen.k0_pay6 v0 v2 v4 k acc.1 acc.2)) (Gen.k0_pay2, Gen.k0_pay3)).2
          (ix2 a (0 : Fin 1)) = ((∑ p, Real.exp (sR X Y Z a p - μ) : ℝ) : EReal) := by
  haveI : Nonempty (Fin k0_t1_loop.trips) := ⟨⟨0, by rw [trips_eq]; decide⟩⟩
  have hg : ∀ (k : Fin k0_t1_loop.trips) (s : FVec Ideal S128x1 .f32 × FVec Ideal S128x1 .f32),
      ((Gen.k0_pay5 v0 v2 v4 k s.1 (ix2 a (0 : Fin 1)), Gen.k0_pay6 v0 v2 v4 k s.1 s.2 (ix2 a (0 : Fin 1))) : EReal × EReal)
        = (max (s.1 (ix2 a (0 : Fin 1))) (Finset.univ.fold max ⊥ fun j : Fin 1024 => ((sR X Y Z a (keyEquiv (k, j)) : ℝ) : EReal)),
            Ideal.exp (s.1 (ix2 a (0 : Fin 1)) - max (s.1 (ix2 a (0 : Fin 1)))
                (Finset.univ.fold max ⊥ fun j : Fin 1024 => ((sR X Y Z a (keyEquiv (k, j)) : ℝ) : EReal))) * s.2 (ix2 a (0 : Fin 1))
              + ∑ j : Fin 1024, Ideal.exp (((sR X Y Z a (keyEquiv (k, j)) : ℝ) : EReal) - max (s.1 (ix2 a (0 : Fin 1)))
                (Finset.univ.fold max ⊥ fun j : Fin 1024 => ((sR X Y Z a (keyEquiv (k, j)) : ℝ) : EReal)))) := by
    intro k s
    rw [pay6_apply, pay5_apply]
    simp only [pay4_coe X Y Z v0 v2 v4 h0 h2 h4]
  have H := foldl_inv (fun (k : Fin k0_t1_loop.trips) (j : Fin 1024) => sR X Y Z a (keyEquiv (k, j)))
    (fun (k : Fin k0_t1_loop.trips) (acc : FVec Ideal S128x1 .f32 × FVec Ideal S128x1 .f32) =>
      (Gen.k0_pay5 v0 v2 v4 k acc.1, Gen.k0_pay6 v0 v2 v4 k acc.1 acc.2))
    (fun s => (s.1 (ix2 a (0 : Fin 1)), s.2 (ix2 a (0 : Fin 1)))) hg
    (List.finRange _) (List.nodup_finRange _) ∅ (fun _ _ => Finset.notMem_empty _) (Gen.k0_pay2, Gen.k0_pay3) (by
      show Inv _ (keys ∅) (Gen.k0_pay2 (F := Ideal) (ix2 a (0 : Fin 1))) (Gen.k0_pay3 (F := Ideal) (ix2 a (0 : Fin 1)))
      rw [pay2_apply, pay3_apply]
      exact Or.inl ⟨by simp [keys], rfl, rfl⟩)
  rw [← Scf.fold_eq] at H
  have hu : keys (β := Fin 1024) (∅ ∪ (List.finRange k0_t1_loop.trips).toFinset) = Finset.univ := by
    ext p; simp [keys]
  rw [hu] at H
  obtain ⟨μ, hle, hex, hm, hl⟩ := inv_univ _ _ _ H
  refine ⟨μ, fun p => ?_, ?_, hm, ?_⟩
  · have := hle (keyEquiv.symm p)
    simpa using this
  · obtain ⟨q, hq⟩ := hex
    exact ⟨keyEquiv q, hq⟩
  · refine hl.trans (congrArg _ ?_)
    exact Equiv.sum_comp keyEquiv (fun p => Real.exp (sR X Y Z a p - μ))

/-- **What the body stores for query row `a`**: the log-sum-exp of the row's scores (around their largest) less the
    diagonal logit. `Y6`, `Z8` are the rows of the second and third operands at the block's own query rows. -/
theorem out_row (Y6 Z8 : Fin 128 → Fin 512 → ℝ) (v6 v8 : Vec Ideal S1x128x512 .f32)
    (h6 : ∀ a d, v6 (ix3 (0 : Fin 1) a d) = (Y6 a d : EReal))
    (h8 : ∀ a d, v8 (ix3 (0 : Fin 1) a d) = (Z8 a d : EReal)) (a : Fin 128) :
    ∃ μ : ℝ, (∀ p, sR X Y Z a p ≤ μ) ∧ (∃ p, sR X Y Z a p = μ)
      ∧ Gen.k0_pay7 v0 v6 v8
          (Scf.fold (fun (k : Fin k0_t1_loop.trips) (acc : FVec Ideal S128x1 .f32 × FVec Ideal S128x1 .f32) =>
            (Gen.k0_pay5 v0 v2 v4 k acc.1, Gen.k0_pay6 v0 v2 v4 k acc.1 acc.2)) (Gen.k0_pay2, Gen.k0_pay3)).1
          (Scf.fold (fun (k : Fin k0_t1_loop.trips) (acc : FVec Ideal S128x1 .f32 × FVec Ideal S128x1 .f32) =>
            (Gen.k0_pay5 v0 v2 v4 k acc.1, Gen.k0_pay6 v0 v2 v4 k acc.1 acc.2)) (Gen.k0_pay2, Gen.k0_pay3)).2
          (ix3 (0 : Fin 1) a (0 : Fin 1))
        = ((μ + Real.log (∑ p, Real.exp (sR X Y Z a p - μ)) - ∑ d : Fin 512, X a d * Y6 a d * Z8 a d : ℝ) : EReal) := by
  obtain ⟨μ, hle, hex, hm, hl⟩ := fold_row X Y Z v0 v2 v4 h0 h2 h4 a
  refine ⟨μ, hle, hex, ?_⟩
  rw [pay7_apply, hm, hl, one_f32, mul_one]
  simp only [h0, h6, h8, ← EReal.coe_mul, ← coe_sum]
  exact online_coe μ _ _ (Finset.sum_pos (fun p _ => Real.exp_pos _) Finset.univ_nonempty)

end Real

end Cert.KernelIdeal.Row

end
-- ==== Proof.RefRow.lean ====
/-
  The reference's closed form on REAL matrices, and the last step of both programs.

  With real entries every score is a real, the row supremum is the row's largest score, and the diagonal
  log-probability of row g is  score(g; 0, g) − μ − log Σ exp (score − μ)  with μ that largest score: minus what the
  online form leaves for the row. Finally the mean of all 3 × 256 rows is the mean of the three means over 256 rows:
  (Σ_c Σ_g t) / 768 = (Σ_c (Σ_g t) / 256) / 3 on the reals.
-/
import proofs.«157399_j21638045237260_2_alg».proof.Proof.RefReadSpec
import proofs.«157399_j21638045237260_2_alg».proof.Proof.LibOnlineLse
import Idealize.ShloMosaic.Lib.ValueIdx

noncomputable section

namespace Cert.RefRow

open Idealize.ShloMosaic Idealize.ShloMosaic.ValueIdx Cert.ReferenceIdeal.RefRead Cert.OnlineLse

/-- The real score of query row `g` against the key pair p = (shift, row). -/
def sRef (A P Q : Fin 256 → Fin 512 → ℝ) (g : Fin 256) (p : Fin 256 × Fin 256) : ℝ :=
  ∑ d : Fin 512, A g d * (P p.2 d * Q (p.2 - p.1) d)

theorem score_coe (A P Q : Fin 256 → Fin 512 → ℝ) (g i r : Fin 256) :
    score (fun a d => (A a d : EReal)) (fun a d => (P a d : EReal)) (fun a d => (Q a d : EReal)) g i r
      = ((sRef A P Q g (i, r) : ℝ) : EReal) := by
  unfold score sRef
  simp only [← EReal.coe_mul, ← coe_sum]

/-- The diagonal log-probability of row `g`, for real matrices, around the row's largest score `μ`. -/
theorem logProb_coe (A P Q : Fin 256 → Fin 512 → ℝ) (g : Fin 256) (μ : ℝ)
    (hle : ∀ p, sRef A P Q g p ≤ μ) (hex : ∃ p, sRef A P Q g p = μ) :
    logProb (fun a d => (A a d : EReal)) (fun a d => (P a d : EReal)) (fun a d => (Q a d : EReal)) g
      = ((sRef A P Q g (0, g) - μ - Real.log (∑ p, Real.exp (sRef A P Q g p - μ)) : ℝ) : EReal) := by
  unfold logProb rowSup
  simp only [score_coe]
  exact logprob_coe (fun p => sRef A P Q g p) _ μ hle hex

/-- For real matrices the diagonal log-probability is a real. -/
theorem logProb_real (A P Q : Fin 256 → Fin 512 → ℝ) (g : Fin 256) :
    ∃ ℓ : ℝ, logProb (fun a d => (A a d : EReal)) (fun a d => (P a d : EReal)) (fun a d => (Q a d : EReal)) g = (ℓ : EReal) := by
  obtain ⟨p, -, hp⟩ := Finset.exists_max_image (Finset.univ : Finset (Fin 256 × Fin 256)) (sRef A P Q g) Finset.univ_nonempty
  exact ⟨_, logProb_coe A P Q g (sRef A P Q g p) (fun q => hp q (Finset.mem_univ q)) ⟨p, rfl⟩⟩

/-- The diagonal score is the plain triple product of the three rows `g`. -/
theorem sRef_diag (A P Q : Fin 256 → Fin 512 → ℝ) (g : Fin 256) :
    sRef A P Q g (0, g) = ∑ d : Fin 512, A g d * P g d * Q g d := by
  unfold sRef
  refine Finset.sum_congr rfl fun d _ => ?_
  show A g d * (P g d * Q (g - 0) d) = A g d * P g d * Q g d
  rw [sub_zero, mul_assoc]

/-- The float words of 768, 256 and 3. -/
theorem word_768 : Ideal.ofBits .f32 0x44400000#32 = ((768 : ℝ) : EReal) := by
  simp [Ideal.ofBits, Ideal.ieee, -EReal.coe_mul]; norm_num

/-- The indices of a [3, 256, 1] array are the pairs (configuration, row). -/
def idxEquiv : (⟨3, ![3, 256, 1]⟩ : Shape).Idx ≃ Fin 3 × Fin 256 where
  toFun i := (i 0, i 1)
  invFun p := ix3 p.1 p.2 (0 : Fin 1)
  left_inv i := by
    funext b
    match b with
    | ⟨0, _⟩ => rfl
    | ⟨1, _⟩ => rfl
    | ⟨2, _⟩ => exact Subsingleton.elim (α := Fin 1) _ _
  right_inv p := rfl

/-- **The mean of 768 rows is the mean of three means of 256 rows**, on real terms `t c g` (the kernel sums −t from 0
    and divides by 768; the reference negates each mean over 256 and divides the sum of the three by 3). -/
theorem mean_of_means (t : Fin 3 → Fin 256 → ℝ) :
    Ideal.div (0 + ∑ i : (⟨3, ![3, 256, 1]⟩ : Shape).Idx, -((t (i 0) (i 1) : ℝ) : EReal)) ((768 : ℝ) : EReal)
      = Ideal.div ((-(Ideal.div (∑ g : Fin 256, ((t 0 g : ℝ) : EReal)) ((256 : ℝ) : EReal))
            + -(Ideal.div (∑ g : Fin 256, ((t 1 g : ℝ) : EReal)) ((256 : ℝ) : EReal)))
          + -(Ideal.div (∑ g : Fin 256, ((t 2 g : ℝ) : EReal)) ((256 : ℝ) : EReal))) ((3 : ℝ) : EReal) := by
  rw [← Equiv.sum_comp idxEquiv.symm (fun i : (⟨3, ![3, 256, 1]⟩ : Shape).Idx => -((t (i 0) (i 1) : ℝ) : EReal)),
    Fintype.sum_prod_type]
  simp only [Ideal.div_coe (by norm_num : (768 : ℝ) ≠ 0), Ideal.div_coe (by norm_num : (256 : ℝ) ≠ 0),
    Ideal.div_coe (by norm_num : (3 : ℝ) ≠ 0), zero_add]
  show (∑ c : Fin 3, ∑ g : Fin 256, -((t c g : ℝ) : EReal)) * _ = _
  simp only [← EReal.coe_neg, ← coe_sum, ← EReal.coe_mul, ← EReal.coe_add]
  refine congrArg _ ?_
  rw [Fin.sum_univ_three]
  simp only [Finset.sum_neg_distrib]
  ring

end Cert.RefRow

end
-- ==== Proof.BridgeRow.lean ====
/-
  One row of one grid point against the reference: for real matrices A, P, Q of a configuration, a block of 128 query
  rows sitting at rows ρ(a) of the configuration stores, for its row a,

      log-sum-exp of the scores of row ρ(a)  −  its diagonal logit   =   − (diagonal log-probability of row ρ(a)),

  because both sides are written around the same largest score and the same sum of shifted exponentials.
-/
import proofs.«157399_j21638045237260_2_alg».proof.Proof.KIdealRunBody
import proofs.«157399_j21638045237260_2_alg».proof.Proof.KernelRow
import proofs.«157399_j21638045237260_2_alg».proof.Proof.RefRow

noncomputable section

namespace Cert.Bridge

open Idealize.ShloMosaic Idealize.ShloMosaic.ValueIdx Cert.KernelIdeal Cert.KernelIdeal.Row Cert.RefRow
open Cert.ReferenceIdeal.RefRead

variable [Cert.KernelIdeal.Facts]

theorem out_point (A P Q : Fin 256 → Fin 512 → ℝ) (ρ : Fin 128 → Fin 256)
    (v0 v6 v8 : Vec Ideal S1x128x512 .f32) (v2 v4 : Vec Ideal S1x256x512 .f32)
    (h0 : ∀ a d, v0 (ix3 (0 : Fin 1) a d) = (A (ρ a) d : EReal))
    (h2 : ∀ r d, v2 (ix3 (0 : Fin 1) r d) = (P r d : EReal))
    (h4 : ∀ r d, v4 (ix3 (0 : Fin 1) r d) = (Q r d : EReal))
    (h6 : ∀ a d, v6 (ix3 (0 : Fin 1) a d) = (P (ρ a) d : EReal))
    (h8 : ∀ a d, v8 (ix3 (0 : Fin 1) a d) = (Q (ρ a) d : EReal)) (a : Fin 128) :
    Cert.KernelIdeal.Hand.outBlk v0 v2 v4 v6 v8 (ix3 (0 : Fin 1) a (0 : Fin 1))
      = -(logProb (fun r d => (A r d : EReal)) (fun r d => (P r d : EReal)) (fun r d => (Q r d : EReal)) (ρ a)) := by
  obtain ⟨μ, hle, hex, hout⟩ := out_row (fun a d => A (ρ a) d) P Q v0 v2 v4 h0 h2 h4
    (fun a d => P (ρ a) d) (fun a d => Q (ρ a) d) v6 v8 h6 h8 a
  have hle' : ∀ p, sRef A P Q (ρ a) p ≤ μ := hle
  have hex' : ∃ p, sRef A P Q (ρ a) p = μ := hex
  rw [logProb_coe A P Q (ρ a) μ hle' hex', sRef_diag, ← EReal.coe_neg]
  refine Eq.trans hout (congrArg _ ?_)
  show μ + Real.log (∑ p, Real.exp (sRef A P Q (ρ a) p - μ)) - ∑ d : Fin 512, A (ρ a) d * P (ρ a) d * Q (ρ a) d
    = -(∑ d : Fin 512, A (ρ a) d * P (ρ a) d * Q (ρ a) d - μ - Real.log (∑ p, Real.exp (sRef A P Q (ρ a) p - μ)))
  ring

end Cert.Bridge

end
-- ==== Proof.BridgeTail.lean ====
/-
  The last step on the kernel's side: once the [3, 256, 1] array of per-row values holds, at (configuration k, row g),
  minus the diagonal log-probability of row g of configuration k, its sum from 0 divided by 768 is the reference's mean
  of the three mean losses. Configuration 0 is (x; y, z), configuration 1 is (y; x, z), configuration 2 is (z; x, y).
-/
import proofs.«157399_j21638045237260_2_alg».proof.KernelIdeal
import proofs.«157399_j21638045237260_2_alg».proof.Proof.RefRow
import Idealize.ShloMosaic.PureOps.Ideal.Laws

noncomputable section

namespace Cert.Bridge

open Idealize.ShloMosaic Idealize.ShloMosaic.ValueIdx Cert.KernelIdeal Cert.RefRow
open Cert.ReferenceIdeal.RefRead
open Cert.KernelIdeal.Facts₀

variable [Cert.KernelIdeal.Facts]

/-- An argument array as a matrix of extended reals. -/
def matOf (x : FVec Ideal S256x512 .f32) : Fin 256 → Fin 512 → EReal := fun r d => x (ix2 r d)

/-- The anchor, the row operand and the rolled operand of configuration `k`. -/
def anchorOf (X Y Z : Fin 256 → Fin 512 → ℝ) (k : Fin 3) : Fin 256 → Fin 512 → ℝ :=
  match k with | ⟨0, _⟩ => X | ⟨1, _⟩ => Y | ⟨2, _⟩ => Z
def rowOpOf (X Y Z : Fin 256 → Fin 512 → ℝ) (k : Fin 3) : Fin 256 → Fin 512 → ℝ :=
  match k with | ⟨0, _⟩ => Y | ⟨1, _⟩ => X | ⟨2, _⟩ => X
def rollOpOf (X Y Z : Fin 256 → Fin 512 → ℝ) (k : Fin 3) : Fin 256 → Fin 512 → ℝ :=
  match k with | ⟨0, _⟩ => Z | ⟨1, _⟩ => Z | ⟨2, _⟩ => Y

/-- What the per-row array holds at (k, g). -/
def negLogProb (X Y Z : Fin 256 → Fin 512 → ℝ) (k : Fin 3) (g : Fin 256) : EReal :=
  -(logProb (fun r d => (anchorOf X Y Z k r d : EReal)) (fun r d => (rowOpOf X Y Z k r d : EReal))
      (fun r d => (rollOpOf X Y Z k r d : EReal)) g)

theorem tail_eq (x y z : FVec Ideal S256x512 .f32) (X Y Z : Fin 256 → Fin 512 → ℝ)
    (hx : ∀ r d, x (ix2 r d) = (X r d : EReal)) (hy : ∀ r d, y (ix2 r d) = (Y r d : EReal))
    (hz : ∀ r d, z (ix2 r d) = (Z r d : EReal))
    (OUT : FVec Ideal S3x256x1 .f32)
    (hOUT : ∀ (k : Fin 3) (g : Fin 256), OUT (ix3 k g (0 : Fin 1)) = negLogProb X Y Z k g) :
    Host.divf (Host.reduceAdd OUT (constant (F := Ideal) S_ .f32 0x00000000#32) reducesTo_S3x256x1_S_d0_1_2 h_S_)
        (constant (F := Ideal) S_ .f32 0x44400000#32)
      = fun _ => total (matOf x) (matOf y) (matOf z) := by
  have hℓ : ∀ (k : Fin 3) (g : Fin 256), ∃ ℓ : ℝ,
      logProb (fun r d => (anchorOf X Y Z k r d : EReal)) (fun r d => (rowOpOf X Y Z k r d : EReal))
        (fun r d => (rollOpOf X Y Z k r d : EReal)) g = (ℓ : EReal) := fun k g => logProb_real _ _ _ g
  choose ℓ hℓ using hℓ
  have key : ∀ (k : Fin 3) (g : Fin 256) (u : Fin 1), OUT (ix3 k g u) = -((ℓ k g : ℝ) : EReal) := fun k g u => by
    have hu : u = 0 := Subsingleton.elim _ _
    rw [hu, hOUT, negLogProb, hℓ]
  have hO : ∀ i : S3x256x1.Idx, OUT i = -((ℓ (i 0) (i 1) : ℝ) : EReal) := fun i =>
    (congrArg OUT (eq_ix3 i)).trans (key _ _ _)
  have hmx : matOf x = fun r d => (X r d : EReal) := funext fun r => funext fun d => hx r d
  have hmy : matOf y = fun r d => (Y r d : EReal) := funext fun r => funext fun d => hy r d
  have hmz : matOf z = fun r d => (Z r d : EReal) := funext fun r => funext fun d => hz r d
  funext i
  show Ideal.div (Ideal.hostReduceAdd reducesTo_S3x256x1_S_d0_1_2 OUT (Ideal.ofBits .f32 0x00000000#32) i)
      (Ideal.ofBits .f32 0x44400000#32) = _
  rw [Ideal.hostReduceAdd_total reducesTo_S3x256x1_S_d0_1_2 (fun b => b.elim0) OUT _ i, Ideal.ofBits_zero_f32, word_768]
  simp only [hO]
  rw [mean_of_means ℓ, total, meanLoss, meanLoss, meanLoss, hmx, hmy, hmz]
  have e0 : ∀ g, logProb (fun r d => (X r d : EReal)) (fun r d => (Y r d : EReal)) (fun r d => (Z r d : EReal)) g
      = ((ℓ 0 g : ℝ) : EReal) := fun g => hℓ 0 g
  have e1 : ∀ g, logProb (fun r d => (Y r d : EReal)) (fun r d => (X r d : EReal)) (fun r d => (Z r d : EReal)) g
      = ((ℓ 1 g : ℝ) : EReal) := fun g => hℓ 1 g
  have e2 : ∀ g, logProb (fun r d => (Z r d : EReal)) (fun r d => (X r d : EReal)) (fun r d => (Y r d : EReal)) g
      = ((ℓ 2 g : ℝ) : EReal) := fun g => hℓ 2 g
  simp only [e0, e1, e2]

end Cert.Bridge

end
-- ==== Proof.Finite.lean ====
/-
  Every entry of the three inputs is a real number.

  The precondition compares the absolute value of every entry of each input with +∞ and takes the conjunction over
  all entries and over the three inputs. An extended real whose absolute value max (x, −x) lies strictly below +∞ is
  neither +∞ nor −∞, so it is (the image of) a real.
-/
import proofs.«157399_j21638045237260_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx Cert.Pre_finite_inputs

instance : Subsingleton S_.Idx := ⟨fun a b => funext fun d => d.elim0⟩

variable [Cert.Pre_finite_inputs.Facts]

/-- An entry whose absolute value compares below +∞ is a real number. -/
theorem real_of_lt (x : FVec Ideal S256x512 .f32) (i : S256x512.Idx)
    (h : cmpf .olt (Host.absf x) (broadcastInDim S256x512 ![] Facts.bcast_S_S256x512 (constant S_ .f32 0x7F800000#32)) i = 1#1) :
    ∃ r : ℝ, x i = (r : EReal) := by
  simp only [cmpf, Host.absf, broadcastInDim, constant] at h
  have htop : FloatOps.ofBits (F := Ideal) .f32 0x7F800000#32 = (⊤ : EReal) := by
    simp [Ideal.ofBits, Ideal.ieee]
  have hlt : max (x i) (-(x i)) < (⊤ : EReal) := by
    rw [Ideal.hostAbsf_def, Ideal.cmpf_def, Ideal.absf_def, htop] at h
    by_contra hc
    simp [Ideal.cmp, hc] at h
  induction hx : x i using EReal.rec with
  | bot => rw [hx] at hlt; simp at hlt
  | top => rw [hx] at hlt; simp at hlt
  | coe r => exact ⟨r, rfl⟩

theorem finite_of_pre (x y z : FVec Ideal S256x512 .f32)
    (h : Cert.Pre_finite_inputs.fn (F := Ideal) x y z = fun _ => 1#1) :
    (∀ i, ∃ r : ℝ, x i = (r : EReal)) ∧ (∀ i, ∃ r : ℝ, y i = (r : EReal)) ∧ (∀ i, ∃ r : ℝ, z i = (r : EReal)) := by
  have h0 := congrFun h ix0
  dsimp only [Cert.Pre_finite_inputs.fn] at h0
  obtain ⟨h12, h3⟩ := IntOp.andi_eq_one.1 h0
  obtain ⟨h1, h2⟩ := IntOp.andi_eq_one.1 h12
  exact ⟨fun i => real_of_lt x i (Host.reduce_andi_all _ _ _ _ ix0 h1 i),
    fun i => real_of_lt y i (Host.reduce_andi_all _ _ _ _ ix0 h2 i),
    fun i => real_of_lt z i (Host.reduce_andi_all _ _ _ _ ix0 h3 i)⟩

end Cert.Finite

end
-- ==== Proof.Bridge.lean ====
/-
  The kernel's result is the reference's closed form. For finite (hence real) inputs, every grid point's output block
  holds, row by row, minus the diagonal log-probability of the row of its configuration; the six blocks tile the
  [3, 256, 1] array; and the host's sum of that array divided by 768 is the mean of the three mean losses.
-/
import proofs.«157399_j21638045237260_2_alg».proof.Proof.KIdealRun
import proofs.«157399_j21638045237260_2_alg».proof.Proof.KIdealRunRead
import proofs.«157399_j21638045237260_2_alg».proof.Proof.BridgeRow
import proofs.«157399_j21638045237260_2_alg».proof.Proof.BridgeTail
import proofs.«157399_j21638045237260_2_alg».proof.Proof.Finite

noncomputable section

namespace Cert.Bridge

open Idealize.ShloMosaic Idealize.ShloMosaic.TcCoe Idealize.ShloMosaic.ValueIdx Idealize.SL.Sem
open Cert.KernelIdeal Cert.KernelIdeal.Hand Cert.RefRow Cert.ReferenceIdeal.RefRead

variable [Cert.KernelIdeal.Facts] [Cert.Pre_finite_inputs.Facts]

variable (m : (ℓ : Loc nD τ sig) → Buf (Elt Ideal) ℓ)

/-- The real entries of an argument array all of whose entries are reals. -/
def realOf (x : FVec Ideal S256x512 .f32) : Fin 256 → Fin 512 → ℝ := fun r d => (x (ix2 r d)).toReal

theorem realOf_spec (x : FVec Ideal S256x512 .f32) (hx : ∀ i, ∃ v : ℝ, x i = (v : EReal)) (r : Fin 256) (d : Fin 512) :
    x (ix2 r d) = ((realOf x r d : ℝ) : EReal) := by
  obtain ⟨v, hv⟩ := hx (ix2 r d)
  unfold realOf
  rw [hv, EReal.toReal_coe]

section Stacks

variable {X Y Z : Fin 256 → Fin 512 → ℝ} (c : Dev nD)
  (hx : ∀ r d, (m ((c.tc : Thread nD τ).loc main_arg0) : S256x512.Idx → EReal) (ix2 r d) = (X r d : EReal))
  (hy : ∀ r d, (m ((c.tc : Thread nD τ).loc main_arg1) : S256x512.Idx → EReal) (ix2 r d) = (Y r d : EReal))
  (hz : ∀ r d, (m ((c.tc : Thread nD τ).loc main_arg2) : S256x512.Idx → EReal) (ix2 r d) = (Z r d : EReal))

include hx hy hz

/-- The three stacks the region finds, read at (configuration, row, column): the anchors [x; y; z], the row operands
    [y; x; x] and the rolled operands [z; z; y]. -/
theorem stack3_apply (k : Fin 3) (r : Fin 256) (d : Fin 512) :
    V m c main_v3 (ix3 k r d) = ((anchorOf X Y Z k r d : ℝ) : EReal) := by
  rw [V_main_v3_apply]
  match k with
  | ⟨0, _⟩ => exact hx r d
  | ⟨1, _⟩ => exact hy r d
  | ⟨2, _⟩ => exact hz r d

theorem stack7_apply (k : Fin 3) (r : Fin 256) (d : Fin 512) :
    V m c main_v7 (ix3 k r d) = ((rowOpOf X Y Z k r d : ℝ) : EReal) := by
  rw [V_main_v7_apply]
  match k with
  | ⟨0, _⟩ => exact hy r d
  | ⟨1, _⟩ => exact hx r d
  | ⟨2, _⟩ => exact hx r d

theorem stack11_apply (k : Fin 3) (r : Fin 256) (d : Fin 512) :
    V m c main_v11 (ix3 k r d) = ((rollOpOf X Y Z k r d : ℝ) : EReal) := by
  rw [V_main_v11_apply]
  match k with
  | ⟨0, _⟩ => exact hz r d
  | ⟨1, _⟩ => exact hz r d
  | ⟨2, _⟩ => exact hy r d

end Stacks

theorem kernel_value (c : Dev nD)
    (hpre : Cert.Pre_finite_inputs.fn (F := Ideal) (m ((c.tc : Thread nD τ).loc main_arg0))
      (m ((c.tc : Thread nD τ).loc main_arg1)) (m ((c.tc : Thread nD τ).loc main_arg2)) = fun _ => 1#1) :
    Host.divf (Host.reduceAdd (OUT m c) (constant (F := Ideal) S_ .f32 0x00000000#32)
        Facts₀.reducesTo_S3x256x1_S_d0_1_2 Facts₀.h_S_) (constant (F := Ideal) S_ .f32 0x44400000#32)
      = fun _ => total (matOf (m ((c.tc : Thread nD τ).loc main_arg0))) (matOf (m ((c.tc : Thread nD τ).loc main_arg1)))
          (matOf (m ((c.tc : Thread nD τ).loc main_arg2))) := by
  obtain ⟨fx, fy, fz⟩ := Cert.Finite.finite_of_pre _ _ _ hpre
  have hx := realOf_spec _ fx
  have hy := realOf_spec _ fy
  have hz := realOf_spec _ fz
  refine tail_eq _ _ _ _ _ _ hx hy hz (OUT m c) ?_
  have hO : OUT m c = fun i : S3x256x1.Idx => negLogProb (realOf (m ((c.tc : Thread nD τ).loc main_arg0)))
      (realOf (m ((c.tc : Thread nD τ).loc main_arg1))) (realOf (m ((c.tc : Thread nD τ).loc main_arg2))) (i 0) (i 1) := by
    refine arrAt5_eq_pointwise m c _ fun t a => ?_
    show _ = negLogProb _ _ _ (cfgOf t) (rowOf t a)
    unfold negLogProb
    refine out_point _ _ _ (rowOf t) _ _ _ _ _ ?_ ?_ ?_ ?_ ?_ a
    · intro a d; rw [iblk0_apply, stack3_apply m c hx hy hz]
    · intro r d; rw [iblk1_apply, stack7_apply m c hx hy hz]
    · intro r d; rw [iblk2_apply, stack11_apply m c hx hy hz]
    · intro a d; rw [iblk3_apply, stack7_apply m c hx hy hz]
    · intro a d; rw [iblk4_apply, stack11_apply m c hx hy hz]
  intro k g
  rw [hO]

end Cert.Bridge

end
-- ==== Proof.lean ====
/-
  The certificate's five claims, assembled.

  The kernel computes, for each of three configurations (anchor; row operand, rolled operand) of the three inputs and
  each query row, the log-sum-exp over all 256 × 256 key pairs (shift, row) of the anchor row's inner product with the
  product of a row of the second operand and the correspondingly rolled row of the third, less the diagonal logit; then
  the mean of the 768 per-row values. It does so blockwise with a running maximum and a running sum of exponentials.
  The reference computes the same logits in one pass, takes a log-softmax per row, gathers the diagonal, averages per
  configuration and averages the three. On the extended reals with finite inputs the two are the same number.

  * The three frame claims: each program runs to its end with the arguments unchanged — the two kernel programs
    through their one region between two stretches of host operations, the reference as one stretch of host operations.
  * The idealization rewrote nothing, so the preservation claim is trivial.
  * The value claim: the kernel's run leaves its result at the host tail applied to the region's [3, 256, 1] array,
    which holds minus the reference's diagonal log-probabilities row by row (the online pair ends at the row's largest
    score and its sum of shifted exponentials); the tail's mean over 768 rows is the reference's mean of three means.
    The reference's run leaves its result at its operations' composed term, read down to the same closed form.
-/
import proofs.«157399_j21638045237260_2_alg».proof.Defs
import proofs.«157399_j21638045237260_2_alg».proof.Proof.Gen.Kernel
import proofs.«157399_j21638045237260_2_alg».proof.Proof.Gen.KernelIdeal
import proofs.«157399_j21638045237260_2_alg».proof.Proof.Gen.ReferenceIdeal
import proofs.«157399_j21638045237260_2_alg».proof.Proof.Gen.Pre_finite_inputs
import proofs.«157399_j21638045237260_2_alg».proof.Proof.KRun
import proofs.«157399_j21638045237260_2_alg».proof.Proof.KIdealRun
import proofs.«157399_j21638045237260_2_alg».proof.Proof.RefRun
import proofs.«157399_j21638045237260_2_alg».proof.Proof.RefRead
import proofs.«157399_j21638045237260_2_alg».proof.Proof.Bridge

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts)
    (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts)
    (hPre_finite_inputs := Cert.Pre_finite_inputs.Gen.facts) :=
  fun m ρ _ => Cert.ReferenceIdeal.Hand.frame (F := Ideal) m ρ

/-- Both runs end at the closed form of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c _ => Cert.ReferenceIdeal.RefRead.total
      (Cert.Bridge.matOf (m ((c.tc : Thread Cert.KernelIdeal.nD Cert.KernelIdeal.τ).loc Cert.KernelIdeal.main_arg0)))
      (Cert.Bridge.matOf (m ((c.tc : Thread Cert.KernelIdeal.nD Cert.KernelIdeal.τ).loc Cert.KernelIdeal.main_arg1)))
      (Cert.Bridge.matOf (m ((c.tc : Thread Cert.KernelIdeal.nD Cert.KernelIdeal.τ).loc Cert.KernelIdeal.main_arg2))), ?_, ?_⟩
  · exact (θ_run (Cert.KernelIdeal.defs (F := Ideal)) _ _).mono
      (fun _ h c => ⟨(h c).1.trans (Cert.Bridge.kernel_value m c (hpre c)), (h c).2⟩)
      (Cert.KernelIdeal.Hand.run_value (F := Ideal) m ρ)
  · refine (θ_run (Cert.ReferenceIdeal.defs (F := Ideal)) _ _).mono (fun _ h c => ⟨(h c).1.trans ?_, (h c).2⟩)
      (Cert.ReferenceIdeal.Hand.run (F := Ideal) m' ρ')
    rw [(hagree c).1, (hagree c).2.1, (hagree c).2.2]
    exact Cert.ReferenceIdeal.RefRead.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
